-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x1024 : Shape := ⟨2, ![16, 1024]⟩
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : IVec S16x1024 32) (main_arg1 : FVec F S8192x64 .f32) : IVec S_ 1 :=
  let main_v0 : FVec F S8192x64 .f32 := Host.absf main_arg1
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_c_0 : IVec S_ 32 := constantI S_ 32 0#32
  let main_v4 : IVec S16x1024 32 := broadcastInDim S16x1024 ![] bcast_S_S16x1024 main_c_0
  let main_v5 : IVec S16x1024 1 := cmpi .sge main_arg0 main_v4
  let main_c_1 : IVec S_ 32 := constantI S_ 32 8191#32
  let main_v6 : IVec S16x1024 32 := broadcastInDim S16x1024 ![] bcast_S_S16x1024 main_c_1
  let main_v7 : IVec S16x1024 1 := cmpi .sle main_arg0 main_v6
  let main_v8 : IVec S16x1024 1 := andi main_v5 main_v7
  let main_c_2 : IVec S_ 1 := constantI S_ 1 1#1
  let main_v9 : IVec S_ 1 := (fun x v => Host.reduce IntOp.andi x v reducesTo_S16x1024_S_d0_1 h_S_) main_v8 main_c_2
  let main_v10 : IVec S_ 1 := andi main_v3 main_v9
  main_v10
-- ==== Kernel.lean ====
abbrev S16x1024 : Shape := ⟨2, ![16, 1024]⟩
abbrev S8192x64 : Shape := ⟨2, ![8192, 64]⟩
abbrev S_ : Shape := ⟨0, ![]⟩
abbrev S8192x128 : Shape := ⟨2, ![8192, 128]⟩
abbrev S16x1024x64 : Shape := ⟨3, ![16, 1024, 64]⟩
abbrev S512 : Shape := ⟨1, ![512]⟩
abbrev S2x128x128 : Shape := ⟨3, ![2, 128, 128]⟩
abbrev S2x128x64 : Shape := ⟨3, ![2, 128, 64]⟩
abbrev S1x512 : Shape := ⟨2, ![1, 512]⟩
abbrev S1x128x128 : Shape := ⟨3, ![1, 128, 128]⟩
abbrev S128x128 : Shape := ⟨2, ![128, 128]⟩
abbrev S128 : Shape := ⟨1, ![128]⟩
abbrev S1x1x16 : Shape := ⟨3, ![1, 1, 16]⟩
abbrev S16 : Shape := ⟨1, ![16]⟩
abbrev S1x128x64 : Shape := ⟨3, ![1, 128, 64]⟩
abbrev S128x64 : Shape := ⟨2, ![128, 64]⟩

abbrev nBuf : Table → Nat
  | .hbm => 6
  | .local .scVector .vmem => 3
  | _ => 0

abbrev bufTy : (tb : Table) → Fin (nBuf tb) → BufTy
  | .hbm, ⟨0, _⟩ => ⟨S16x1024, .i32⟩
  | .hbm, ⟨1, _⟩ => ⟨S8192x64, .f32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S16x1024x64, .f32⟩
  | .local .scVector .vmem, ⟨0, _⟩ => ⟨S512, .i32⟩
  | .local .scVector .vmem, ⟨1, _⟩ => ⟨S2x128x128, .f32⟩
  | .local .scVector .vmem, ⟨2, _⟩ => ⟨S2x128x64, .f32⟩
  | _, _ => ⟨S16x1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v0_scv : Ref sig .scVector := ⟨.hbm, 4, rfl⟩
abbrev main_arg0_scv : Ref sig .scVector := ⟨.hbm, 0, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v29.toNat]
@[reducible] def k0_t1_loop : Scf.Loop 32 :=
  let c0_i32_29 : BitVec 32 := 0#32
  let c128_i32_30 : BitVec 32 := 128#32
  let v42 : BitVec 32 := Scalar.addi c0_i32_29 c128_i32_30
  let c1_i32_31 : BitVec 32 := 1#32
  ⟨c0_i32_29, v42, c1_i32_31⟩
def k0_off2 (k0_t1 : Fin k0_t1_loop.trips) : Fin 3 → Nat :=
  let c0_i32_140 : BitVec 32 := 0#32
  let v138 : Index := Scalar.indexCast c0_i32_140
  let c0_i32_29 : BitVec 32 := 0#32
  let c1_i32_31 : BitVec 32 := 1#32
  let arg12 : BitVec 32 := Scf.iv c0_i32_29 c1_i32_31 k0_t1
  let v139 : Index := Scalar.indexCast arg12
  let c0 : Index := 0#32
  ![0, v139.toNat, 0]
def k0_off3 (k0_t1 : Fin k0_t1_loop.trips) : Fin 3 → Nat :=
  let c0_i32_141 : BitVec 32 := 0#32
  let v142 : Index := Scalar.indexCast c0_i32_141
  let c0_i32_29 : BitVec 32 := 0#32
  let c1_i32_31 : BitVec 32 := 1#32
  let arg12 : BitVec 32 := Scf.iv c0_i32_29 c1_i32_31 k0_t1
  let v143 : Index := Scalar.indexCast arg12
  let c0_142 : Index := 0#32
  ![0, v143.toNat, 0]
def k0_off4 (k0_t1 : Fin k0_t1_loop.trips) : Fin 3 → Nat :=
  let c0_i32_143 : BitVec 32 := 0#32
  let v147 : Index := Scalar.indexCast c0_i32_143
  let c0_i32_29 : BitVec 32 := 0#32
  let c1_i32_31 : BitVec 32 := 1#32
  let arg12 : BitVec 32 := Scf.iv c0_i32_29 c1_i32_31 k0_t1
  let v148 : Index := Scalar.indexCast arg12
  let c16 : Index := 16#32
  ![0, v148.toNat, 16]
def k0_off5 (k0_t1 : Fin k0_t1_loop.trips) : Fin 3 → Nat :=
  let c0_i32_144 : BitVec 32 := 0#32
  let v151 : Index := Scalar.indexCast c0_i32_144
  let c0_i32_29 : BitVec 32 := 0#32
  let c1_i32_31 : BitVec 32 := 1#32
  let arg12 : BitVec 32 := Scf.iv c0_i32_29 c1_i32_31 k0_t1
  let v152 : Index := Scalar.indexCast arg12
  let c16_145 : Index := 16#32
  ![0, v152.toNat, 16]
def k0_off6 (k0_t1 : Fin k0_t1_loop.trips) : Fin 3 → Nat :=
  let c0_i32_146 : BitVec 32 := 0#32
  let v156 : Index := Scalar.indexCast c0_i32_146
  let c0_i32_29 : BitVec 32 := 0#32
  let c1_i32_31 : BitVec 32 := 1#32
  let arg12 : BitVec 32 := Scf.iv c0_i32_29 c1_i32_31 k0_t1
  let v157 : Index := Scalar.indexCast arg12
  let c32 : Index := 32#32
  ![0, v157.toNat, 32]
def k0_off7 (k0_t1 : Fin k0_t1_loop.trips) : Fin 3 → Nat :=
  let c0_i32_147 : BitVec 32 := 0#32
  let v160 : Index := Scalar.indexCast c0_i32_147
  let c0_i32_29 : BitVec 32 := 0#32
  let c1_i32_31 : BitVec 32 := 1#32
  let arg12 : BitVec 32 := Scf.iv c0_i32_29 c1_i32_31 k0_t1
  let v161 : Index := Scalar.indexCast arg12
  let c32_148 : Index := 32#32
  ![0, v161.toNat, 32]
def k0_off8 (k0_t1 : Fin k0_t1_loop.trips) : Fin 3 → Nat :=
  let c0_i32_149 : BitVec 32 := 0#32
  let v165 : Index := Scalar.indexCast c0_i32_149
  let c0_i32_29 : BitVec 32 := 0#32
  let c1_i32_31 : BitVec 32 := 1#32
  let arg12 : BitVec 32 := Scf.iv c0_i32_29 c1_i32_31 k0_t1
  let v166 : Index := Scalar.indexCast arg12
  let c48 : Index := 48#32
  ![0, v166.toNat, 48]
def k0_off9 (k0_t1 : Fin k0_t1_loop.trips) : Fin 3 → Nat :=
  let c0_i32_150 : BitVec 32 := 0#32
  let v169 : Index := Scalar.indexCast c0_i32_150
  let c0_i32_29 : BitVec 32 := 0#32
  let c1_i32_31 : BitVec 32 := 1#32
  let arg12 : BitVec 32 := Scf.iv c0_i32_29 c1_i32_31 k0_t1
  let v170 : Index := Scalar.indexCast arg12
  let c48_151 : Index := 48#32
  ![0, v170.toNat, 48]
def k0_off10 (i : grid0.Coords) (c0_i32_33 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v43 : BitVec 32 := Scalar.addi v29 c0_i32_33
  let c0_i32_37 : BitVec 32 := 0#32
  ![v18.toNat, v43.toNat, 0]
@[reducible] def k0_t2_loop : Scf.Loop 32 :=
  let c0_i32_53 : BitVec 32 := 0#32
  let c128_i32_54 : BitVec 32 := 128#32
  let v60 : BitVec 32 := Scalar.addi c0_i32_53 c128_i32_54
  let c1_i32_55 : BitVec 32 := 1#32
  ⟨c0_i32_53, v60, c1_i32_55⟩
def k0_off11 (k0_t2 : Fin k0_t2_loop.trips) : Fin 3 → Nat :=
  let c1_i32_140 : BitVec 32 := 1#32
  let v138 : Index := Scalar.indexCast c1_i32_140
  let c0_i32_53 : BitVec 32 := 0#32
  let c1_i32_55 : BitVec 32 := 1#32
  let arg12 : BitVec 32 := Scf.iv c0_i32_53 c1_i32_55 k0_t2
  let v139 : Index := Scalar.indexCast arg12
  let c0 : Index := 0#32
  ![1, v139.toNat, 0]
def k0_off12 (k0_t2 : Fin k0_t2_loop.trips) : Fin 3 → Nat :=
  let c1_i32_141 : BitVec 32 := 1#32
  let v142 : Index := Scalar.indexCast c1_i32_141
  let c0_i32_53 : BitVec 32 := 0#32
  let c1_i32_55 : BitVec 32 := 1#32
  let arg12 : BitVec 32 := Scf.iv c0_i32_53 c1_i32_55 k0_t2
  let v143 : Index := Scalar.indexCast arg12
  let c0_142 : Index := 0#32
  ![1, v143.toNat, 0]
def k0_off13 (k0_t2 : Fin k0_t2_loop.trips) : Fin 3 → Nat :=
  let c1_i32_143 : BitVec 32 := 1#32
  let v147 : Index := Scalar.indexCast c1_i32_143
  let c0_i32_53 : BitVec 32 := 0#32
  let c1_i32_55 : BitVec 32 := 1#32
  let arg12 : BitVec 32 := Scf.iv c0_i32_53 c1_i32_55 k0_t2
  let v148 : Index := Scalar.indexCast arg12
  let c16 : Index := 16#32
  ![1, v148.toNat, 16]
def k0_off14 (k0_t2 : Fin k0_t2_loop.trips) : Fin 3 → Nat :=
  let c1_i32_144 : BitVec 32 := 1#32
  let v151 : Index := Scalar.indexCast c1_i32_144
  let c0_i32_53 : BitVec 32 := 0#32
  let c1_i32_55 : BitVec 32 := 1#32
  let arg12 : BitVec 32 := Scf.iv c0_i32_53 c1_i32_55 k0_t2
  let v152 : Index := Scalar.indexCast arg12
  let c16_145 : Index := 16#32
  ![1, v152.toNat, 16]
def k0_off15 (k0_t2 : Fin k0_t2_loop.trips) : Fin 3 → Nat :=
  let c1_i32_146 : BitVec 32 := 1#32
  let v156 : Index := Scalar.indexCast c1_i32_146
  let c0_i32_53 : BitVec 32 := 0#32
  let c1_i32_55 : BitVec 32 := 1#32
  let arg12 : BitVec 32 := Scf.iv c0_i32_53 c1_i32_55 k0_t2
  let v157 : Index := Scalar.indexCast arg12
  let c32 : Index := 32#32
  ![1, v157.toNat, 32]
def k0_off16 (k0_t2 : Fin k0_t2_loop.trips) : Fin 3 → Nat :=
  let c1_i32_147 : BitVec 32 := 1#32
  let v160 : Index := Scalar.indexCast c1_i32_147
  let c0_i32_53 : BitVec 32 := 0#32
  let c1_i32_55 : BitVec 32 := 1#32
  let arg12 : BitVec 32 := Scf.iv c0_i32_53 c1_i32_55 k0_t2
  let v161 : Index := Scalar.indexCast arg12
  let c32_148 : Index := 32#32
  ![1, v161.toNat, 32]
def k0_off17 (k0_t2 : Fin k0_t2_loop.trips) : Fin 3 → Nat :=
  let c1_i32_149 : BitVec 32 := 1#32
  let v165 : Index := Scalar.indexCast c1_i32_149
  let c0_i32_53 : BitVec 32 := 0#32
  let c1_i32_55 : BitVec 32 := 1#32
  let arg12 : BitVec 32 := Scf.iv c0_i32_53 c1_i32_55 k0_t2
  let v166 : Index := Scalar.indexCast arg12
  let c48 : Index := 48#32
  ![1, v166.toNat, 48]
def k0_off18 (k0_t2 : Fin k0_t2_loop.trips) : Fin 3 → Nat :=
  let c1_i32_150 : BitVec 32 := 1#32
  let v169 : Index := Scalar.indexCast c1_i32_150
  let c0_i32_53 : BitVec 32 := 0#32
  let c1_i32_55 : BitVec 32 := 1#32
  let arg12 : BitVec 32 := Scf.iv c0_i32_53 c1_i32_55 k0_t2
  let v170 : Index := Scalar.indexCast arg12
  let c48_151 : Index := 48#32
  ![1, v170.toNat, 48]
@[reducible] def k0_t3_loop : Scf.Loop 32 :=
  let c0_i32_85 : BitVec 32 := 0#32
  let c128_i32_86 : BitVec 32 := 128#32
  let v87 : BitVec 32 := Scalar.addi c0_i32_85 c128_i32_86
  let c1_i32_87 : BitVec 32 := 1#32
  ⟨c0_i32_85, v87, c1_i32_87⟩
def k0_off19 (k0_t3 : Fin k0_t3_loop.trips) : Fin 3 → Nat :=
  let c0_i32_140 : BitVec 32 := 0#32
  let v138 : Index := Scalar.indexCast c0_i32_140
  let c0_i32_85 : BitVec 32 := 0#32
  let c1_i32_87 : BitVec 32 := 1#32
  let arg12 : BitVec 32 := Scf.iv c0_i32_85 c1_i32_87 k0_t3
  let v139 : Index := Scalar.indexCast arg12
  let c0 : Index := 0#32
  ![0, v139.toNat, 0]
def k0_off20 (k0_t3 : Fin k0_t3_loop.trips) : Fin 3 → Nat :=
  let c0_i32_141 : BitVec 32 := 0#32
  let v142 : Index := Scalar.indexCast c0_i32_141
  let c0_i32_85 : BitVec 32 := 0#32
  let c1_i32_87 : BitVec 32 := 1#32
  let arg12 : BitVec 32 := Scf.iv c0_i32_85 c1_i32_87 k0_t3
  let v143 : Index := Scalar.indexCast arg12
  let c0_142 : Index := 0#32
  ![0, v143.toNat, 0]
def k0_off21 (k0_t3 : Fin k0_t3_loop.trips) : Fin 3 → Nat :=
  let c0_i32_143 : BitVec 32 := 0#32
  let v147 : Index := Scalar.indexCast c0_i32_143
  let c0_i32_85 : BitVec 32 := 0#32
  let c1_i32_87 : BitVec 32 := 1#32
  let arg12 : BitVec 32 := Scf.iv c0_i32_85 c1_i32_87 k0_t3
  let v148 : Index := Scalar.indexCast arg12
  let c16 : Index := 16#32
  ![0, v148.toNat, 16]
def k0_off22 (k0_t3 : Fin k0_t3_loop.trips) : Fin 3 → Nat :=
  let c0_i32_144 : BitVec 32 := 0#32
  let v151 : Index := Scalar.indexCast c0_i32_144
  let c0_i32_85 : BitVec 32 := 0#32
  let c1_i32_87 : BitVec 32 := 1#32
  let arg12 : BitVec 32 := Scf.iv c0_i32_85 c1_i32_87 k0_t3
  let v152 : Index := Scalar.indexCast arg12
  let c16_145 : Index := 16#32
  ![0, v152.toNat, 16]
def k0_off23 (k0_t3 : Fin k0_t3_loop.trips) : Fin 3 → Nat :=
  let c0_i32_146 : BitVec 32 := 0#32
  let v156 : Index := Scalar.indexCast c0_i32_146
  let c0_i32_85 : BitVec 32 := 0#32
  let c1_i32_87 : BitVec 32 := 1#32
  let arg12 : BitVec 32 := Scf.iv c0_i32_85 c1_i32_87 k0_t3
  let v157 : Index := Scalar.indexCast arg12
  let c32 : Index := 32#32
  ![0, v157.toNat, 32]
def k0_off24 (k0_t3 : Fin k0_t3_loop.trips) : Fin 3 → Nat :=
  let c0_i32_147 : BitVec 32 := 0#32
  let v160 : Index := Scalar.indexCast c0_i32_147
  let c0_i32_85 : BitVec 32 := 0#32
  let c1_i32_87 : BitVec 32 := 1#32
  let arg12 : BitVec 32 := Scf.iv c0_i32_85 c1_i32_87 k0_t3
  let v161 : Index := Scalar.indexCast arg12
  let c32_148 : Index := 32#32
  ![0, v161.toNat, 32]
def k0_off25 (k0_t3 : Fin k0_t3_loop.trips) : Fin 3 → Nat :=
  let c0_i32_149 : BitVec 32 := 0#32
  let v165 : Index := Scalar.indexCast c0_i32_149
  let c0_i32_85 : BitVec 32 := 0#32
  let c1_i32_87 : BitVec 32 := 1#32
  let arg12 : BitVec 32 := Scf.iv c0_i32_85 c1_i32_87 k0_t3
  let v166 : Index := Scalar.indexCast arg12
  let c48 : Index := 48#32
  ![0, v166.toNat, 48]
def k0_off26 (k0_t3 : Fin k0_t3_loop.trips) : Fin 3 → Nat :=
  let c0_i32_150 : BitVec 32 := 0#32
  let v169 : Index := Scalar.indexCast c0_i32_150
  let c0_i32_85 : BitVec 32 := 0#32
  let c1_i32_87 : BitVec 32 := 1#32
  let arg12 : BitVec 32 := Scf.iv c0_i32_85 c1_i32_87 k0_t3
  let v170 : Index := Scalar.indexCast arg12
  let c48_151 : Index := 48#32
  ![0, v170.toNat, 48]
@[reducible] def k0_t4_loop : Scf.Loop 32 :=
  let c0_i32_112 : BitVec 32 := 0#32
  let c128_i32_113 : BitVec 32 := 128#32
  let v110 : BitVec 32 := Scalar.addi c0_i32_112 c128_i32_113
  let c1_i32_114 : BitVec 32 := 1#32
  ⟨c0_i32_112, v110, c1_i32_114⟩
def k0_off27 (k0_t4 : Fin k0_t4_loop.trips) : Fin 3 → Nat :=
  let c1_i32_140 : BitVec 32 := 1#32
  let v138 : Index := Scalar.indexCast c1_i32_140
  let c0_i32_112 : BitVec 32 := 0#32
  let c1_i32_114 : BitVec 32 := 1#32
  let arg12 : BitVec 32 := Scf.iv c0_i32_112 c1_i32_114 k0_t4
  let v139 : Index := Scalar.indexCast arg12
  let c0 : Index := 0#32
  ![1, v139.toNat, 0]
def k0_off28 (k0_t4 : Fin k0_t4_loop.trips) : Fin 3 → Nat :=
  let c1_i32_141 : BitVec 32 := 1#32
  let v142 : Index := Scalar.indexCast c1_i32_141
  let c0_i32_112 : BitVec 32 := 0#32
  let c1_i32_114 : BitVec 32 := 1#32
  let arg12 : BitVec 32 := Scf.iv c0_i32_112 c1_i32_114 k0_t4
  let v143 : Index := Scalar.indexCast arg12
  let c0_142 : Index := 0#32
  ![1, v143.toNat, 0]
def k0_off29 (k0_t4 : Fin k0_t4_loop.trips) : Fin 3 → Nat :=
  let c1_i32_143 : BitVec 32 := 1#32
  let v147 : Index := Scalar.indexCast c1_i32_143
  let c0_i32_112 : BitVec 32 := 0#32
  let c1_i32_114 : BitVec 32 := 1#32
  let arg12 : BitVec 32 := Scf.iv c0_i32_112 c1_i32_114 k0_t4
  let v148 : Index := Scalar.indexCast arg12
  let c16 : Index := 16#32
  ![1, v148.toNat, 16]
def k0_off30 (k0_t4 : Fin k0_t4_loop.trips) : Fin 3 → Nat :=
  let c1_i32_144 : BitVec 32 := 1#32
  let v151 : Index := Scalar.indexCast c1_i32_144
  let c0_i32_112 : BitVec 32 := 0#32
  let c1_i32_114 : BitVec 32 := 1#32
  let arg12 : BitVec 32 := Scf.iv c0_i32_112 c1_i32_114 k0_t4
  let v152 : Index := Scalar.indexCast arg12
  let c16_145 : Index := 16#32
  ![1, v152.toNat, 16]
def k0_off31 (k0_t4 : Fin k0_t4_loop.trips) : Fin 3 → Nat :=
  let c1_i32_146 : BitVec 32 := 1#32
  let v156 : Index := Scalar.indexCast c1_i32_146
  let c0_i32_112 : BitVec 32 := 0#32
  let c1_i32_114 : BitVec 32 := 1#32
  let arg12 : BitVec 32 := Scf.iv c0_i32_112 c1_i32_114 k0_t4
  let v157 : Index := Scalar.indexCast arg12
  let c32 : Index := 32#32
  ![1, v157.toNat, 32]
def k0_off32 (k0_t4 : Fin k0_t4_loop.trips) : Fin 3 → Nat :=
  let c1_i32_147 : BitVec 32 := 1#32
  let v160 : Index := Scalar.indexCast c1_i32_147
  let c0_i32_112 : BitVec 32 := 0#32
  let c1_i32_114 : BitVec 32 := 1#32
  let arg12 : BitVec 32 := Scf.iv c0_i32_112 c1_i32_114 k0_t4
  let v161 : Index := Scalar.indexCast arg12
  let c32_148 : Index := 32#32
  ![1, v161.toNat, 32]
def k0_off33 (k0_t4 : Fin k0_t4_loop.trips) : Fin 3 → Nat :=
  let c1_i32_149 : BitVec 32 := 1#32
  let v165 : Index := Scalar.indexCast c1_i32_149
  let c0_i32_112 : BitVec 32 := 0#32
  let c1_i32_114 : BitVec 32 := 1#32
  let arg12 : BitVec 32 := Scf.iv c0_i32_112 c1_i32_114 k0_t4
  let v166 : Index := Scalar.indexCast arg12
  let c48 : Index := 48#32
  ![1, v166.toNat, 48]
def k0_off34 (k0_t4 : Fin k0_t4_loop.trips) : Fin 3 → Nat :=
  let c1_i32_150 : BitVec 32 := 1#32
  let v169 : Index := Scalar.indexCast c1_i32_150
  let c0_i32_112 : BitVec 32 := 0#32
  let c1_i32_114 : BitVec 32 := 1#32
  let arg12 : BitVec 32 := Scf.iv c0_i32_112 c1_i32_114 k0_t4
  let v170 : Index := Scalar.indexCast arg12
  let c48_151 : Index := 48#32
  ![1, v170.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  pads_S8192x64_S8192x128_000_0640 : S8192x64.Pads (![0, 0] : Fin 2 → Nat) ![0, 64] ![0, 0] S8192x128
  h_S_ : 0 < S_.numel
  squeezes_S1x512_S512 : S1x512.Squeezes S512
  inb_S2x128x128_S1x128x128_0_0_0 : ∀ a, (![0, 0, 0] : Fin 3 → Nat) a + S1x128x128.size a ≤ S2x128x128.size a
  squeezes_S1x128x128_S128x128 : S1x128x128.Squeezes S128x128
  inb_S512_S128_0 : ∀ a, (![0] : Fin 1 → Nat) a + S128.size a ≤ S512.size a
  inb_S8192x128_S8192x128_0_0 : ∀ a, (![0, 0] : Fin 2 → Nat) a + S8192x128.size a ≤ S8192x128.size a
  gathers_S8192x128_S128x128 : S8192x128.Gathers 0 S128x128
  inb_S2x128x128_S1x128x128_1_0_0 : ∀ a, (![1, 0, 0] : Fin 3 → Nat) a + S1x128x128.size a ≤ S2x128x128.size a
  inb_S512_S128_128 : ∀ a, (![128] : Fin 1 → Nat) a + S128.size a ≤ S512.size a
  h_S1x1x16 : 0 < S1x1x16.numel
  shapeCasts_S1x1x16_S16 : S1x1x16.ShapeCasts S16
  shapeCasts_S16_S1x1x16 : S16.ShapeCasts S1x1x16
  inb_S2x128x64_S1x128x64_0_0_0 : ∀ a, (![0, 0, 0] : Fin 3 → Nat) a + S1x128x64.size a ≤ S2x128x64.size a
  squeezes_S1x128x64_S128x64 : S1x128x64.Squeezes S128x64
  inb_S512_S128_256 : ∀ a, (![256] : Fin 1 → Nat) a + S128.size a ≤ S512.size a
  inb_S2x128x64_S1x128x64_1_0_0 : ∀ a, (![1, 0, 0] : Fin 3 → Nat) a + S1x128x64.size a ≤ S2x128x64.size a
  inb_S512_S128_384 : ∀ a, (![384] : Fin 1 → Nat) a + S128.size a ≤ S512.size a
  hcc0_scratch3 : 0 + S_.numel ≤ 5
  hcc0_scratch4 : 1 + S_.numel ≤ 5
  hcc0_scratch5 : 2 + S_.numel ≤ 5
  hcc0_scratch6 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x512.size a ≤ S16x1024.size a
  k0_t1_ok : k0_t1_loop.OK
  k0_off2_inb : ∀ k0_t1 : Fin k0_t1_loop.trips, ∀ a, (k0_off2 k0_t1) a + S1x1x16.size a ≤ S2x128x128.size a
  k0_off3_inb : ∀ k0_t1 : Fin k0_t1_loop.trips, ∀ a, (k0_off3 k0_t1) a + S1x1x16.size a ≤ S2x128x64.size a
  k0_off4_inb : ∀ k0_t1 : Fin k0_t1_loop.trips, ∀ a, (k0_off4 k0_t1) a + S1x1x16.size a ≤ S2x128x128.size a
  k0_off5_inb : ∀ k0_t1 : Fin k0_t1_loop.trips, ∀ a, (k0_off5 k0_t1) a + S1x1x16.size a ≤ S2x128x64.size a
  k0_off6_inb : ∀ k0_t1 : Fin k0_t1_loop.trips, ∀ a, (k0_off6 k0_t1) a + S1x1x16.size a ≤ S2x128x128.size a
  k0_off7_inb : ∀ k0_t1 : Fin k0_t1_loop.trips, ∀ a, (k0_off7 k0_t1) a + S1x1x16.size a ≤ S2x128x64.size a
  k0_off8_inb : ∀ k0_t1 : Fin k0_t1_loop.trips, ∀ a, (k0_off8 k0_t1) a + S1x1x16.size a ≤ S2x128x128.size a
  k0_off9_inb : ∀ k0_t1 : Fin k0_t1_loop.trips, ∀ a, (k0_off9 k0_t1) a + S1x1x16.size a ≤ S2x128x64.size a
  k0_off10_inb : ∀ i : grid0.Coords, ∀ (r : Fin 4), ∀ a, (k0_off10 i (BitVec.ofNat 32 (128 * r.val))) a + S1x128x64.size a ≤ S16x1024x64.size a
  k0_t2_ok : k0_t2_loop.OK
  k0_off11_inb : ∀ k0_t2 : Fin k0_t2_loop.trips, ∀ a, (k0_off11 k0_t2) a + S1x1x16.size a ≤ S2x128x128.size a
  k0_off12_inb : ∀ k0_t2 : Fin k0_t2_loop.trips, ∀ a, (k0_off12 k0_t2) a + S1x1x16.size a ≤ S2x128x64.size a
  k0_off13_inb : ∀ k0_t2 : Fin k0_t2_loop.trips, ∀ a, (k0_off13 k0_t2) a + S1x1x16.size a ≤ S2x128x128.size a
  k0_off14_inb : ∀ k0_t2 : Fin k0_t2_loop.trips, ∀ a, (k0_off14 k0_t2) a + S1x1x16.size a ≤ S2x128x64.size a
  k0_off15_inb : ∀ k0_t2 : Fin k0_t2_loop.trips, ∀ a, (k0_off15 k0_t2) a + S1x1x16.size a ≤ S2x128x128.size a
  k0_off16_inb : ∀ k0_t2 : Fin k0_t2_loop.trips, ∀ a, (k0_off16 k0_t2) a + S1x1x16.size a ≤ S2x128x64.size a
  k0_off17_inb : ∀ k0_t2 : Fin k0_t2_loop.trips, ∀ a, (k0_off17 k0_t2) a + S1x1x16.size a ≤ S2x128x128.size a
  k0_off18_inb : ∀ k0_t2 : Fin k0_t2_loop.trips, ∀ a, (k0_off18 k0_t2) a + S1x1x16.size a ≤ S2x128x64.size a
  k0_t3_ok : k0_t3_loop.OK
  k0_off19_inb : ∀ k0_t3 : Fin k0_t3_loop.trips, ∀ a, (k0_off19 k0_t3) a + S1x1x16.size a ≤ S2x128x128.size a
  k0_off20_inb : ∀ k0_t3 : Fin k0_t3_loop.trips, ∀ a, (k0_off20 k0_t3) a + S1x1x16.size a ≤ S2x128x64.size a
  k0_off21_inb : ∀ k0_t3 : Fin k0_t3_loop.trips, ∀ a, (k0_off21 k0_t3) a + S1x1x16.size a ≤ S2x128x128.size a
  k0_off22_inb : ∀ k0_t3 : Fin k0_t3_loop.trips, ∀ a, (k0_off22 k0_t3) a + S1x1x16.size a ≤ S2x128x64.size a
  k0_off23_inb : ∀ k0_t3 : Fin k0_t3_loop.trips, ∀ a, (k0_off23 k0_t3) a + S1x1x16.size a ≤ S2x128x128.size a
  k0_off24_inb : ∀ k0_t3 : Fin k0_t3_loop.trips, ∀ a, (k0_off24 k0_t3) a + S1x1x16.size a ≤ S2x128x64.size a
  k0_off25_inb : ∀ k0_t3 : Fin k0_t3_loop.trips, ∀ a, (k0_off25 k0_t3) a + S1x1x16.size a ≤ S2x128x128.size a
  k0_off26_inb : ∀ k0_t3 : Fin k0_t3_loop.trips, ∀ a, (k0_off26 k0_t3) a + S1x1x16.size a ≤ S2x128x64.size a
  k0_t4_ok : k0_t4_loop.OK
  k0_off27_inb : ∀ k0_t4 : Fin k0_t4_loop.trips, ∀ a, (k0_off27 k0_t4) a + S1x1x16.size a ≤ S2x128x128.size a
  k0_off28_inb : ∀ k0_t4 : Fin k0_t4_loop.trips, ∀ a, (k0_off28 k0_t4) a + S1x1x16.size a ≤ S2x128x64.size a
  k0_off29_inb : ∀ k0_t4 : Fin k0_t4_loop.trips, ∀ a, (k0_off29 k0_t4) a + S1x1x16.size a ≤ S2x128x128.size a
  k0_off30_inb : ∀ k0_t4 : Fin k0_t4_loop.trips, ∀ a, (k0_off30 k0_t4) a + S1x1x16.size a ≤ S2x128x64.size a
  k0_off31_inb : ∀ k0_t4 : Fin k0_t4_loop.trips, ∀ a, (k0_off31 k0_t4) a + S1x1x16.size a ≤ S2x128x128.size a
  k0_off32_inb : ∀ k0_t4 : Fin k0_t4_loop.trips, ∀ a, (k0_off32 k0_t4) a + S1x1x16.size a ≤ S2x128x64.size a
  k0_off33_inb : ∀ k0_t4 : Fin k0_t4_loop.trips, ∀ a, (k0_off33 k0_t4) a + S1x1x16.size a ≤ S2x128x128.size a
  k0_off34_inb : ∀ k0_t4 : Fin k0_t4_loop.trips, ∀ a, (k0_off34 k0_t4) a + S1x1x16.size a ≤ S2x128x64.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scoped0 : DmaSems sig S_ := SemArray.consecutive 4 S_ hcc0_scoped0

class Facts : Prop extends Facts₀ where

variable [Facts]
-- ==== ReferenceIdeal.lean ====
abbrev S16x1024 : Shape := ⟨2, ![16, 1024]⟩
abbrev S8192x64 : Shape := ⟨2, ![8192, 64]⟩
abbrev S_ : Shape := ⟨0, ![]⟩
abbrev S16x1024x1 : Shape := ⟨3, ![16, 1024, 1]⟩
abbrev S1 : Shape := ⟨1, ![1]⟩
abbrev S1x1x1 : Shape := ⟨3, ![1, 1, 1]⟩
abbrev S16x1024x64 : Shape := ⟨3, ![16, 1024, 64]⟩

abbrev nBuf : Space → Nat
  | .hbm => 25
  | .vmem => 0
  | .smem => 0
  | _ => 0

abbrev bufTy : (tb : Table) → Fin (tcTables nBuf tb) → BufTy
  | .hbm, ⟨0, _⟩ => ⟨S16x1024, .i32⟩
  | .hbm, ⟨1, _⟩ => ⟨S8192x64, .f32⟩
  | .hbm, ⟨2, _⟩ => ⟨S_, .i32⟩
  | .hbm, ⟨3, _⟩ => ⟨S16x1024, .i32⟩
  | .hbm, ⟨4, _⟩ => ⟨S16x1024, .i1⟩
  | .hbm, ⟨5, _⟩ => ⟨S_, .i32⟩
  | .hbm, ⟨6, _⟩ => ⟨S16x1024, .i32⟩
  | .hbm, ⟨7, _⟩ => ⟨S16x1024, .i32⟩
  | .hbm, ⟨8, _⟩ => ⟨S16x1024, .i32⟩
  | .hbm, ⟨9, _⟩ => ⟨S16x1024x1, .i32⟩
  | .hbm, ⟨10, _⟩ => ⟨S1, .i32⟩
  | .hbm, ⟨11, _⟩ => ⟨S_, .i32⟩
  | .hbm, ⟨12, _⟩ => ⟨S16x1024x1, .i32⟩
  | .hbm, ⟨13, _⟩ => ⟨S16x1024x1, .i1⟩
  | .hbm, ⟨14, _⟩ => ⟨S1x1x1, .i32⟩
  | .hbm, ⟨15, _⟩ => ⟨S16x1024x1, .i32⟩
  | .hbm, ⟨16, _⟩ => ⟨S16x1024x1, .i1⟩
  | .hbm, ⟨17, _⟩ => ⟨S16x1024x1, .i1⟩
  | .hbm, ⟨18, _⟩ => ⟨S_, .i1⟩
  | .hbm, ⟨19, _⟩ => ⟨S16x1024, .i1⟩
  | .hbm, ⟨20, _⟩ => ⟨S16x1024x64, .f32⟩
  | .hbm, ⟨21, _⟩ => ⟨S16x1024x64, .i1⟩
  | .hbm, ⟨22, _⟩ => ⟨S_, .f32⟩
  | .hbm, ⟨23, _⟩ => ⟨S16x1024x64, .f32⟩
  | .hbm, ⟨24, _⟩ => ⟨S16x1024x64, .f32⟩
  | _, _ => ⟨S16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S1_S1x1x1_2 : S1.BroadcastsInDim S1x1x1 (![2] : Fin 1 → Fin S1x1x1.rank)
  bcast_S1x1x1_S16x1024x1_0_1_2 : S1x1x1.BroadcastsInDim S16x1024x1 (![0, 1, 2] : Fin 3 → Fin S16x1024x1.rank)
  reducesTo_S16x1024x1_S16x1024_d2 : S16x1024x1.ReducesTo [2] S16x1024
  h_S_ : 0 < S_.numel
  bcast_S16x1024_S16x1024x64_0_1 : S16x1024.BroadcastsInDim S16x1024x64 (![0, 1] : Fin 2 → Fin S16x1024x64.rank)
  bcast_S_S16x1024x64 : S_.BroadcastsInDim S16x1024x64 (![] : Fin 0 → Fin S16x1024x64.rank)
  gather_S8192x64_S16x1024x1_S16x1024x64_2_0_n_n_0_2_164_wf : GatherDims.WF S8192x64 S16x1024x1 S16x1024x64 [2] [0] [] [0] [] 2 ![1, 64]

variable [Facts₀]

def gather_S8192x64_S16x1024x1_S16x1024x64_2_0_n_n_0_2_164 : GatherDims S8192x64 S16x1024x1 S16x1024x64 where
  offsetDims := [2]
  collapsedSliceDims := [0]
  operandBatchingDims := []
  startIndicesBatchingDims := []
  startIndexMap := [0]
  indexVectorDim := 2
  sliceSizes := ![1, 64]
  wf := gather_S8192x64_S16x1024x1_S16x1024x64_2_0_n_n_0_2_164_wf

class Facts : Prop extends Facts₀ where

variable [Facts]
-- ==== Proof.Spec.lean ====
/-
  The function both programs compute: an embedding lookup. For an index array `idx : [16, 1024]` of 32-bit words and a
  table `w : [8192, 64]`, the result `[16, 1024, 64]` holds at `(r, p, l)` entry `l` of the table row that the word
  `idx[r, p]` names. The row is taken modulo the table's height so that the function is total; for a word below 8192
  (what the precondition gives) it is the word's own value.
-/
import Idealize.ShloMosaic.PureOps
import Idealize.ShloMosaic.Lib.ValueIdx

namespace Cert.Spec

open Idealize.ShloMosaic Idealize.ShloMosaic.ValueIdx

abbrev SI : Shape := ⟨2, ![16, 1024]⟩
abbrev SW : Shape := ⟨2, ![8192, 64]⟩
abbrev SO : Shape := ⟨3, ![16, 1024, 64]⟩

/-- The table row a word names. -/
def rowOf (w : BitVec 32) : Fin 8192 := ⟨w.toNat % 8192, Nat.mod_lt _ (by decide)⟩

theorem rowOf_val_of_lt (w : BitVec 32) (h : w.toNat < 8192) : (rowOf w).val = w.toNat := Nat.mod_eq_of_lt h

/-- The looked-up array: `(r, p, l) ↦ w[idx[r, p], l]`. -/
def lookup {α : Type} (idx : SI.Idx → BitVec 32) (w : SW.Idx → α) : SO.Idx → α :=
  fun j => w (ix2 (rowOf (idx (ix2 (j 0) (j 1)))) (j 2))

theorem lookup_apply {α : Type} (idx : SI.Idx → BitVec 32) (w : SW.Idx → α) (r : Fin 16) (p : Fin 1024) (l : Fin 64) :
    lookup idx w (ix3 r p l) = w (ix2 (rowOf (idx (ix2 r p))) l) := rfl

end Cert.Spec
-- ==== Proof.Common.lean ====
/-
  Names shared by the modules about the kernel program: the program as the SparseCore launch theorem sees it, the
  locations of its arrays, the memrefs each vector subcore addresses — its 512 index words, the whole padded table,
  its four 128-row chunks of the result — and the statement each subcore's task is proved to satisfy.

  Subcore `(c, s)` (SparseCore `c` of 2, vector subcore `s` of 16) owns row `s` of the index array, columns
  `[512 c, 512 c + 512)`, and writes rows `[512 c + 128 r, 512 c + 128 r + 128)`, `r < 4`, of plane `s` of the result.
-/
import proofs.«206562_g3805341024366_cont_8to1_b_1019_21_alg».proof.Defs
import proofs.«206562_g3805341024366_cont_8to1_b_1019_21_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206562_g3805341024366_cont_8to1_b_1019_21_alg».proof.Proof.Gen.KernelIdeal
import proofs.«206562_g3805341024366_cont_8to1_b_1019_21_alg».proof.Proof.Gen.KernelIdeal.Skeleton

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The index array, the table, the padded table, the result, and the two scalars the padding computes. -/
abbrev iLoc (d : Dev nD) : Loc nD τ sig := (SparseCore.T d).loc main_arg0
abbrev wLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

/-- The arrays and scratch buffers as a vector subcore names them. -/
abbrev tV : Memref sig .scVector .hbm S8192x128 .f32 := Memref.whole main_v0_scv
abbrev iV : Memref sig .scVector .hbm S16x1024 .i32 := Memref.whole main_arg0_scv
abbrev oV : Memref sig .scVector .hbm S16x1024x64 .f32 := Memref.whole main_v1_scv
abbrev sV : Memref sig .scVector .vmem S512 .i32 := Memref.whole cc0_scratch0
abbrev rwV : Memref sig .scVector .vmem S2x128x128 .f32 := Memref.whole cc0_scratch1
abbrev rcV : Memref sig .scVector .vmem S2x128x64 .f32 := Memref.whole cc0_scratch2

abbrev cV (L : grid0.Coords) : Fin τ.nSC := (L 0).castLE hcore0
abbrev jV (L : grid0.Coords) : Fin τ.nSub := (L 1).castLE hsub0

/-- A subcore's 512 index words, as its task addresses them. -/
abbrev iRowK (L : grid0.Coords) : Memref sig .scVector .hbm S512 .i32 :=
  ((iV).slice (Rect.unit (s := S16x1024) (k0_off1 L) S1x512.size (k0_off1_inb L)) (fun _ => rfl)).squeeze S512 squeezes_S1x512_S512

/-- The 128 rows of the result that start at word offset `w` inside the subcore's 512, as its task addresses them. -/
abbrev oC (L : grid0.Coords) (w : BitVec 32) (h : ∀ a, (k0_off10 L w) a + S1x128x64.size a ≤ S16x1024x64.size a) :
    Memref sig .scVector .hbm S128x64 .f32 :=
  ((oV).slice (Rect.unit (s := S16x1024x64) (k0_off10 L w) S1x128x64.size h) (fun _ => rfl)).squeeze S128x64 squeezes_S1x128x64_S128x64
abbrev oC0 (L : grid0.Coords) : Memref sig .scVector .hbm S128x64 .f32 := oC L 0#32 (k0_off10_inb L 0)
abbrev oC1 (L : grid0.Coords) : Memref sig .scVector .hbm S128x64 .f32 := oC L 128#32 (k0_off10_inb L 1)
abbrev oC2 (L : grid0.Coords) : Memref sig .scVector .hbm S128x64 .f32 := oC L 256#32 (k0_off10_inb L 2)
abbrev oC3 (L : grid0.Coords) : Memref sig .scVector .hbm S128x64 .f32 := oC L 384#32 (k0_off10_inb L 3)

/-- The printed offset chains in closed form. -/
theorem k0_off1_eq : ∀ L : grid0.Coords, k0_off1 L = ![(L 1).val, 512 * (L 0).val] := by decide +kernel
theorem k0_off10_eq : ∀ (L : grid0.Coords) (r : Fin 4), k0_off10 L (BitVec.ofNat 32 (128 * r.val)) = ![(L 1).val, 512 * (L 0).val + 128 * r.val, 0] := by
  decide +kernel

/-! ## The value -/

/-- The lookup read off a table padded to 128 columns: `(r, p, l) ↦ T[idx[r, p], l]`, `l < 64`. -/
def lookT {α : Type} (idx : S16x1024.Idx → BitVec 32) (Tb : S8192x128.Idx → α) : S16x1024x64.Idx → α :=
  fun j => Tb (ix2 (Cert.Spec.rowOf (idx (ix2 (j 0) (j 1)))) ((j 2).castLE (by decide)))

/-- What the proof asks of the launch memory: every index word names a table row. -/
def PreOK (m : (ℓ : Loc nD τ sig) → Buf (Elt F) ℓ) : Prop := ∀ (d : Dev nD) (j : S16x1024.Idx), (m (iLoc d) j).toNat < 8192

/-! ## What a subcore's task takes and brings back -/

variable [FloatOps F]

abbrev iRowPts (m : (ℓ : Loc nD τ sig) → Buf (Elt F) ℓ) (d : Dev nD) (L : grid0.Coords) : sProp 𝕄 :=
  iLoc d ↦[(iRowK L).view.set]{fullShare} m (iLoc d)
abbrev oChunksPts (d : Dev nD) (L : grid0.Coords) (f : Buf (Elt F) (oLoc d)) : sProp 𝕄 :=
  iprop((oLoc d ↦[(oC0 L).view.set]{fullShare} f) ∗ (oLoc d ↦[(oC1 L).view.set]{fullShare} f)
    ∗ (oLoc d ↦[(oC2 L).view.set]{fullShare} f) ∗ (oLoc d ↦[(oC3 L).view.set]{fullShare} f))

/-- The task on vector subcore `(L 0, L 1)` of device `d`: given its index words, a share of the padded table at any
    contents `Tb`, and its four chunks of the result, it ends with the chunks holding the lookup read off `Tb`, everything
    else as it found it. -/
def TileBody (m : (ℓ : Loc nD τ sig) → Buf (Elt F) ℓ) : Prop :=
  ∀ (d : Dev nD) (L : grid0.Coords) (tq : PosShare TreeShare) (Tb : Buf (Elt F) (tLoc d)) (f0 : Buf (Elt F) (oLoc d))
    (O : CellTallies nD τ sig (HIx 1)) (W : Waits sig (HIx 1)), (∀ g, O g none = 0) →
    iprop(levAts (K (F := F)).L (K (F := F)).lev ∗ emp
        ∗ (iRowPts m d L ∗ (tLoc d ↦{tq} Tb) ∗ oChunksPts d L f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) oV (Memref.isWhole_whole _)
            sV (Memref.isWhole_whole _) rwV (Memref.isWhole_whole _) rcV (Memref.isWhole_whole _)
            cc0_scratch3 cc0_scratch4 cc0_scratch5 cc0_scratch6 cc0_scoped0)
          fun _ => (iprop((iRowPts m d L ∗ (tLoc d ↦{tq} Tb) ∗ oChunksPts d L (lookT (m (iLoc d)) Tb))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

end Cert.Proof.KernelIdeal

end
-- ==== Proof.LaunchSets.lean ====
/-
  The launch's geometry and shares: which elements of the index array and of the result each vector subcore holds, how
  those sets tile the arrays (subcores within a SparseCore, the two SparseCores within the device), how the full share of
  the padded table is cut among the 32 subcores, and the value of the padded table on its first 64 columns.
-/
import proofs.«206562_g3805341024366_cont_8to1_b_1019_21_alg».proof.Proof.Common
import Idealize.ShloMosaic.Lib.KernelVsHost

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Coordinates -/

def coordsV (c : Fin (grid0.bound 0)) (s : Fin (grid0.bound 1)) : grid0.Coords :=
  fun | 0 => c | 1 => s | ⟨_ + 2, h⟩ => absurd h (Nat.not_lt.2 (Nat.le_add_left _ _))

/-- The coordinates of subcore `i` of SparseCore `c`. -/
abbrev LL (c : Fin 2) (i : Fin 16) : grid0.Coords := coordsV c i

/-- Chunk `r` of a subcore's four. -/
abbrev oCr (L : grid0.Coords) (r : Fin 4) : Memref sig .scVector .hbm S128x64 .f32 :=
  oC L (BitVec.ofNat 32 (128 * r.val)) (k0_off10_inb L r)

/-! ## The elements a subcore holds, a SparseCore's subcores hold, the two SparseCores hold -/

/-- Subcore `(c, i)`'s index words: row `i`, columns `[512 c, 512 c + 512)`. -/
abbrev iT (c : Fin 2) (i : Fin 16) : Finset S16x1024.Idx := (iRowK (LL c i)).view.set
/-- Its chunk `r` of the result: plane `i`, rows `[512 c + 128 r, 512 c + 128 r + 128)`, every lane. -/
abbrev oK (c : Fin 2) (i : Fin 16) (r : Fin 4) : Finset S16x1024x64.Idx := (oCr (LL c i) r).view.set
def oT (c : Fin 2) (i : Fin 16) : Finset S16x1024x64.Idx := Finset.univ.biUnion (oK c i)
def iCore (c : Fin 2) : Finset S16x1024.Idx := Finset.univ.biUnion (iT c)
def oCore (c : Fin 2) : Finset S16x1024x64.Idx := Finset.univ.biUnion (oT c)

theorem mem_iRowK (L : grid0.Coords) (j : S16x1024.Idx) :
    j ∈ (iRowK L).view.set ↔ (j 0).val = (L 1).val ∧ 512 * (L 0).val ≤ (j 1).val ∧ (j 1).val < 512 * (L 0).val + 512 := by
  show j ∈ (((View.whole (main_arg0_scv : Ref sig .scVector)).slice (Rect.unit (s := S16x1024) (k0_off1 L) S1x512.size (k0_off1_inb L))).reshape S512 squeezes_S1x512_S512.numel_eq).set ↔ _
  rw [View.set_reshape, View.set_slice_whole, Rect.mem_set_unit, k0_off1_eq]
  constructor
  · intro h
    have h0 := h 0
    have h1 := h 1
    simp only [Matrix.cons_val_zero, Matrix.cons_val_one] at h0 h1
    omega
  · intro h
    show ∀ a : Fin 2, _
    rw [Fin.forall_fin_two]
    simp only [Matrix.cons_val_zero, Matrix.cons_val_one]
    omega

theorem mem_oCr (L : grid0.Coords) (r : Fin 4) (j : S16x1024x64.Idx) :
    j ∈ (oCr L r).view.set ↔ (j 0).val = (L 1).val ∧ 512 * (L 0).val + 128 * r.val ≤ (j 1).val ∧ (j 1).val < 512 * (L 0).val + 128 * r.val + 128 := by
  show j ∈ (((View.whole (main_v1_scv : Ref sig .scVector)).slice (Rect.unit (s := S16x1024x64) (k0_off10 L (BitVec.ofNat 32 (128 * r.val))) S1x128x64.size (k0_off10_inb L r))).reshape S128x64 squeezes_S1x128x64_S128x64.numel_eq).set ↔ _
  rw [View.set_reshape, View.set_slice_whole, Rect.mem_set_unit, k0_off10_eq]
  have h2 : (j 2).val < 64 := (j 2).isLt
  constructor
  · intro h
    have h0 := h 0
    have h1 := h 1
    simp only [Matrix.cons_val_zero, Matrix.cons_val_one] at h0 h1
    omega
  · intro h
    show ∀ a : Fin 3, _
    intro a
    match a with
    | 0 => show (L 1).val ≤ (j 0).val ∧ (j 0).val < (L 1).val + 1; omega
    | 1 => show 512 * (L 0).val + 128 * r.val ≤ (j 1).val ∧ (j 1).val < 512 * (L 0).val + 128 * r.val + 128; omega
    | 2 => show 0 ≤ (j 2).val ∧ (j 2).val < 0 + 64; omega

theorem mem_iT (c : Fin 2) (i : Fin 16) (j : S16x1024.Idx) :
    j ∈ iT c i ↔ (j 0).val = i.val ∧ 512 * c.val ≤ (j 1).val ∧ (j 1).val < 512 * c.val + 512 := mem_iRowK (LL c i) j
theorem mem_oK (c : Fin 2) (i : Fin 16) (r : Fin 4) (j : S16x1024x64.Idx) :
    j ∈ oK c i r ↔ (j 0).val = i.val ∧ 512 * c.val + 128 * r.val ≤ (j 1).val ∧ (j 1).val < 512 * c.val + 128 * r.val + 128 := mem_oCr (LL c i) r j

theorem mem_oT (c : Fin 2) (i : Fin 16) (j : S16x1024x64.Idx) :
    j ∈ oT c i ↔ (j 0).val = i.val ∧ 512 * c.val ≤ (j 1).val ∧ (j 1).val < 512 * c.val + 512 := by
  simp only [oT, Finset.mem_biUnion, Finset.mem_univ, true_and, mem_oK]
  constructor
  · rintro ⟨r, h⟩; have := r.isLt; omega
  · intro h; exact ⟨⟨((j 1).val - 512 * c.val) / 128, by omega⟩, by simp only []; omega⟩

theorem mem_iCore (c : Fin 2) (j : S16x1024.Idx) : j ∈ iCore c ↔ 512 * c.val ≤ (j 1).val ∧ (j 1).val < 512 * c.val + 512 := by
  simp only [iCore, Finset.mem_biUnion, Finset.mem_univ, true_and, mem_iT]
  constructor
  · rintro ⟨i, h⟩; omega
  · intro h; exact ⟨j 0, rfl, h.1, h.2⟩

theorem mem_oCore (c : Fin 2) (j : S16x1024x64.Idx) : j ∈ oCore c ↔ 512 * c.val ≤ (j 1).val ∧ (j 1).val < 512 * c.val + 512 := by
  simp only [oCore, Finset.mem_biUnion, Finset.mem_univ, true_and, mem_oT]
  constructor
  · rintro ⟨i, h⟩; omega
  · intro h; exact ⟨j 0, rfl, h.1, h.2⟩

theorem oK_disjoint (c : Fin 2) (i : Fin 16) :
    ∀ r ∈ (Finset.univ : Finset (Fin 4)), ∀ r' ∈ (Finset.univ : Finset (Fin 4)), r ≠ r' → Disjoint (oK c i r) (oK c i r') :=
  fun r _ r' _ h => Finset.disjoint_left.mpr fun j hj hj' => by
    rw [mem_oK] at hj hj'; exact h (Fin.ext (by omega))
theorem iT_disjoint (c : Fin 2) :
    ∀ i ∈ (Finset.univ : Finset (Fin 16)), ∀ i' ∈ (Finset.univ : Finset (Fin 16)), i ≠ i' → Disjoint (iT c i) (iT c i') :=
  fun i _ i' _ h => Finset.disjoint_left.mpr fun j hj hj' => by
    rw [mem_iT] at hj hj'; exact h (Fin.ext (by omega))
theorem oT_disjoint (c : Fin 2) :
    ∀ i ∈ (Finset.univ : Finset (Fin 16)), ∀ i' ∈ (Finset.univ : Finset (Fin 16)), i ≠ i' → Disjoint (oT c i) (oT c i') :=
  fun i _ i' _ h => Finset.disjoint_left.mpr fun j hj hj' => by
    rw [mem_oT] at hj hj'; exact h (Fin.ext (by omega))
theorem iCore_disjoint :
    ∀ c ∈ (Finset.univ : Finset (Fin 2)), ∀ c' ∈ (Finset.univ : Finset (Fin 2)), c ≠ c' → Disjoint (iCore c) (iCore c') :=
  fun c _ c' _ h => Finset.disjoint_left.mpr fun j hj hj' => by
    rw [mem_iCore] at hj hj'; exact h (Fin.ext (by omega))
theorem oCore_disjoint :
    ∀ c ∈ (Finset.univ : Finset (Fin 2)), ∀ c' ∈ (Finset.univ : Finset (Fin 2)), c ≠ c' → Disjoint (oCore c) (oCore c') :=
  fun c _ c' _ h => Finset.disjoint_left.mpr fun j hj hj' => by
    rw [mem_oCore] at hj hj'; exact h (Fin.ext (by omega))

theorem iCore_cover : (Finset.univ : Finset (Fin 2)).biUnion iCore = Finset.univ :=
  Finset.eq_univ_of_forall fun j => by
    have h1 : (j 1).val < 1024 := (j 1).isLt
    simp only [Finset.mem_biUnion, Finset.mem_univ, true_and, mem_iCore]
    exact ⟨⟨(j 1).val / 512, by omega⟩, by simp only []; omega⟩
theorem oCore_cover : (Finset.univ : Finset (Fin 2)).biUnion oCore = Finset.univ :=
  Finset.eq_univ_of_forall fun j => by
    have h1 : (j 1).val < 1024 := (j 1).isLt
    simp only [Finset.mem_biUnion, Finset.mem_univ, true_and, mem_oCore]
    exact ⟨⟨(j 1).val / 512, by omega⟩, by simp only []; omega⟩

/-! ## Shares: a share cut in two, `n` times over -/

/-- The pieces of `q` cut in two `n` times over: the left half's pieces, then the right half's. -/
def cut : (n : ℕ) → PosShare TreeShare → Fin (2 ^ n) → PosShare TreeShare
  | 0, q, _ => q
  | n + 1, q, i => Fin.addCases (cut n q.left) (cut n q.right) (Fin.cast (by omega) i : Fin (2 ^ n + 2 ^ n))

/-- The pieces of the two halves, side by side, are the pieces of the whole. -/
def halves (n : ℕ) : Fin (2 ^ n) ⊕ Fin (2 ^ n) ≃ Fin (2 ^ (n + 1)) := finSumFinEquiv.trans (finCongr (by omega))

theorem cut_inl (n : ℕ) (q : PosShare TreeShare) (i : Fin (2 ^ n)) : cut (n + 1) q (halves n (Sum.inl i)) = cut n q.left i := by
  show Fin.addCases (motive := fun _ => PosShare TreeShare) (cut n q.left) (cut n q.right) (Fin.castAdd (2 ^ n) i) = _
  rw [Fin.addCases_left]
theorem cut_inr (n : ℕ) (q : PosShare TreeShare) (i : Fin (2 ^ n)) : cut (n + 1) q (halves n (Sum.inr i)) = cut n q.right i := by
  show Fin.addCases (motive := fun _ => PosShare TreeShare) (cut n q.left) (cut n q.right) (Fin.natAdd (2 ^ n) i) = _
  rw [Fin.addCases_right]

theorem pointsTo_halves {ℓ : Loc nD τ sig} (I : Finset (Idx ℓ)) (f : Buf (Elt F) ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- A points-to at a share is the points-tos at its pieces. -/
theorem pointsTo_cut {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{cut n q i} f
  | 0, q => (bigSep_univ_of_subsingleton (0 : Fin 1) (Φ := fun i : Fin (2 ^ 0) => (ℓ ↦[I]{cut 0 q i} f : sProp 𝕄))).symm
  | n + 1, q => by
    rw [pointsTo_halves I f q, pointsTo_cut I f n q.left, pointsTo_cut I f n q.right,
      bigSep_univ_equiv (halves n) (fun i : Fin (2 ^ (n + 1)) => (ℓ ↦[I]{cut (n + 1) q i} f : sProp 𝕄)), bigSep_univ_sum]
    simp only [cut_inl, cut_inr]
    rfl

/-- SparseCore `c`'s half of the full share, and subcore `i`'s sixteenth of it. -/
def coreShare (c : Fin 2) : PosShare TreeShare := cut 1 fullShare c
def tileShare (c : Fin 2) (i : Fin 16) : PosShare TreeShare := cut 4 (coreShare c) i

/-! ## The arrays split: the device's among its SparseCores, a SparseCore's among its subcores -/

theorem tPts_cores (d : Dev nD) (f : Buf (Elt F) (tLoc d)) :
    (tLoc d ↦{fullShare} f : sProp 𝕄) = bigSep Finset.univ fun c : Fin 2 => tLoc d ↦{coreShare c} f :=
  pointsTo_cut Finset.univ f 1 fullShare
theorem tCore_tiles (d : Dev nD) (c : Fin 2) (f : Buf (Elt F) (tLoc d)) :
    (tLoc d ↦{coreShare c} f : sProp 𝕄) = bigSep Finset.univ fun i : Fin 16 => tLoc d ↦{tileShare c i} f :=
  pointsTo_cut Finset.univ f 4 (coreShare c)

theorem iPts_cores (d : Dev nD) (f : Buf (Elt F) (iLoc d)) :
    (iLoc d ↦{fullShare} f : sProp 𝕄) = bigSep Finset.univ fun c : Fin 2 => iLoc d ↦[iCore c]{fullShare} f := by
  rw [← pointsTo_biUnion Finset.univ (ℓ := iLoc d) iCore iCore_disjoint, iCore_cover]; try rfl
theorem oPts_cores (d : Dev nD) (f : Buf (Elt F) (oLoc d)) :
    (oLoc d ↦{fullShare} f : sProp 𝕄) = bigSep Finset.univ fun c : Fin 2 => oLoc d ↦[oCore c]{fullShare} f := by
  rw [← pointsTo_biUnion Finset.univ (ℓ := oLoc d) oCore oCore_disjoint, oCore_cover]; try rfl
theorem iCore_tiles (d : Dev nD) (c : Fin 2) (f : Buf (Elt F) (iLoc d)) :
    (iLoc d ↦[iCore c]{fullShare} f : sProp 𝕄) = bigSep Finset.univ fun i : Fin 16 => iLoc d ↦[iT c i]{fullShare} f :=
  pointsTo_biUnion Finset.univ (ℓ := iLoc d) (iT c) (iT_disjoint c)
theorem oCore_tiles (d : Dev nD) (c : Fin 2) (f : Buf (Elt F) (oLoc d)) :
    (oLoc d ↦[oCore c]{fullShare} f : sProp 𝕄) = bigSep Finset.univ fun i : Fin 16 => oLoc d ↦[oT c i]{fullShare} f :=
  pointsTo_biUnion Finset.univ (ℓ := oLoc d) (oT c) (oT_disjoint c)
theorem oT_chunks (d : Dev nD) (c : Fin 2) (i : Fin 16) (f : Buf (Elt F) (oLoc d)) :
    (oLoc d ↦[oT c i]{fullShare} f : sProp 𝕄) = oChunksPts d (LL c i) f := by
  unfold oT
  rw [pointsTo_biUnion Finset.univ (ℓ := oLoc d) (oK c i) (oK_disjoint c i), show (Finset.univ : Finset (Fin 4)) = {0, 1, 2, 3} by decide,
    SparseCore.bigSep_insert' (by decide), SparseCore.bigSep_insert' (by decide), SparseCore.bigSep_insert' (by decide), bigSep_singleton]
  rfl

/-! ## The padded table and the value -/

variable [FloatOps F]

/-- The table with 64 columns of the converted zero appended: what the two host operations leave for the kernel. -/
def padT (m : (ℓ : Loc nD τ sig) → Buf (Elt F) ℓ) (d : Dev nD) : Buf (Elt F) (tLoc d) :=
  pad S8192x128 ![0, 0] ![0, 64] ![0, 0] (m (wLoc d)) (sitofp .f32 (constantI S_ 32 0#32)) pads_S8192x64_S8192x128_000_0640 h_S_

/-- Its first 64 columns are the table's. -/
theorem padT_apply (m : (ℓ : Loc nD τ sig) → Buf (Elt F) ℓ) (d : Dev nD) (r : Fin 8192) (l : Fin 64) :
    padT m d (ix2 r (l.castLE (by decide))) = m (wLoc d) (ix2 r l) := by
  unfold padT
  refine pad_apply_of_inside _ _ _ _ _ _ _ _ (ix2 r l) fun a => ?_
  match a with
  | 0 => show r.val = 0 + r.val * (0 + 1); omega
  | 1 => show l.val = 0 + l.val * (0 + 1); omega

/-- The lookup read off the padded table is the lookup. -/
theorem lookT_padT (m : (ℓ : Loc nD τ sig) → Buf (Elt F) ℓ) (d : Dev nD) (idx : S16x1024.Idx → BitVec 32) :
    lookT idx (padT m d) = Cert.Spec.lookup idx (m (wLoc d)) :=
  funext fun j => padT_apply m d _ (j 2)

end Cert.Proof.KernelIdeal

end
-- ==== Proof.Launch.lean ====
/-
  The launch: from "each vector subcore's task is proved" to the run of the whole program with the result's value named.
  The one SparseCore call hands each of the two SparseCores its columns of the index array, half the share of the padded
  table and its rows of the result; each of its sixteen subcores its 512 index words, a sixteenth of that share and its four
  chunks of the result. @main on the TensorCore computes the padded table by three host operations, makes the call, and is
  left with the index array and the table unchanged and the result at the lookup.
-/
import proofs.«206562_g3805341024366_cont_8to1_b_1019_21_alg».proof.Proof.LaunchSets

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## What the handshakes carry -/

abbrev cN (c : Fin ((K (F := F)).nCore 0)) : Fin 2 := Fin.cast nCore_zero c
abbrev sN (i : Fin ((K (F := F)).nSub 0)) : Fin 16 := Fin.cast nSub_zero i

/-- A SparseCore's part of the three arrays, the result's at contents `f`. -/
abbrev stPts (d : Dev nD) (c : Fin 2) (f : Buf (Elt F) (oLoc d)) : sProp 𝕄 :=
  iprop((iLoc d ↦[iCore c]{fullShare} m (iLoc d)) ∗ (tLoc d ↦{coreShare c} padT m d) ∗ (oLoc d ↦[oCore c]{fullShare} f))
/-- A subcore's part. -/
abbrev goPts (d : Dev nD) (c : Fin 2) (i : Fin 16) (f : Buf (Elt F) (oLoc d)) : sProp 𝕄 :=
  iprop(iRowPts m d (LL c i) ∗ (tLoc d ↦{tileShare c i} padT m d) ∗ oChunksPts d (LL c i) f)

/-- The one call hands each SparseCore its part of the index array, its half share of the padded table and its part of the
    result; each task its index words, its share of the padded table and its four chunks; they come back with the result's
    parts at the lookup. -/
def P : (K (F := F)).Pay (nD := nD) (Val := Elt F) (Name := ℕ) (U := UU) where
  st := fun q d c => match q with | 0 => stPts m d (cN c) (m (oLoc d))
  dn := fun q d c => match q with | 0 => stPts m d (cN c) (lookT (m (iLoc d)) (padT m d))
  go := fun q d c i => match q with | 0 => goPts m d (cN c) (sN i) (m (oLoc d))
  td := fun q d c i => match q with | 0 => goPts m d (cN c) (sN i) (lookT (m (iLoc d)) (padT m d))
  x := fun _ _ => iprop(emp)

instance P_storable : (P (F := F) m).IsStorable where
  st q d c := match q with
    | 0 => (inferInstance : BI.Storable (upEmb : UEmb _ 𝕄) (stPts m d (cN c) (m (oLoc d))))
  dn q d c := match q with
    | 0 => (inferInstance : BI.Storable (upEmb : UEmb _ 𝕄) (stPts m d (cN c) (lookT (m (iLoc d)) (padT m d))))
  go q d c i := match q with
    | 0 => (inferInstance : BI.Storable (upEmb : UEmb _ 𝕄) (goPts m d (cN c) (sN i) (m (oLoc d))))
  td q d c i := match q with
    | 0 => (inferInstance : BI.Storable (upEmb : UEmb _ 𝕄) (goPts m d (cN c) (sN i) (lookT (m (iLoc d)) (padT m d))))

/-! ## The obligation -/

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) rwV (Memref.isWhole_whole _) rcV (Memref.isWhole_whole _)
          cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : TileBody m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) _ _ _ O W hO).trans (wp_mono frame _ _ fun _ => obl_post)

/-! ## A SparseCore's part is its subcores' parts -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem stPts_tiles (d : Dev nD) (c : Fin 2) (f : Buf (Elt F) (oLoc d)) :
    stPts m d c f = bigSep Finset.univ fun i : Fin 16 => goPts m d c i f := by
  show iprop((iLoc d ↦[iCore c]{fullShare} m (iLoc d)) ∗ (tLoc d ↦{coreShare c} padT m d) ∗ (oLoc d ↦[oCore c]{fullShare} f))
    = bigSep Finset.univ fun i : Fin 16 => iprop((iLoc d ↦[iT c i]{fullShare} m (iLoc d)) ∗ (tLoc d ↦{tileShare c i} padT m d) ∗ oChunksPts d (LL c i) f)
  rw [iCore_tiles, tCore_tiles, oCore_tiles, bigSep_sep', bigSep_sep']
  congr 2
  exact bigSep_congr fun i _ => oT_chunks d c i f

theorem vecSplit : (K (F := F)).VecSplit' (P m) 0 := by
  intro d c
  show stPts m d (cN c) (m (oLoc d)) ⊢ |={Set.univ}=> iprop(
      (bigSep Finset.univ fun i : Fin ((K (F := F)).nSub 0) => goPts m d (cN c) (Fin.cast nSub_zero i) (m (oLoc d)))
      ∗ ((bigSep Finset.univ fun i : Fin ((K (F := F)).nSub 0) => goPts m d (cN c) (Fin.cast nSub_zero i) (lookT (m (iLoc d)) (padT m d)))
          -∗ stPts m d (cN c) (lookT (m (iLoc d)) (padT m d))))
  rw [bigSep_tasks (F := F) (fun i => goPts m d (cN c) i (m (oLoc d))),
    bigSep_tasks (F := F) (fun i => goPts m d (cN c) i (lookT (m (iLoc d)) (padT m d))), ← stPts_tiles, ← stPts_tiles]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev cLoc (d : Dev nD) : Loc nD τ sig := (SparseCore.T d).loc main_c
abbrev vLoc (d : Dev nD) : Loc nD τ sig := (SparseCore.T d).loc main_call0_v0

abbrev i' : DevRef τ sig := Proc.devRef .tc (main_arg0 : Ref sig .tc)
abbrev w' : DevRef τ sig := Proc.devRef .tc (main_arg1 : Ref sig .tc)
abbrev c' : DevRef τ sig := Proc.devRef .tc (main_c : Ref sig .tc)
abbrev v' : DevRef τ sig := Proc.devRef .tc (main_call0_v0 : Ref sig .tc)
abbrev t' : DevRef τ sig := Proc.devRef .tc (main_v0 : Ref sig .tc)
abbrev o' : DevRef τ sig := Proc.devRef .tc (main_v1 : Ref sig .tc)

/-- The three host operations before the call: the zero, its conversion, the padding. -/
abbrev opC : HloOp τ sig (Elt F) := StableHlo.nullary main_c (constantI S_ 32 0#32)
abbrev opV : HloOp τ sig (Elt F) :=
  StableHlo.TRef.unary (StableHlo.TRef.of main_c : StableHlo.TRef sig ⟨S_, .i32⟩) main_call0.v0 (sitofp .f32)
abbrev opP : HloOp τ sig (Elt F) :=
  StableHlo.TRef.binary (StableHlo.TRef.of main_arg1 : StableHlo.TRef sig ⟨S8192x64, .f32⟩) main_call0.v0 main_call0.v1
    (fun x v => pad S8192x128 ![0, 0] ![0, 64] ![0, 0] x v pads_S8192x64_S8192x128_000_0640 h_S_)

/-- The TensorCore's arrays, all unscoped. -/
abbrev S6 : Finset (DevRef τ sig) := {i', w', c', v', t', o'}

omit [FloatOps F] in
theorem held_S6 (d : Dev nD) (W : Valuation τ sig (Elt F)) :
    (held (T d) S6 W : sProp 𝕄)
      = iprop((iLoc d ↦{fullShare} W i') ∗ (wLoc d ↦{fullShare} W w') ∗ (cLoc d ↦{fullShare} W c') ∗ (vLoc d ↦{fullShare} W v')
          ∗ (tLoc d ↦{fullShare} W t') ∗ oLoc d ↦{fullShare} W o') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((iLoc d ↦{fullShare} W main_arg0) ∗ (wLoc d ↦{fullShare} W main_arg1) ∗ (cLoc d ↦{fullShare} W main_c)
          ∗ (vLoc d ↦{fullShare} W main_call0_v0) ∗ (tLoc d ↦{fullShare} W main_v0) ∗ oLoc d ↦{fullShare} W main_v1) := by
  unfold unscopedBufs
  rw [show (Finset.univ.filter fun b : Ref sig .tc => ¬ b.isScoped) = {main_arg0, main_arg1, main_c, main_call0_v0, main_v0, main_v1} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuation before the call. -/
def V0 (d : Dev nD) : Valuation τ sig (Elt F) := fun b => m (d, b)
def V3 (d : Dev nD) : Valuation τ sig (Elt F) := (opP (F := F)).result ((opV (F := F)).result ((opC (F := F)).result (V0 m d)))

theorem unscoped_held (d : Dev nD) : (unscopedBufs d (fun b => m ((SparseCore.T d).loc b)) : sProp 𝕄) = held (T d) S6 (V0 m d) := by
  rw [unscopedBufs_eq, held_S6]; rfl

theorem V3_i (d : Dev nD) : V3 m d i' = m (iLoc d) := by
  unfold V3
  rw [(opP (F := F)).result_of_not_mem _ (show i' ∉ ({t'} : Finset (DevRef τ sig)) by decide),
    (opV (F := F)).result_of_not_mem _ (show i' ∉ ({v'} : Finset (DevRef τ sig)) by decide),
    (opC (F := F)).result_of_not_mem _ (show i' ∉ ({c'} : Finset (DevRef τ sig)) by decide)]
  rfl
theorem V3_w (d : Dev nD) : V3 m d w' = m (wLoc d) := by
  unfold V3
  rw [(opP (F := F)).result_of_not_mem _ (show w' ∉ ({t'} : Finset (DevRef τ sig)) by decide),
    (opV (F := F)).result_of_not_mem _ (show w' ∉ ({v'} : Finset (DevRef τ sig)) by decide),
    (opC (F := F)).result_of_not_mem _ (show w' ∉ ({c'} : Finset (DevRef τ sig)) by decide)]
  rfl
theorem V3_o (d : Dev nD) : V3 m d o' = m (oLoc d) := by
  unfold V3
  rw [(opP (F := F)).result_of_not_mem _ (show o' ∉ ({t'} : Finset (DevRef τ sig)) by decide),
    (opV (F := F)).result_of_not_mem _ (show o' ∉ ({v'} : Finset (DevRef τ sig)) by decide),
    (opC (F := F)).result_of_not_mem _ (show o' ∉ ({c'} : Finset (DevRef τ sig)) by decide)]
  rfl
theorem V3_t (d : Dev nD) : V3 m d t' = padT m d := by
  unfold V3
  refine (StableHlo.binary_result _ _ _ _ _ _ _ _).trans ?_
  show pad S8192x128 ![0, 0] ![0, 64] ![0, 0] ((opV (F := F)).result ((opC (F := F)).result (V0 m d)) w')
      ((opV (F := F)).result ((opC (F := F)).result (V0 m d)) v') pads_S8192x64_S8192x128_000_0640 h_S_ = padT m d
  rw [(opV (F := F)).result_of_not_mem _ (show w' ∉ ({v'} : Finset (DevRef τ sig)) by decide),
    (opC (F := F)).result_of_not_mem _ (show w' ∉ ({c'} : Finset (DevRef τ sig)) by decide)]
  rw [show (opV (F := F)).result ((opC (F := F)).result (V0 m d)) v' = sitofp .f32 ((opC (F := F)).result (V0 m d) c') from
      StableHlo.unary_result _ _ _ _ _ _,
    show (opC (F := F)).result (V0 m d) c' = constantI S_ 32 0#32 from StableHlo.nullary_result _ _ _ _]
  rfl

/-- The six arrays before the call: the padded table at its value, the others at their launch contents. -/
theorem held_V3 (d : Dev nD) :
    (held (T d) S6 ((opP (F := F)).result ((opV (F := F)).result ((opC (F := F)).result (V0 m d)))) : sProp 𝕄)
      = iprop((iLoc d ↦{fullShare} m (iLoc d)) ∗ (wLoc d ↦{fullShare} m (wLoc d)) ∗ (cLoc d ↦{fullShare} V3 m d c') ∗ (vLoc d ↦{fullShare} V3 m d v')
          ∗ (tLoc d ↦{fullShare} padT m d) ∗ oLoc d ↦{fullShare} m (oLoc d)) := by
  show held (SparseCore.T d) S6 (V3 m d) = _
  rw [held_S6, V3_i, V3_w, V3_t, V3_o]

/-- The call's operands are the two SparseCores' parts; so are its results. -/
theorem st0_eq (d : Dev nD) (f : Buf (Elt F) (oLoc d)) :
    (bigSep Finset.univ fun c : Fin ((K (F := F)).nCore 0) => stPts m d (cN c) f)
      = iprop((iLoc d ↦{fullShare} m (iLoc d)) ∗ (tLoc d ↦{fullShare} padT m d) ∗ oLoc d ↦{fullShare} f) := by
  rw [bigSep_cores (F := F) (fun c => stPts m d c f)]
  show (bigSep Finset.univ fun c : Fin 2 => iprop((iLoc d ↦[iCore c]{fullShare} m (iLoc d)) ∗ (tLoc d ↦{coreShare c} padT m d) ∗ (oLoc d ↦[oCore c]{fullShare} f))) = _
  rw [bigSep_sep', bigSep_sep', ← iPts_cores, ← tPts_cores, ← oPts_cores]

theorem st0_eq' (d : Dev nD) :
    (bigSep Finset.univ fun c : Fin ((K (F := F)).nCore 0) => (P m).st 0 d c)
      = iprop((iLoc d ↦{fullShare} m (iLoc d)) ∗ (tLoc d ↦{fullShare} padT m d) ∗ oLoc d ↦{fullShare} m (oLoc d)) := st0_eq m d _
theorem dn0_eq' (d : Dev nD) :
    (bigSep Finset.univ fun c : Fin ((K (F := F)).nCore 0) => (P m).dn 0 d c)
      = iprop((iLoc d ↦{fullShare} m (iLoc d)) ∗ (tLoc d ↦{fullShare} padT m d) ∗ oLoc d ↦{fullShare} lookT (m (iLoc d)) (padT m d)) := st0_eq m d _

abbrev FIN (d : Dev nD) : sProp 𝕄 :=
  iprop((iLoc d ↦{fullShare} m (iLoc d)) ∗ (wLoc d ↦{fullShare} m (wLoc d)) ∗ (oLoc d ↦{fullShare} lookT (m (iLoc d)) (padT m d)))

theorem hC : (opC (F := F)).bufs ⊆ S6 := show ({c'} : Finset (DevRef τ sig)) ⊆ S6 by decide
theorem hV : (opV (F := F)).bufs ⊆ S6 := show ({c', v'} : Finset (DevRef τ sig)) ⊆ S6 by decide
theorem hP : (opP (F := F)).bufs ⊆ S6 := show ({w', v', t'} : Finset (DevRef τ sig)) ⊆ S6 by decide

/-- @main on device `d`'s TensorCore: the zero, its conversion and the padding, over the six arrays held whole; then the
    call, from the index array, the padded table and the result, which comes back at the lookup. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  iapply (wp_hlo_within 𝒱 (SparseCore.T d) none Set.univ (op := opC) (S := S6) hC (V := V0 m d)) $$ [Hb Hheld]
  · isplitl [Hb] <;> iassumption
  iintro ⟨Hb, Hheld⟩
  rw [wp_ret]; imodintro
  iapply (wp_hlo_within 𝒱 (SparseCore.T d) none Set.univ (op := opV) (S := S6) hV (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opP) (S := S6) hP (V := (opV (F := F)).result ((opC (F := F)).result (V0 m d)))) $$ [Hb Hheld]
  · isplitl [Hb] <;> iassumption
  iintro ⟨Hb, Hheld⟩
  rw [wp_ret]; imodintro
  imodintro
  ihave Hh := (Entails.of_eq (held_V3 (F := F) m d)) $$ Hheld
  icases Hh with ⟨Hi, Hw, -, -, Ht, Ho⟩
  iapply ((K (F := F)).wp_run (D (F := F)) 𝒱 (EH := EH) (P := P m) κ d 0) $$ [Hst Hi Hw Ht Ho]
  isplitr; · iexact Hctx
  isplitl [Hst]; · iexact Hst
  isplitl [Hi Ht Ho]
  · rw [st0_eq']
    isplitl [Hi]; · iexact Hi
    isplitl [Ht]; · iexact Ht
    iexact Ho
  iintro ⟨Hst, Hdn⟩
  ihave Hdn' := (Entails.of_eq (dn0_eq' m d)) $$ Hdn
  icases Hdn' with ⟨Hi, -, Ho⟩
  imodintro
  isplitl [Hst]; · iexact Hst
  isplitl [Hi]; · iexact Hi
  isplitl [Hw]; · iexact Hw
  iexact Ho

def fq (d : Dev nD) (s' : Phys nD τ sig (Elt F)) : Prop :=
  s'.mem.mem (oLoc d) = Cert.Spec.lookup (m (iLoc d)) (m (wLoc d)) ∧ s'.mem.mem (iLoc d) = m (iLoc d) ∧ s'.mem.mem (wLoc d) = m (wLoc d)

set_option maxRecDepth 16384 in
theorem hfin (d : Dev nD) (s' : Phys nD τ sig (Elt F)) : iprop(FIN m d ∗ SI s') ⊢ (⌜fq m d s'⌝ : sProp 𝕄) := by
  iintro ⟨⟨Hi, Hw, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := lookT (m (iLoc d)) (padT m d))) $$ [HSI Ho]
  · isplitl [HSI] <;> iassumption
  icases H with %h3
  ipureintro
  exact ⟨(funext fun i => h3 i (Finset.mem_univ i)).trans (lookT_padT m d _), funext fun i => h1 i (Finset.mem_univ i), funext fun i => h2 i (Finset.mem_univ i)⟩

/-! ## The program's run -/

theorem run_main [∀ e, Nonempty (Elt F e)] (hbody : TileBody m) :
    θ_run (Cert.KernelIdeal.defs (F := F)) (Cert.KernelIdeal.threads (F := F)) ⟨m, fun _ => 0, ρ⟩
      (fun r => ∀ c : Dev nD,
        r.2.mem (oLoc c) = Cert.Spec.lookup (m (iLoc c)) (m (wLoc c))
        ∧ r.2.mem (iLoc c) = m (iLoc c) ∧ r.2.mem (wLoc c) = m (wLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KernelIdeal

end
-- ==== Proof.KCommon.lean ====
/-
  Names shared by the modules about the kernel program: the program as the SparseCore launch theorem sees it, the
  locations of its arrays, the memrefs each vector subcore addresses — its 512 index words, the whole padded table,
  its four 128-row chunks of the result — and the statement each subcore's task is proved to satisfy.

  Subcore `(c, s)` (SparseCore `c` of 2, vector subcore `s` of 16) owns row `s` of the index array, columns
  `[512 c, 512 c + 512)`, and writes rows `[512 c + 128 r, 512 c + 128 r + 128)`, `r < 4`, of plane `s` of the result.
-/
import proofs.«206562_g3805341024366_cont_8to1_b_1019_21_alg».proof.Defs
import proofs.«206562_g3805341024366_cont_8to1_b_1019_21_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206562_g3805341024366_cont_8to1_b_1019_21_alg».proof.Proof.Gen.Kernel
import proofs.«206562_g3805341024366_cont_8to1_b_1019_21_alg».proof.Proof.Gen.Kernel.Skeleton

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The index array, the table, the padded table, the result, and the two scalars the padding computes. -/
abbrev iLoc (d : Dev nD) : Loc nD τ sig := (SparseCore.T d).loc main_arg0
abbrev wLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

/-- The arrays and scratch buffers as a vector subcore names them. -/
abbrev tV : Memref sig .scVector .hbm S8192x128 .f32 := Memref.whole main_v0_scv
abbrev iV : Memref sig .scVector .hbm S16x1024 .i32 := Memref.whole main_arg0_scv
abbrev oV : Memref sig .scVector .hbm S16x1024x64 .f32 := Memref.whole main_v1_scv
abbrev sV : Memref sig .scVector .vmem S512 .i32 := Memref.whole cc0_scratch0
abbrev rwV : Memref sig .scVector .vmem S2x128x128 .f32 := Memref.whole cc0_scratch1
abbrev rcV : Memref sig .scVector .vmem S2x128x64 .f32 := Memref.whole cc0_scratch2

abbrev cV (L : grid0.Coords) : Fin τ.nSC := (L 0).castLE hcore0
abbrev jV (L : grid0.Coords) : Fin τ.nSub := (L 1).castLE hsub0

/-- A subcore's 512 index words, as its task addresses them. -/
abbrev iRowK (L : grid0.Coords) : Memref sig .scVector .hbm S512 .i32 :=
  ((iV).slice (Rect.unit (s := S16x1024) (k0_off1 L) S1x512.size (k0_off1_inb L)) (fun _ => rfl)).squeeze S512 squeezes_S1x512_S512

/-- The 128 rows of the result that start at word offset `w` inside the subcore's 512, as its task addresses them. -/
abbrev oC (L : grid0.Coords) (w : BitVec 32) (h : ∀ a, (k0_off10 L w) a + S1x128x64.size a ≤ S16x1024x64.size a) :
    Memref sig .scVector .hbm S128x64 .f32 :=
  ((oV).slice (Rect.unit (s := S16x1024x64) (k0_off10 L w) S1x128x64.size h) (fun _ => rfl)).squeeze S128x64 squeezes_S1x128x64_S128x64
abbrev oC0 (L : grid0.Coords) : Memref sig .scVector .hbm S128x64 .f32 := oC L 0#32 (k0_off10_inb L 0)
abbrev oC1 (L : grid0.Coords) : Memref sig .scVector .hbm S128x64 .f32 := oC L 128#32 (k0_off10_inb L 1)
abbrev oC2 (L : grid0.Coords) : Memref sig .scVector .hbm S128x64 .f32 := oC L 256#32 (k0_off10_inb L 2)
abbrev oC3 (L : grid0.Coords) : Memref sig .scVector .hbm S128x64 .f32 := oC L 384#32 (k0_off10_inb L 3)

/-- The printed offset chains in closed form. -/
theorem k0_off1_eq : ∀ L : grid0.Coords, k0_off1 L = ![(L 1).val, 512 * (L 0).val] := by decide +kernel
theorem k0_off10_eq : ∀ (L : grid0.Coords) (r : Fin 4), k0_off10 L (BitVec.ofNat 32 (128 * r.val)) = ![(L 1).val, 512 * (L 0).val + 128 * r.val, 0] := by
  decide +kernel

/-! ## The value -/

/-- The lookup read off a table padded to 128 columns: `(r, p, l) ↦ T[idx[r, p], l]`, `l < 64`. -/
def lookT {α : Type} (idx : S16x1024.Idx → BitVec 32) (Tb : S8192x128.Idx → α) : S16x1024x64.Idx → α :=
  fun j => Tb (ix2 (Cert.Spec.rowOf (idx (ix2 (j 0) (j 1)))) ((j 2).castLE (by decide)))

/-- What the proof asks of the launch memory: every index word names a table row. -/
def PreOK (m : (ℓ : Loc nD τ sig) → Buf (Elt F) ℓ) : Prop := ∀ (d : Dev nD) (j : S16x1024.Idx), (m (iLoc d) j).toNat < 8192

/-! ## What a subcore's task takes and brings back -/

variable [FloatOps F]

abbrev iRowPts (m : (ℓ : Loc nD τ sig) → Buf (Elt F) ℓ) (d : Dev nD) (L : grid0.Coords) : sProp 𝕄 :=
  iLoc d ↦[(iRowK L).view.set]{fullShare} m (iLoc d)
abbrev oChunksPts (d : Dev nD) (L : grid0.Coords) (f : Buf (Elt F) (oLoc d)) : sProp 𝕄 :=
  iprop((oLoc d ↦[(oC0 L).view.set]{fullShare} f) ∗ (oLoc d ↦[(oC1 L).view.set]{fullShare} f)
    ∗ (oLoc d ↦[(oC2 L).view.set]{fullShare} f) ∗ (oLoc d ↦[(oC3 L).view.set]{fullShare} f))

/-- The task on vector subcore `(L 0, L 1)` of device `d`: given its index words, a share of the padded table at any
    contents `Tb`, and its four chunks of the result, it ends with the chunks holding the lookup read off `Tb`, everything
    else as it found it. -/
def TileBody (m : (ℓ : Loc nD τ sig) → Buf (Elt F) ℓ) : Prop :=
  ∀ (d : Dev nD) (L : grid0.Coords) (tq : PosShare TreeShare) (Tb : Buf (Elt F) (tLoc d)) (f0 : Buf (Elt F) (oLoc d))
    (O : CellTallies nD τ sig (HIx 1)) (W : Waits sig (HIx 1)), (∀ g, O g none = 0) →
    iprop(levAts (K (F := F)).L (K (F := F)).lev ∗ emp
        ∗ (iRowPts m d L ∗ (tLoc d ↦{tq} Tb) ∗ oChunksPts d L f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) oV (Memref.isWhole_whole _)
            sV (Memref.isWhole_whole _) rwV (Memref.isWhole_whole _) rcV (Memref.isWhole_whole _)
            cc0_scratch3 cc0_scratch4 cc0_scratch5 cc0_scratch6 cc0_scoped0)
          fun _ => (iprop((iRowPts m d L ∗ (tLoc d ↦{tq} Tb) ∗ oChunksPts d L (lookT (m (iLoc d)) Tb))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

end Cert.Proof.Kernel

end
-- ==== Proof.KLaunchSets.lean ====
/-
  The launch's geometry and shares: which elements of the index array and of the result each vector subcore holds, how
  those sets tile the arrays (subcores within a SparseCore, the two SparseCores within the device), how the full share of
  the padded table is cut among the 32 subcores, and the value of the padded table on its first 64 columns.
-/
import proofs.«206562_g3805341024366_cont_8to1_b_1019_21_alg».proof.Proof.KCommon
import Idealize.ShloMosaic.Lib.KernelVsHost

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Coordinates -/

def coordsV (c : Fin (grid0.bound 0)) (s : Fin (grid0.bound 1)) : grid0.Coords :=
  fun | 0 => c | 1 => s | ⟨_ + 2, h⟩ => absurd h (Nat.not_lt.2 (Nat.le_add_left _ _))

/-- The coordinates of subcore `i` of SparseCore `c`. -/
abbrev LL (c : Fin 2) (i : Fin 16) : grid0.Coords := coordsV c i

/-- Chunk `r` of a subcore's four. -/
abbrev oCr (L : grid0.Coords) (r : Fin 4) : Memref sig .scVector .hbm S128x64 .f32 :=
  oC L (BitVec.ofNat 32 (128 * r.val)) (k0_off10_inb L r)

/-! ## The elements a subcore holds, a SparseCore's subcores hold, the two SparseCores hold -/

/-- Subcore `(c, i)`'s index words: row `i`, columns `[512 c, 512 c + 512)`. -/
abbrev iT (c : Fin 2) (i : Fin 16) : Finset S16x1024.Idx := (iRowK (LL c i)).view.set
/-- Its chunk `r` of the result: plane `i`, rows `[512 c + 128 r, 512 c + 128 r + 128)`, every lane. -/
abbrev oK (c : Fin 2) (i : Fin 16) (r : Fin 4) : Finset S16x1024x64.Idx := (oCr (LL c i) r).view.set
def oT (c : Fin 2) (i : Fin 16) : Finset S16x1024x64.Idx := Finset.univ.biUnion (oK c i)
def iCore (c : Fin 2) : Finset S16x1024.Idx := Finset.univ.biUnion (iT c)
def oCore (c : Fin 2) : Finset S16x1024x64.Idx := Finset.univ.biUnion (oT c)

theorem mem_iRowK (L : grid0.Coords) (j : S16x1024.Idx) :
    j ∈ (iRowK L).view.set ↔ (j 0).val = (L 1).val ∧ 512 * (L 0).val ≤ (j 1).val ∧ (j 1).val < 512 * (L 0).val + 512 := by
  show j ∈ (((View.whole (main_arg0_scv : Ref sig .scVector)).slice (Rect.unit (s := S16x1024) (k0_off1 L) S1x512.size (k0_off1_inb L))).reshape S512 squeezes_S1x512_S512.numel_eq).set ↔ _
  rw [View.set_reshape, View.set_slice_whole, Rect.mem_set_unit, k0_off1_eq]
  constructor
  · intro h
    have h0 := h 0
    have h1 := h 1
    simp only [Matrix.cons_val_zero, Matrix.cons_val_one] at h0 h1
    omega
  · intro h
    show ∀ a : Fin 2, _
    rw [Fin.forall_fin_two]
    simp only [Matrix.cons_val_zero, Matrix.cons_val_one]
    omega

theorem mem_oCr (L : grid0.Coords) (r : Fin 4) (j : S16x1024x64.Idx) :
    j ∈ (oCr L r).view.set ↔ (j 0).val = (L 1).val ∧ 512 * (L 0).val + 128 * r.val ≤ (j 1).val ∧ (j 1).val < 512 * (L 0).val + 128 * r.val + 128 := by
  show j ∈ (((View.whole (main_v1_scv : Ref sig .scVector)).slice (Rect.unit (s := S16x1024x64) (k0_off10 L (BitVec.ofNat 32 (128 * r.val))) S1x128x64.size (k0_off10_inb L r))).reshape S128x64 squeezes_S1x128x64_S128x64.numel_eq).set ↔ _
  rw [View.set_reshape, View.set_slice_whole, Rect.mem_set_unit, k0_off10_eq]
  have h2 : (j 2).val < 64 := (j 2).isLt
  constructor
  · intro h
    have h0 := h 0
    have h1 := h 1
    simp only [Matrix.cons_val_zero, Matrix.cons_val_one] at h0 h1
    omega
  · intro h
    show ∀ a : Fin 3, _
    intro a
    match a with
    | 0 => show (L 1).val ≤ (j 0).val ∧ (j 0).val < (L 1).val + 1; omega
    | 1 => show 512 * (L 0).val + 128 * r.val ≤ (j 1).val ∧ (j 1).val < 512 * (L 0).val + 128 * r.val + 128; omega
    | 2 => show 0 ≤ (j 2).val ∧ (j 2).val < 0 + 64; omega

theorem mem_iT (c : Fin 2) (i : Fin 16) (j : S16x1024.Idx) :
    j ∈ iT c i ↔ (j 0).val = i.val ∧ 512 * c.val ≤ (j 1).val ∧ (j 1).val < 512 * c.val + 512 := mem_iRowK (LL c i) j
theorem mem_oK (c : Fin 2) (i : Fin 16) (r : Fin 4) (j : S16x1024x64.Idx) :
    j ∈ oK c i r ↔ (j 0).val = i.val ∧ 512 * c.val + 128 * r.val ≤ (j 1).val ∧ (j 1).val < 512 * c.val + 128 * r.val + 128 := mem_oCr (LL c i) r j

theorem mem_oT (c : Fin 2) (i : Fin 16) (j : S16x1024x64.Idx) :
    j ∈ oT c i ↔ (j 0).val = i.val ∧ 512 * c.val ≤ (j 1).val ∧ (j 1).val < 512 * c.val + 512 := by
  simp only [oT, Finset.mem_biUnion, Finset.mem_univ, true_and, mem_oK]
  constructor
  · rintro ⟨r, h⟩; have := r.isLt; omega
  · intro h; exact ⟨⟨((j 1).val - 512 * c.val) / 128, by omega⟩, by simp only []; omega⟩

theorem mem_iCore (c : Fin 2) (j : S16x1024.Idx) : j ∈ iCore c ↔ 512 * c.val ≤ (j 1).val ∧ (j 1).val < 512 * c.val + 512 := by
  simp only [iCore, Finset.mem_biUnion, Finset.mem_univ, true_and, mem_iT]
  constructor
  · rintro ⟨i, h⟩; omega
  · intro h; exact ⟨j 0, rfl, h.1, h.2⟩

theorem mem_oCore (c : Fin 2) (j : S16x1024x64.Idx) : j ∈ oCore c ↔ 512 * c.val ≤ (j 1).val ∧ (j 1).val < 512 * c.val + 512 := by
  simp only [oCore, Finset.mem_biUnion, Finset.mem_univ, true_and, mem_oT]
  constructor
  · rintro ⟨i, h⟩; omega
  · intro h; exact ⟨j 0, rfl, h.1, h.2⟩

theorem oK_disjoint (c : Fin 2) (i : Fin 16) :
    ∀ r ∈ (Finset.univ : Finset (Fin 4)), ∀ r' ∈ (Finset.univ : Finset (Fin 4)), r ≠ r' → Disjoint (oK c i r) (oK c i r') :=
  fun r _ r' _ h => Finset.disjoint_left.mpr fun j hj hj' => by
    rw [mem_oK] at hj hj'; exact h (Fin.ext (by omega))
theorem iT_disjoint (c : Fin 2) :
    ∀ i ∈ (Finset.univ : Finset (Fin 16)), ∀ i' ∈ (Finset.univ : Finset (Fin 16)), i ≠ i' → Disjoint (iT c i) (iT c i') :=
  fun i _ i' _ h => Finset.disjoint_left.mpr fun j hj hj' => by
    rw [mem_iT] at hj hj'; exact h (Fin.ext (by omega))
theorem oT_disjoint (c : Fin 2) :
    ∀ i ∈ (Finset.univ : Finset (Fin 16)), ∀ i' ∈ (Finset.univ : Finset (Fin 16)), i ≠ i' → Disjoint (oT c i) (oT c i') :=
  fun i _ i' _ h => Finset.disjoint_left.mpr fun j hj hj' => by
    rw [mem_oT] at hj hj'; exact h (Fin.ext (by omega))
theorem iCore_disjoint :
    ∀ c ∈ (Finset.univ : Finset (Fin 2)), ∀ c' ∈ (Finset.univ : Finset (Fin 2)), c ≠ c' → Disjoint (iCore c) (iCore c') :=
  fun c _ c' _ h => Finset.disjoint_left.mpr fun j hj hj' => by
    rw [mem_iCore] at hj hj'; exact h (Fin.ext (by omega))
theorem oCore_disjoint :
    ∀ c ∈ (Finset.univ : Finset (Fin 2)), ∀ c' ∈ (Finset.univ : Finset (Fin 2)), c ≠ c' → Disjoint (oCore c) (oCore c') :=
  fun c _ c' _ h => Finset.disjoint_left.mpr fun j hj hj' => by
    rw [mem_oCore] at hj hj'; exact h (Fin.ext (by omega))

theorem iCore_cover : (Finset.univ : Finset (Fin 2)).biUnion iCore = Finset.univ :=
  Finset.eq_univ_of_forall fun j => by
    have h1 : (j 1).val < 1024 := (j 1).isLt
    simp only [Finset.mem_biUnion, Finset.mem_univ, true_and, mem_iCore]
    exact ⟨⟨(j 1).val / 512, by omega⟩, by simp only []; omega⟩
theorem oCore_cover : (Finset.univ : Finset (Fin 2)).biUnion oCore = Finset.univ :=
  Finset.eq_univ_of_forall fun j => by
    have h1 : (j 1).val < 1024 := (j 1).isLt
    simp only [Finset.mem_biUnion, Finset.mem_univ, true_and, mem_oCore]
    exact ⟨⟨(j 1).val / 512, by omega⟩, by simp only []; omega⟩

/-! ## Shares: a share cut in two, `n` times over -/

/-- The pieces of `q` cut in two `n` times over: the left half's pieces, then the right half's. -/
def cut : (n : ℕ) → PosShare TreeShare → Fin (2 ^ n) → PosShare TreeShare
  | 0, q, _ => q
  | n + 1, q, i => Fin.addCases (cut n q.left) (cut n q.right) (Fin.cast (by omega) i : Fin (2 ^ n + 2 ^ n))

/-- The pieces of the two halves, side by side, are the pieces of the whole. -/
def halves (n : ℕ) : Fin (2 ^ n) ⊕ Fin (2 ^ n) ≃ Fin (2 ^ (n + 1)) := finSumFinEquiv.trans (finCongr (by omega))

theorem cut_inl (n : ℕ) (q : PosShare TreeShare) (i : Fin (2 ^ n)) : cut (n + 1) q (halves n (Sum.inl i)) = cut n q.left i := by
  show Fin.addCases (motive := fun _ => PosShare TreeShare) (cut n q.left) (cut n q.right) (Fin.castAdd (2 ^ n) i) = _
  rw [Fin.addCases_left]
theorem cut_inr (n : ℕ) (q : PosShare TreeShare) (i : Fin (2 ^ n)) : cut (n + 1) q (halves n (Sum.inr i)) = cut n q.right i := by
  show Fin.addCases (motive := fun _ => PosShare TreeShare) (cut n q.left) (cut n q.right) (Fin.natAdd (2 ^ n) i) = _
  rw [Fin.addCases_right]

theorem pointsTo_halves {ℓ : Loc nD τ sig} (I : Finset (Idx ℓ)) (f : Buf (Elt F) ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- A points-to at a share is the points-tos at its pieces. -/
theorem pointsTo_cut {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{cut n q i} f
  | 0, q => (bigSep_univ_of_subsingleton (0 : Fin 1) (Φ := fun i : Fin (2 ^ 0) => (ℓ ↦[I]{cut 0 q i} f : sProp 𝕄))).symm
  | n + 1, q => by
    rw [pointsTo_halves I f q, pointsTo_cut I f n q.left, pointsTo_cut I f n q.right,
      bigSep_univ_equiv (halves n) (fun i : Fin (2 ^ (n + 1)) => (ℓ ↦[I]{cut (n + 1) q i} f : sProp 𝕄)), bigSep_univ_sum]
    simp only [cut_inl, cut_inr]
    rfl

/-- SparseCore `c`'s half of the full share, and subcore `i`'s sixteenth of it. -/
def coreShare (c : Fin 2) : PosShare TreeShare := cut 1 fullShare c
def tileShare (c : Fin 2) (i : Fin 16) : PosShare TreeShare := cut 4 (coreShare c) i

/-! ## The arrays split: the device's among its SparseCores, a SparseCore's among its subcores -/

theorem tPts_cores (d : Dev nD) (f : Buf (Elt F) (tLoc d)) :
    (tLoc d ↦{fullShare} f : sProp 𝕄) = bigSep Finset.univ fun c : Fin 2 => tLoc d ↦{coreShare c} f :=
  pointsTo_cut Finset.univ f 1 fullShare
theorem tCore_tiles (d : Dev nD) (c : Fin 2) (f : Buf (Elt F) (tLoc d)) :
    (tLoc d ↦{coreShare c} f : sProp 𝕄) = bigSep Finset.univ fun i : Fin 16 => tLoc d ↦{tileShare c i} f :=
  pointsTo_cut Finset.univ f 4 (coreShare c)

theorem iPts_cores (d : Dev nD) (f : Buf (Elt F) (iLoc d)) :
    (iLoc d ↦{fullShare} f : sProp 𝕄) = bigSep Finset.univ fun c : Fin 2 => iLoc d ↦[iCore c]{fullShare} f := by
  rw [← pointsTo_biUnion Finset.univ (ℓ := iLoc d) iCore iCore_disjoint, iCore_cover]; try rfl
theorem oPts_cores (d : Dev nD) (f : Buf (Elt F) (oLoc d)) :
    (oLoc d ↦{fullShare} f : sProp 𝕄) = bigSep Finset.univ fun c : Fin 2 => oLoc d ↦[oCore c]{fullShare} f := by
  rw [← pointsTo_biUnion Finset.univ (ℓ := oLoc d) oCore oCore_disjoint, oCore_cover]; try rfl
theorem iCore_tiles (d : Dev nD) (c : Fin 2) (f : Buf (Elt F) (iLoc d)) :
    (iLoc d ↦[iCore c]{fullShare} f : sProp 𝕄) = bigSep Finset.univ fun i : Fin 16 => iLoc d ↦[iT c i]{fullShare} f :=
  pointsTo_biUnion Finset.univ (ℓ := iLoc d) (iT c) (iT_disjoint c)
theorem oCore_tiles (d : Dev nD) (c : Fin 2) (f : Buf (Elt F) (oLoc d)) :
    (oLoc d ↦[oCore c]{fullShare} f : sProp 𝕄) = bigSep Finset.univ fun i : Fin 16 => oLoc d ↦[oT c i]{fullShare} f :=
  pointsTo_biUnion Finset.univ (ℓ := oLoc d) (oT c) (oT_disjoint c)
theorem oT_chunks (d : Dev nD) (c : Fin 2) (i : Fin 16) (f : Buf (Elt F) (oLoc d)) :
    (oLoc d ↦[oT c i]{fullShare} f : sProp 𝕄) = oChunksPts d (LL c i) f := by
  unfold oT
  rw [pointsTo_biUnion Finset.univ (ℓ := oLoc d) (oK c i) (oK_disjoint c i), show (Finset.univ : Finset (Fin 4)) = {0, 1, 2, 3} by decide,
    SparseCore.bigSep_insert' (by decide), SparseCore.bigSep_insert' (by decide), SparseCore.bigSep_insert' (by decide), bigSep_singleton]
  rfl

/-! ## The padded table and the value -/

variable [FloatOps F]

/-- The table with 64 columns of the converted zero appended: what the two host operations leave for the kernel. -/
def padT (m : (ℓ : Loc nD τ sig) → Buf (Elt F) ℓ) (d : Dev nD) : Buf (Elt F) (tLoc d) :=
  pad S8192x128 ![0, 0] ![0, 64] ![0, 0] (m (wLoc d)) (sitofp .f32 (constantI S_ 32 0#32)) pads_S8192x64_S8192x128_000_0640 h_S_

/-- Its first 64 columns are the table's. -/
theorem padT_apply (m : (ℓ : Loc nD τ sig) → Buf (Elt F) ℓ) (d : Dev nD) (r : Fin 8192) (l : Fin 64) :
    padT m d (ix2 r (l.castLE (by decide))) = m (wLoc d) (ix2 r l) := by
  unfold padT
  refine pad_apply_of_inside _ _ _ _ _ _ _ _ (ix2 r l) fun a => ?_
  match a with
  | 0 => show r.val = 0 + r.val * (0 + 1); omega
  | 1 => show l.val = 0 + l.val * (0 + 1); omega

/-- The lookup read off the padded table is the lookup. -/
theorem lookT_padT (m : (ℓ : Loc nD τ sig) → Buf (Elt F) ℓ) (d : Dev nD) (idx : S16x1024.Idx → BitVec 32) :
    lookT idx (padT m d) = Cert.Spec.lookup idx (m (wLoc d)) :=
  funext fun j => padT_apply m d _ (j 2)

end Cert.Proof.Kernel

end
-- ==== Proof.KLaunch.lean ====
/-
  The launch: from "each vector subcore's task is proved" to the run of the whole program with the result's value named.
  The one SparseCore call hands each of the two SparseCores its columns of the index array, half the share of the padded
  table and its rows of the result; each of its sixteen subcores its 512 index words, a sixteenth of that share and its four
  chunks of the result. @main on the TensorCore computes the padded table by three host operations, makes the call, and is
  left with the index array and the table unchanged and the result at the lookup.
-/
import proofs.«206562_g3805341024366_cont_8to1_b_1019_21_alg».proof.Proof.KLaunchSets

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## What the handshakes carry -/

abbrev cN (c : Fin ((K (F := F)).nCore 0)) : Fin 2 := Fin.cast nCore_zero c
abbrev sN (i : Fin ((K (F := F)).nSub 0)) : Fin 16 := Fin.cast nSub_zero i

/-- A SparseCore's part of the three arrays, the result's at contents `f`. -/
abbrev stPts (d : Dev nD) (c : Fin 2) (f : Buf (Elt F) (oLoc d)) : sProp 𝕄 :=
  iprop((iLoc d ↦[iCore c]{fullShare} m (iLoc d)) ∗ (tLoc d ↦{coreShare c} padT m d) ∗ (oLoc d ↦[oCore c]{fullShare} f))
/-- A subcore's part. -/
abbrev goPts (d : Dev nD) (c : Fin 2) (i : Fin 16) (f : Buf (Elt F) (oLoc d)) : sProp 𝕄 :=
  iprop(iRowPts m d (LL c i) ∗ (tLoc d ↦{tileShare c i} padT m d) ∗ oChunksPts d (LL c i) f)

/-- The one call hands each SparseCore its part of the index array, its half share of the padded table and its part of the
    result; each task its index words, its share of the padded table and its four chunks; they come back with the result's
    parts at the lookup. -/
def P : (K (F := F)).Pay (nD := nD) (Val := Elt F) (Name := ℕ) (U := UU) where
  st := fun q d c => match q with | 0 => stPts m d (cN c) (m (oLoc d))
  dn := fun q d c => match q with | 0 => stPts m d (cN c) (lookT (m (iLoc d)) (padT m d))
  go := fun q d c i => match q with | 0 => goPts m d (cN c) (sN i) (m (oLoc d))
  td := fun q d c i => match q with | 0 => goPts m d (cN c) (sN i) (lookT (m (iLoc d)) (padT m d))
  x := fun _ _ => iprop(emp)

instance P_storable : (P (F := F) m).IsStorable where
  st q d c := match q with
    | 0 => (inferInstance : BI.Storable (upEmb : UEmb _ 𝕄) (stPts m d (cN c) (m (oLoc d))))
  dn q d c := match q with
    | 0 => (inferInstance : BI.Storable (upEmb : UEmb _ 𝕄) (stPts m d (cN c) (lookT (m (iLoc d)) (padT m d))))
  go q d c i := match q with
    | 0 => (inferInstance : BI.Storable (upEmb : UEmb _ 𝕄) (goPts m d (cN c) (sN i) (m (oLoc d))))
  td q d c i := match q with
    | 0 => (inferInstance : BI.Storable (upEmb : UEmb _ 𝕄) (goPts m d (cN c) (sN i) (lookT (m (iLoc d)) (padT m d))))

/-! ## The obligation -/

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) rwV (Memref.isWhole_whole _) rcV (Memref.isWhole_whole _)
          cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : TileBody m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) _ _ _ O W hO).trans (wp_mono frame _ _ fun _ => obl_post)

/-! ## A SparseCore's part is its subcores' parts -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem stPts_tiles (d : Dev nD) (c : Fin 2) (f : Buf (Elt F) (oLoc d)) :
    stPts m d c f = bigSep Finset.univ fun i : Fin 16 => goPts m d c i f := by
  show iprop((iLoc d ↦[iCore c]{fullShare} m (iLoc d)) ∗ (tLoc d ↦{coreShare c} padT m d) ∗ (oLoc d ↦[oCore c]{fullShare} f))
    = bigSep Finset.univ fun i : Fin 16 => iprop((iLoc d ↦[iT c i]{fullShare} m (iLoc d)) ∗ (tLoc d ↦{tileShare c i} padT m d) ∗ oChunksPts d (LL c i) f)
  rw [iCore_tiles, tCore_tiles, oCore_tiles, bigSep_sep', bigSep_sep']
  congr 2
  exact bigSep_congr fun i _ => oT_chunks d c i f

theorem vecSplit : (K (F := F)).VecSplit' (P m) 0 := by
  intro d c
  show stPts m d (cN c) (m (oLoc d)) ⊢ |={Set.univ}=> iprop(
      (bigSep Finset.univ fun i : Fin ((K (F := F)).nSub 0) => goPts m d (cN c) (Fin.cast nSub_zero i) (m (oLoc d)))
      ∗ ((bigSep Finset.univ fun i : Fin ((K (F := F)).nSub 0) => goPts m d (cN c) (Fin.cast nSub_zero i) (lookT (m (iLoc d)) (padT m d)))
          -∗ stPts m d (cN c) (lookT (m (iLoc d)) (padT m d))))
  rw [bigSep_tasks (F := F) (fun i => goPts m d (cN c) i (m (oLoc d))),
    bigSep_tasks (F := F) (fun i => goPts m d (cN c) i (lookT (m (iLoc d)) (padT m d))), ← stPts_tiles, ← stPts_tiles]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev cLoc (d : Dev nD) : Loc nD τ sig := (SparseCore.T d).loc main_c
abbrev vLoc (d : Dev nD) : Loc nD τ sig := (SparseCore.T d).loc main_call0_v0

abbrev i' : DevRef τ sig := Proc.devRef .tc (main_arg0 : Ref sig .tc)
abbrev w' : DevRef τ sig := Proc.devRef .tc (main_arg1 : Ref sig .tc)
abbrev c' : DevRef τ sig := Proc.devRef .tc (main_c : Ref sig .tc)
abbrev v' : DevRef τ sig := Proc.devRef .tc (main_call0_v0 : Ref sig .tc)
abbrev t' : DevRef τ sig := Proc.devRef .tc (main_v0 : Ref sig .tc)
abbrev o' : DevRef τ sig := Proc.devRef .tc (main_v1 : Ref sig .tc)

/-- The three host operations before the call: the zero, its conversion, the padding. -/
abbrev opC : HloOp τ sig (Elt F) := StableHlo.nullary main_c (constantI S_ 32 0#32)
abbrev opV : HloOp τ sig (Elt F) :=
  StableHlo.TRef.unary (StableHlo.TRef.of main_c : StableHlo.TRef sig ⟨S_, .i32⟩) main_call0.v0 (sitofp .f32)
abbrev opP : HloOp τ sig (Elt F) :=
  StableHlo.TRef.binary (StableHlo.TRef.of main_arg1 : StableHlo.TRef sig ⟨S8192x64, .f32⟩) main_call0.v0 main_call0.v1
    (fun x v => pad S8192x128 ![0, 0] ![0, 64] ![0, 0] x v pads_S8192x64_S8192x128_000_0640 h_S_)

/-- The TensorCore's arrays, all unscoped. -/
abbrev S6 : Finset (DevRef τ sig) := {i', w', c', v', t', o'}

omit [FloatOps F] in
theorem held_S6 (d : Dev nD) (W : Valuation τ sig (Elt F)) :
    (held (T d) S6 W : sProp 𝕄)
      = iprop((iLoc d ↦{fullShare} W i') ∗ (wLoc d ↦{fullShare} W w') ∗ (cLoc d ↦{fullShare} W c') ∗ (vLoc d ↦{fullShare} W v')
          ∗ (tLoc d ↦{fullShare} W t') ∗ oLoc d ↦{fullShare} W o') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((iLoc d ↦{fullShare} W main_arg0) ∗ (wLoc d ↦{fullShare} W main_arg1) ∗ (cLoc d ↦{fullShare} W main_c)
          ∗ (vLoc d ↦{fullShare} W main_call0_v0) ∗ (tLoc d ↦{fullShare} W main_v0) ∗ oLoc d ↦{fullShare} W main_v1) := by
  unfold unscopedBufs
  rw [show (Finset.univ.filter fun b : Ref sig .tc => ¬ b.isScoped) = {main_arg0, main_arg1, main_c, main_call0_v0, main_v0, main_v1} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuation before the call. -/
def V0 (d : Dev nD) : Valuation τ sig (Elt F) := fun b => m (d, b)
def V3 (d : Dev nD) : Valuation τ sig (Elt F) := (opP (F := F)).result ((opV (F := F)).result ((opC (F := F)).result (V0 m d)))

theorem unscoped_held (d : Dev nD) : (unscopedBufs d (fun b => m ((SparseCore.T d).loc b)) : sProp 𝕄) = held (T d) S6 (V0 m d) := by
  rw [unscopedBufs_eq, held_S6]; rfl

theorem V3_i (d : Dev nD) : V3 m d i' = m (iLoc d) := by
  unfold V3
  rw [(opP (F := F)).result_of_not_mem _ (show i' ∉ ({t'} : Finset (DevRef τ sig)) by decide),
    (opV (F := F)).result_of_not_mem _ (show i' ∉ ({v'} : Finset (DevRef τ sig)) by decide),
    (opC (F := F)).result_of_not_mem _ (show i' ∉ ({c'} : Finset (DevRef τ sig)) by decide)]
  rfl
theorem V3_w (d : Dev nD) : V3 m d w' = m (wLoc d) := by
  unfold V3
  rw [(opP (F := F)).result_of_not_mem _ (show w' ∉ ({t'} : Finset (DevRef τ sig)) by decide),
    (opV (F := F)).result_of_not_mem _ (show w' ∉ ({v'} : Finset (DevRef τ sig)) by decide),
    (opC (F := F)).result_of_not_mem _ (show w' ∉ ({c'} : Finset (DevRef τ sig)) by decide)]
  rfl
theorem V3_o (d : Dev nD) : V3 m d o' = m (oLoc d) := by
  unfold V3
  rw [(opP (F := F)).result_of_not_mem _ (show o' ∉ ({t'} : Finset (DevRef τ sig)) by decide),
    (opV (F := F)).result_of_not_mem _ (show o' ∉ ({v'} : Finset (DevRef τ sig)) by decide),
    (opC (F := F)).result_of_not_mem _ (show o' ∉ ({c'} : Finset (DevRef τ sig)) by decide)]
  rfl
theorem V3_t (d : Dev nD) : V3 m d t' = padT m d := by
  unfold V3
  refine (StableHlo.binary_result _ _ _ _ _ _ _ _).trans ?_
  show pad S8192x128 ![0, 0] ![0, 64] ![0, 0] ((opV (F := F)).result ((opC (F := F)).result (V0 m d)) w')
      ((opV (F := F)).result ((opC (F := F)).result (V0 m d)) v') pads_S8192x64_S8192x128_000_0640 h_S_ = padT m d
  rw [(opV (F := F)).result_of_not_mem _ (show w' ∉ ({v'} : Finset (DevRef τ sig)) by decide),
    (opC (F := F)).result_of_not_mem _ (show w' ∉ ({c'} : Finset (DevRef τ sig)) by decide)]
  rw [show (opV (F := F)).result ((opC (F := F)).result (V0 m d)) v' = sitofp .f32 ((opC (F := F)).result (V0 m d) c') from
      StableHlo.unary_result _ _ _ _ _ _,
    show (opC (F := F)).result (V0 m d) c' = constantI S_ 32 0#32 from StableHlo.nullary_result _ _ _ _]
  rfl

/-- The six arrays before the call: the padded table at its value, the others at their launch contents. -/
theorem held_V3 (d : Dev nD) :
    (held (T d) S6 ((opP (F := F)).result ((opV (F := F)).result ((opC (F := F)).result (V0 m d)))) : sProp 𝕄)
      = iprop((iLoc d ↦{fullShare} m (iLoc d)) ∗ (wLoc d ↦{fullShare} m (wLoc d)) ∗ (cLoc d ↦{fullShare} V3 m d c') ∗ (vLoc d ↦{fullShare} V3 m d v')
          ∗ (tLoc d ↦{fullShare} padT m d) ∗ oLoc d ↦{fullShare} m (oLoc d)) := by
  show held (SparseCore.T d) S6 (V3 m d) = _
  rw [held_S6, V3_i, V3_w, V3_t, V3_o]

/-- The call's operands are the two SparseCores' parts; so are its results. -/
theorem st0_eq (d : Dev nD) (f : Buf (Elt F) (oLoc d)) :
    (bigSep Finset.univ fun c : Fin ((K (F := F)).nCore 0) => stPts m d (cN c) f)
      = iprop((iLoc d ↦{fullShare} m (iLoc d)) ∗ (tLoc d ↦{fullShare} padT m d) ∗ oLoc d ↦{fullShare} f) := by
  rw [bigSep_cores (F := F) (fun c => stPts m d c f)]
  show (bigSep Finset.univ fun c : Fin 2 => iprop((iLoc d ↦[iCore c]{fullShare} m (iLoc d)) ∗ (tLoc d ↦{coreShare c} padT m d) ∗ (oLoc d ↦[oCore c]{fullShare} f))) = _
  rw [bigSep_sep', bigSep_sep', ← iPts_cores, ← tPts_cores, ← oPts_cores]

theorem st0_eq' (d : Dev nD) :
    (bigSep Finset.univ fun c : Fin ((K (F := F)).nCore 0) => (P m).st 0 d c)
      = iprop((iLoc d ↦{fullShare} m (iLoc d)) ∗ (tLoc d ↦{fullShare} padT m d) ∗ oLoc d ↦{fullShare} m (oLoc d)) := st0_eq m d _
theorem dn0_eq' (d : Dev nD) :
    (bigSep Finset.univ fun c : Fin ((K (F := F)).nCore 0) => (P m).dn 0 d c)
      = iprop((iLoc d ↦{fullShare} m (iLoc d)) ∗ (tLoc d ↦{fullShare} padT m d) ∗ oLoc d ↦{fullShare} lookT (m (iLoc d)) (padT m d)) := st0_eq m d _

abbrev FIN (d : Dev nD) : sProp 𝕄 :=
  iprop((iLoc d ↦{fullShare} m (iLoc d)) ∗ (wLoc d ↦{fullShare} m (wLoc d)) ∗ (oLoc d ↦{fullShare} lookT (m (iLoc d)) (padT m d)))

theorem hC : (opC (F := F)).bufs ⊆ S6 := show ({c'} : Finset (DevRef τ sig)) ⊆ S6 by decide
theorem hV : (opV (F := F)).bufs ⊆ S6 := show ({c', v'} : Finset (DevRef τ sig)) ⊆ S6 by decide
theorem hP : (opP (F := F)).bufs ⊆ S6 := show ({w', v', t'} : Finset (DevRef τ sig)) ⊆ S6 by decide

/-- @main on device `d`'s TensorCore: the zero, its conversion and the padding, over the six arrays held whole; then the
    call, from the index array, the padded table and the result, which comes back at the lookup. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  iapply (wp_hlo_within 𝒱 (SparseCore.T d) none Set.univ (op := opC) (S := S6) hC (V := V0 m d)) $$ [Hb Hheld]
  · isplitl [Hb] <;> iassumption
  iintro ⟨Hb, Hheld⟩
  rw [wp_ret]; imodintro
  iapply (wp_hlo_within 𝒱 (SparseCore.T d) none Set.univ (op := opV) (S := S6) hV (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opP) (S := S6) hP (V := (opV (F := F)).result ((opC (F := F)).result (V0 m d)))) $$ [Hb Hheld]
  · isplitl [Hb] <;> iassumption
  iintro ⟨Hb, Hheld⟩
  rw [wp_ret]; imodintro
  imodintro
  ihave Hh := (Entails.of_eq (held_V3 (F := F) m d)) $$ Hheld
  icases Hh with ⟨Hi, Hw, -, -, Ht, Ho⟩
  iapply ((K (F := F)).wp_run (D (F := F)) 𝒱 (EH := EH) (P := P m) κ d 0) $$ [Hst Hi Hw Ht Ho]
  isplitr; · iexact Hctx
  isplitl [Hst]; · iexact Hst
  isplitl [Hi Ht Ho]
  · rw [st0_eq']
    isplitl [Hi]; · iexact Hi
    isplitl [Ht]; · iexact Ht
    iexact Ho
  iintro ⟨Hst, Hdn⟩
  ihave Hdn' := (Entails.of_eq (dn0_eq' m d)) $$ Hdn
  icases Hdn' with ⟨Hi, -, Ho⟩
  imodintro
  isplitl [Hst]; · iexact Hst
  isplitl [Hi]; · iexact Hi
  isplitl [Hw]; · iexact Hw
  iexact Ho

def fq (d : Dev nD) (s' : Phys nD τ sig (Elt F)) : Prop :=
  s'.mem.mem (oLoc d) = Cert.Spec.lookup (m (iLoc d)) (m (wLoc d)) ∧ s'.mem.mem (iLoc d) = m (iLoc d) ∧ s'.mem.mem (wLoc d) = m (wLoc d)

set_option maxRecDepth 16384 in
theorem hfin (d : Dev nD) (s' : Phys nD τ sig (Elt F)) : iprop(FIN m d ∗ SI s') ⊢ (⌜fq m d s'⌝ : sProp 𝕄) := by
  iintro ⟨⟨Hi, Hw, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := lookT (m (iLoc d)) (padT m d))) $$ [HSI Ho]
  · isplitl [HSI] <;> iassumption
  icases H with %h3
  ipureintro
  exact ⟨(funext fun i => h3 i (Finset.mem_univ i)).trans (lookT_padT m d _), funext fun i => h1 i (Finset.mem_univ i), funext fun i => h2 i (Finset.mem_univ i)⟩

/-! ## The program's run -/

theorem run_main [∀ e, Nonempty (Elt F e)] (hbody : TileBody m) :
    θ_run (Cert.Kernel.defs (F := F)) (Cert.Kernel.threads (F := F)) ⟨m, fun _ => 0, ρ⟩
      (fun r => ∀ c : Dev nD,
        r.2.mem (oLoc c) = Cert.Spec.lookup (m (iLoc c)) (m (wLoc c))
        ∧ r.2.mem (iLoc c) = m (iLoc c) ∧ r.2.mem (wLoc c) = m (wLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.Kernel

end
-- ==== Proof.Own.lean ====
import proofs.«206562_g3805341024366_cont_8to1_b_1019_21_alg».proof.Proof.Common

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A subcore's own semaphores and scratch buffers, named -/

section Own
variable (d : Dev nD) (L : grid0.Coords)

abbrev thrV (d : Dev nD) (L : grid0.Coords) : Thread nD τ := V d (cV L) (jV L)

abbrev cellG0 (d : Dev nD) (L : grid0.Coords) : GSem nD τ sig := (thrV d L, .dma cc0_scratch3.sem)
abbrev cellG1 (d : Dev nD) (L : grid0.Coords) : GSem nD τ sig := (thrV d L, .dma cc0_scratch4.sem)
abbrev cellS0 (d : Dev nD) (L : grid0.Coords) : GSem nD τ sig := (thrV d L, .dma cc0_scratch5.sem)
abbrev cellS1 (d : Dev nD) (L : grid0.Coords) : GSem nD τ sig := (thrV d L, .dma cc0_scratch6.sem)
abbrev cellI (d : Dev nD) (L : grid0.Coords) : GSem nD τ sig := (thrV d L, .dma cc0_scoped0.sem)

/-- The five DMA semaphores the task names are among the subcore's own: they are them, at zero, and the rest. -/
theorem ownSems0_V :
    (ownSems0 (thrV d L) : sProp 𝕄)
      = iprop(semVal (cellG0 d L) 0 ∗ semVal (cellG1 d L) 0 ∗ semVal (cellS0 d L) 0 ∗ semVal (cellS1 d L) 0 ∗ semVal (cellI d L) 0
          ∗ bigSep ((((((ownCells (thrV d L)).erase (cellG0 d L)).erase (cellG1 d L)).erase (cellS0 d L)).erase (cellS1 d L)).erase (cellI d L))
              fun g => semVal g 0) := by
  unfold SparseCore.Cfg.ownSems0
  rw [SparseCore.bigSep_erase' ((mem_ownCells (g := cellG0 d L)).mpr ⟨rfl, by
      show (SemLoc.dma cc0_scratch3.sem : SemLoc sig).isScoped .scVector = true; decide⟩),
    SparseCore.bigSep_erase' (Finset.mem_erase.mpr ⟨by simp [cellG0, cellG1]; decide, (mem_ownCells (g := cellG1 d L)).mpr ⟨rfl, by
      show (SemLoc.dma cc0_scratch4.sem : SemLoc sig).isScoped .scVector = true; decide⟩⟩),
    SparseCore.bigSep_erase' (Finset.mem_erase.mpr ⟨by simp [cellG1, cellS0]; decide, Finset.mem_erase.mpr ⟨by simp [cellG0, cellS0]; decide,
      (mem_ownCells (g := cellS0 d L)).mpr ⟨rfl, by show (SemLoc.dma cc0_scratch5.sem : SemLoc sig).isScoped .scVector = true; decide⟩⟩⟩),
    SparseCore.bigSep_erase' (Finset.mem_erase.mpr ⟨by simp [cellS0, cellS1]; decide, Finset.mem_erase.mpr ⟨by simp [cellG1, cellS1]; decide,
      Finset.mem_erase.mpr ⟨by simp [cellG0, cellS1]; decide,
      (mem_ownCells (g := cellS1 d L)).mpr ⟨rfl, by show (SemLoc.dma cc0_scratch6.sem : SemLoc sig).isScoped .scVector = true; decide⟩⟩⟩⟩),
    SparseCore.bigSep_erase' (Finset.mem_erase.mpr ⟨by simp [cellS1, cellI]; decide, Finset.mem_erase.mpr ⟨by simp [cellS0, cellI]; decide,
      Finset.mem_erase.mpr ⟨by simp [cellG1, cellI]; decide, Finset.mem_erase.mpr ⟨by simp [cellG0, cellI]; decide,
      (mem_ownCells (g := cellI d L)).mpr ⟨rfl, by show (SemLoc.dma cc0_scoped0.sem : SemLoc sig).isScoped .scVector = true; decide⟩⟩⟩⟩⟩)]

abbrev sLoc (d : Dev nD) (L : grid0.Coords) : Loc nD τ sig := (thrV d L).loc cc0_scratch0
abbrev rwLoc (d : Dev nD) (L : grid0.Coords) : Loc nD τ sig := (thrV d L).loc cc0_scratch1
abbrev rcLoc (d : Dev nD) (L : grid0.Coords) : Loc nD τ sig := (thrV d L).loc cc0_scratch2

/-- The three scratch buffers are among the subcore's own: they are them, at some contents, and the rest. -/
theorem ownBufs_V :
    (ownBufs (thrV d L) : sProp 𝕄)
      = iprop((∃ f, sLoc d L ↦{fullShare} f) ∗ (∃ f, rwLoc d L ↦{fullShare} f) ∗ (∃ f, rcLoc d L ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Own

end Cert.Proof.KernelIdeal

end
-- ==== Proof.BodyVals.lean ====
import proofs.«206562_g3805341024366_cont_8to1_b_1019_21_alg».proof.Proof.Own

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The two slots of each scratch, as the task addresses them -/

abbrev W0 : Memref sig .scVector .vmem S128x128 .f32 := ((rwV.slice (Rect.unit (s := S2x128x128) ![0, 0, 0] S1x128x128.size inb_S2x128x128_S1x128x128_0_0_0) (fun _ => rfl)).squeeze S128x128 squeezes_S1x128x128_S128x128)
abbrev W1 : Memref sig .scVector .vmem S128x128 .f32 := ((rwV.slice (Rect.unit (s := S2x128x128) ![1, 0, 0] S1x128x128.size inb_S2x128x128_S1x128x128_1_0_0) (fun _ => rfl)).squeeze S128x128 squeezes_S1x128x128_S128x128)
abbrev C0 : Memref sig .scVector .vmem S128x64 .f32 := ((rcV.slice (Rect.unit (s := S2x128x64) ![0, 0, 0] S1x128x64.size inb_S2x128x64_S1x128x64_0_0_0) (fun _ => rfl)).squeeze S128x64 squeezes_S1x128x64_S128x64)
abbrev C1 : Memref sig .scVector .vmem S128x64 .f32 := ((rcV.slice (Rect.unit (s := S2x128x64) ![1, 0, 0] S1x128x64.size inb_S2x128x64_S1x128x64_1_0_0) (fun _ => rfl)).squeeze S128x64 squeezes_S1x128x64_S128x64)

/-! ## What the slots hold, chunk by chunk -/

section Clean
variable (m : (ℓ : Loc nD τ sig) → Buf (Elt F) ℓ) (d : Dev nD) (L : grid0.Coords) (Tb : Buf (Elt F) (tLoc d))

/-- The index word at position `i` of chunk `c` of the subcore's 512. -/
def wordAt (c : Fin 4) (i : Fin 128) : BitVec 32 :=
  m (iLoc d) (ix2 (⟨(L 1).val, (L 1).isLt⟩ : Fin 16) (⟨512 * (L 0).val + 128 * c.val + i.val, by
    have h0 : (L 0).val < 2 := (L 0).isLt
    have := c.isLt; have := i.isLt; omega⟩ : Fin 1024))

/-- Chunk `c`'s gathered rows as contents of the row scratch, either slot: row `i` is table row `idx[…]`, all 128 columns. -/
def cleanW (c : Fin 4) : Buf (Elt F) (rwLoc d L) :=
  fun j => Tb (ix2 (Cert.Spec.rowOf (wordAt m d L c (j 1))) (j 2))

/-- Chunk `c`'s compacted rows as contents of the compact scratch, either slot: row `i` is the first 64 columns of that table row. -/
def cleanC (c : Fin 4) : Buf (Elt F) (rcLoc d L) :=
  fun j => Tb (ix2 (Cert.Spec.rowOf (wordAt m d L c (j 1))) ((j 2).castLE (show 64 ≤ 128 by decide)))

end Clean

end Cert.Proof.KernelIdeal

end
-- ==== Proof.BodySets.lean ====
/-
  The two slots of each scratch buffer. A slot is plane b of the buffer: the indices whose leading coordinate is b.
  The two planes of a buffer with two planes are complements of each other.
-/
import proofs.«206562_g3805341024366_cont_8to1_b_1019_21_alg».proof.Proof.BodyVals

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The elements of a slot are the indices of its plane -/

/-- A slot's element set is the set of its rectangle (the squeeze keeps the elements; the slice of a whole buffer is
    the rectangle). -/
theorem set_W0 : (W0).view.set = (Rect.unit (s := S2x128x128) ![0, 0, 0] S1x128x128.size inb_S2x128x128_S1x128x128_0_0_0).set :=
  (View.set_reshape _ _).trans (View.set_slice_whole _ _)
theorem set_W1 : (W1).view.set = (Rect.unit (s := S2x128x128) ![1, 0, 0] S1x128x128.size inb_S2x128x128_S1x128x128_1_0_0).set :=
  (View.set_reshape _ _).trans (View.set_slice_whole _ _)
theorem set_C0 : (C0).view.set = (Rect.unit (s := S2x128x64) ![0, 0, 0] S1x128x64.size inb_S2x128x64_S1x128x64_0_0_0).set :=
  (View.set_reshape _ _).trans (View.set_slice_whole _ _)
theorem set_C1 : (C1).view.set = (Rect.unit (s := S2x128x64) ![1, 0, 0] S1x128x64.size inb_S2x128x64_S1x128x64_1_0_0).set :=
  (View.set_reshape _ _).trans (View.set_slice_whole _ _)

/-- Membership in a unit-stride rectangle of a rank-3 shape, axis by axis. -/
theorem mem_unit3 {n0 n1 n2 : ℕ} {off size : Fin 3 → ℕ} {inb} (j : (⟨3, ![n0, n1, n2]⟩ : Shape).Idx) :
    j ∈ (Rect.unit (s := ⟨3, ![n0, n1, n2]⟩) off size inb).set ↔
      (off 0 ≤ (j 0).val ∧ (j 0).val < off 0 + size 0) ∧ (off 1 ≤ (j 1).val ∧ (j 1).val < off 1 + size 1)
        ∧ (off 2 ≤ (j 2).val ∧ (j 2).val < off 2 + size 2) := by
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

/-- The coordinates of a rank-3 index are below the extents, written as the extents themselves. -/
theorem idx3_lt {n0 n1 n2 : ℕ} (j : (⟨3, ![n0, n1, n2]⟩ : Shape).Idx) : (j 0).val < n0 ∧ (j 1).val < n1 ∧ (j 2).val < n2 :=
  ⟨(j 0).isLt, (j 1).isLt, (j 2).isLt⟩

theorem mem_W0' (j : S2x128x128.Idx) : j ∈ (W0).view.set ↔ (j 0).val = 0 := by
  rw [set_W0, mem_unit3]
  obtain ⟨h0, h1, h2⟩ := idx3_lt j
  show ((0 ≤ (j 0).val ∧ (j 0).val < 0 + 1) ∧ (0 ≤ (j 1).val ∧ (j 1).val < 0 + 128) ∧ (0 ≤ (j 2).val ∧ (j 2).val < 0 + 128)) ↔ _
  omega
theorem mem_W1' (j : S2x128x128.Idx) : j ∈ (W1).view.set ↔ (j 0).val = 1 := by
  rw [set_W1, mem_unit3]
  obtain ⟨h0, h1, h2⟩ := idx3_lt j
  show ((1 ≤ (j 0).val ∧ (j 0).val < 1 + 1) ∧ (0 ≤ (j 1).val ∧ (j 1).val < 0 + 128) ∧ (0 ≤ (j 2).val ∧ (j 2).val < 0 + 128)) ↔ _
  omega
theorem mem_C0' (j : S2x128x64.Idx) : j ∈ (C0).view.set ↔ (j 0).val = 0 := by
  rw [set_C0, mem_unit3]
  obtain ⟨h0, h1, h2⟩ := idx3_lt j
  show ((0 ≤ (j 0).val ∧ (j 0).val < 0 + 1) ∧ (0 ≤ (j 1).val ∧ (j 1).val < 0 + 128) ∧ (0 ≤ (j 2).val ∧ (j 2).val < 0 + 64)) ↔ _
  omega
theorem mem_C1' (j : S2x128x64.Idx) : j ∈ (C1).view.set ↔ (j 0).val = 1 := by
  rw [set_C1, mem_unit3]
  obtain ⟨h0, h1, h2⟩ := idx3_lt j
  show ((1 ≤ (j 0).val ∧ (j 0).val < 1 + 1) ∧ (0 ≤ (j 1).val ∧ (j 1).val < 0 + 128) ∧ (0 ≤ (j 2).val ∧ (j 2).val < 0 + 64)) ↔ _
  omega

/-! ## The slots split each scratch in two -/

theorem slotW_compl' : (Finset.univ \ (W0).view.set) = (W1).view.set := by
  ext j
  rw [Finset.mem_sdiff, mem_W0', mem_W1']
  have h0 : (j 0).val < 2 := (j 0).isLt
  simp only [Finset.mem_univ, true_and]
  omega

theorem slotC_compl' : (Finset.univ \ (C0).view.set) = (C1).view.set := by
  ext j
  rw [Finset.mem_sdiff, mem_C0', mem_C1']
  have h0 : (j 0).val < 2 := (j 0).isLt
  simp only [Finset.mem_univ, true_and]
  omega

end Cert.Proof.KernelIdeal

end
-- ==== Proof.BodyStep.lean ====
/-
  One trip of a compaction loop. A trip at row k of slot b loads four runs of sixteen lanes, columns [16 q, 16 q + 16)
  for q < 4, of row k of the row scratch's slot, and stores each at the same place of the compact scratch's slot. One
  store changes exactly the sixteen elements (b, k, q₀ + i), i < 16, to the row scratch's elements at the same
  coordinates; the four stores of a trip therefore fill columns [0, 64) of row k and leave every other row.
-/
import proofs.«206562_g3805341024366_cont_8to1_b_1019_21_alg».proof.Proof.BodySets
import Idealize.ShloMosaic.Lib.Pipeline.Value

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Store
variable (d : Dev nD) (L : grid0.Coords)

/-- An index of the compact scratch as the index of the row scratch with the same coordinates. -/
def up (j : S2x128x64.Idx) : S2x128x128.Idx :=
  ix3 (n0 := 2) (n1 := 128) (n2 := 128) (j 0) (j 1) ((j 2).castLE (by decide))

/-- The store's payload is the load: the two casts of shape undo each other. -/
theorem lanes_eq (x : Vec F S1x1x16 .f32) :
    shapeCast S1x1x16 (shapeCast S16 x shapeCasts_S1x1x16_S16) shapeCasts_S16_S1x1x16 = x :=
  shapeCast_shapeCast x _ _

/-- ONE STORE of sixteen loaded lanes at (b, k, q): the sixteen elements (b, k, q + i) take the row scratch's elements
    at the same coordinates, every other element keeps its contents. -/
theorem store16_apply (b k q : ℕ) (oW oC : Fin 3 → ℕ) (hW : oW = ![b, k, q]) (hC : oC = ![b, k, q])
    (iW : ∀ a, oW a + S1x1x16.size a ≤ S2x128x128.size a) (iC : ∀ a, oC a + S1x1x16.size a ≤ S2x128x64.size a)
    (gw : Buf (Elt F) (rwLoc d L)) (f : Buf (Elt F) (rcLoc d L)) (j : S2x128x64.Idx) :
    View.write (Elt F) ((rcV).access (Rect.unit (s := S2x128x64) oC S1x1x16.size iC)) f
        (shapeCast S1x1x16 (shapeCast S16 (View.readAt (Elt F) (rwV).view (Rect.unit (s := S2x128x128) oW S1x1x16.size iW).toLoadRect gw)
          shapeCasts_S1x1x16_S16) shapeCasts_S16_S1x1x16) Finset.univ j
      = if (j 0).val = b ∧ (j 1).val = k ∧ q ≤ (j 2).val ∧ (j 2).val < q + 16 then gw (up j) else f j := by
  subst hW hC
  rw [lanes_eq]
  have hb : b + 1 ≤ 2 := iC 0
  have hk : k + 1 ≤ 128 := iC 1
  have hq : q + 16 ≤ 64 := iC 2
  obtain ⟨h0, h1, h2⟩ := idx3_lt j
  by_cases hc : (j 0).val = b ∧ (j 1).val = k ∧ q ≤ (j 2).val ∧ (j 2).val < q + 16
  · rw [if_pos hc]
    obtain ⟨c0, c1, c2, c3⟩ := hc
    let x : S1x1x16.Idx := ix3 (n0 := 1) (n1 := 1) (n2 := 16) ⟨0, Nat.one_pos⟩ ⟨0, Nat.one_pos⟩ ⟨(j 2).val - q, by omega⟩
    have hj : j = ((rcV).access (Rect.unit (s := S2x128x64) ![b, k, q] S1x1x16.size iC)).emb x := by
      funext a; apply Fin.ext
      match a with
      | ⟨0, _⟩ => show (j 0).val = b + 1 * 0; omega
      | ⟨1, _⟩ => show (j 1).val = k + 1 * 0; omega
      | ⟨2, _⟩ => show (j 2).val = q + 1 * ((j 2).val - q); omega
    refine (congrArg (View.write (Elt F) ((rcV).access (Rect.unit (s := S2x128x64) ![b, k, q] S1x1x16.size iC)) f _ Finset.univ) hj).trans
      ((View.write_emb_of_mem (v := (rcV).access (Rect.unit (s := S2x128x64) ![b, k, q] S1x1x16.size iC)) (Val := Elt F) f _ (Finset.mem_univ x)).trans ?_)
    show gw ((Rect.unit (s := S2x128x128) ![b, k, q] S1x1x16.size iW).idx x) = gw (up j)
    refine congrArg gw (funext fun a => Fin.ext ?_)
    match a with
    | ⟨0, _⟩ => show b + 1 * 0 = (j 0).val; omega
    | ⟨1, _⟩ => show k + 1 * 0 = (j 1).val; omega
    | ⟨2, _⟩ => show q + 1 * ((j 2).val - q) = (j 2).val; omega
  · rw [if_neg hc]
    refine View.write_of_not_mem (v := (rcV).access (Rect.unit (s := S2x128x64) ![b, k, q] S1x1x16.size iC)) (Val := Elt F) f _ _ ?_
    rw [View.setOn_univ, show ((rcV).access (Rect.unit (s := S2x128x64) ![b, k, q] S1x1x16.size iC)).set
        = (Rect.unit (s := S2x128x64) ![b, k, q] S1x1x16.size iC).set from View.set_slice_whole _ _, mem_unit3]
    show ¬((b ≤ (j 0).val ∧ (j 0).val < b + 1) ∧ (k ≤ (j 1).val ∧ (j 1).val < k + 1) ∧ (q ≤ (j 2).val ∧ (j 2).val < q + 16))
    omega

end Store

section Step
variable (m : (ℓ : Loc nD τ sig) → Buf (Elt F) ℓ) (d : Dev nD) (L : grid0.Coords) (Tb : Buf (Elt F) (tLoc d))

/-- What a trip's store carries: the sixteen lanes it loaded, through two casts of shape that undo each other. -/
abbrev lanes' (x : Vec F S1x1x16 .f32) : FVec F S1x1x16 .f32 :=
  shapeCast S1x1x16 (shapeCast S16 x shapeCasts_S1x1x16_S16) shapeCasts_S16_S1x1x16

/-- The row scratch's chunk at an index of the compact scratch's coordinates is the compact chunk there. -/
theorem cleanW_up (c : Fin 4) (j : S2x128x64.Idx) : cleanW m d L Tb c (up j) = cleanC m d L Tb c j := rfl

/-- ONE TRIP of a compaction loop on slot b at row k: if the row scratch's slot holds chunk c's rows and the compact
    scratch's slot holds chunk c's compacted rows below row k, then after the four loads and stores the compact
    scratch's slot holds them below row k + 1. -/
theorem step_slot' (b : Fin 2) (c : Fin 4) (k : ℕ) (hk : k < 128)
    (oW0 oW1 oW2 oW3 oC0 oC1 oC2 oC3 : Fin 3 → ℕ)
    (hW0 : oW0 = ![b.val, k, 0]) (hW1 : oW1 = ![b.val, k, 16]) (hW2 : oW2 = ![b.val, k, 32]) (hW3 : oW3 = ![b.val, k, 48])
    (hC0 : oC0 = ![b.val, k, 0]) (hC1 : oC1 = ![b.val, k, 16]) (hC2 : oC2 = ![b.val, k, 32]) (hC3 : oC3 = ![b.val, k, 48])
    (iW0 : ∀ a, oW0 a + S1x1x16.size a ≤ S2x128x128.size a) (iW1 : ∀ a, oW1 a + S1x1x16.size a ≤ S2x128x128.size a)
    (iW2 : ∀ a, oW2 a + S1x1x16.size a ≤ S2x128x128.size a) (iW3 : ∀ a, oW3 a + S1x1x16.size a ≤ S2x128x128.size a)
    (iC0 : ∀ a, oC0 a + S1x1x16.size a ≤ S2x128x64.size a) (iC1 : ∀ a, oC1 a + S1x1x16.size a ≤ S2x128x64.size a)
    (iC2 : ∀ a, oC2 a + S1x1x16.size a ≤ S2x128x64.size a) (iC3 : ∀ a, oC3 a + S1x1x16.size a ≤ S2x128x64.size a)
    (gw : Buf (Elt F) (rwLoc d L)) (hgw : ∀ j : S2x128x128.Idx, (j 0).val = b.val → gw j = cleanW m d L Tb c j)
    (f : Buf (Elt F) (rcLoc d L)) (hf : ∀ j : S2x128x64.Idx, (j 0).val = b.val → (j 1).val < k → f j = cleanC m d L Tb c j) :
    ∀ j : S2x128x64.Idx, (j 0).val = b.val → (j 1).val < k + 1 →
      (View.write (Elt F) ((rcV).access (Rect.unit (s := S2x128x64) oC3 S1x1x16.size iC3))
        (View.write (Elt F) ((rcV).access (Rect.unit (s := S2x128x64) oC2 S1x1x16.size iC2))
          (View.write (Elt F) ((rcV).access (Rect.unit (s := S2x128x64) oC1 S1x1x16.size iC1))
            (View.write (Elt F) ((rcV).access (Rect.unit (s := S2x128x64) oC0 S1x1x16.size iC0)) f
              (lanes' (View.readAt (Elt F) (rwV).view (Rect.unit (s := S2x128x128) oW0 S1x1x16.size iW0).toLoadRect gw)) Finset.univ)
            (lanes' (View.readAt (Elt F) (rwV).view (Rect.unit (s := S2x128x128) oW1 S1x1x16.size iW1).toLoadRect gw)) Finset.univ)
          (lanes' (View.readAt (Elt F) (rwV).view (Rect.unit (s := S2x128x128) oW2 S1x1x16.size iW2).toLoadRect gw)) Finset.univ)
        (lanes' (View.readAt (Elt F) (rwV).view (Rect.unit (s := S2x128x128) oW3 S1x1x16.size iW3).toLoadRect gw)) Finset.univ) j
      = cleanC m d L Tb c j := by
  intro j hj0 hj1
  rw [store16_apply d L b.val k 48 oW3 oC3 hW3 hC3 iW3 iC3, store16_apply d L b.val k 32 oW2 oC2 hW2 hC2 iW2 iC2,
    store16_apply d L b.val k 16 oW1 oC1 hW1 hC1 iW1 iC1, store16_apply d L b.val k 0 oW0 oC0 hW0 hC0 iW0 iC0]
  have key : gw (up j) = cleanC m d L Tb c j := (hgw (up j) hj0).trans (cleanW_up m d L Tb c j)
  have h2 : (j 2).val < 64 := (idx3_lt j).2.2
  by_cases hlt : (j 1).val < k
  · rw [if_neg (by omega), if_neg (by omega), if_neg (by omega), if_neg (by omega)]
    exact hf j hj0 hlt
  · split_ifs with h48 h32 h16 h00
    · exact key
    · exact key
    · exact key
    · exact key
    · exfalso; omega

end Step

end Cert.Proof.KernelIdeal

end
-- ==== Proof.BodyEmb.lean ====
/-
  Where the task's memrefs put their indices. A slot of a scratch buffer, a subcore's 512 index words and a chunk of
  the result are each a unit-stride rectangle of a whole array with its unit axes squeezed away; the squeeze keeps the
  row-major order, so index (y₀, y₁) of a squeezed [1, s₁, s₂] block is the block's index (0, y₀, y₁), which the
  rectangle places at its offsets plus those coordinates.
-/
import proofs.«206562_g3805341024366_cont_8to1_b_1019_21_alg».proof.Proof.BodySets
import Idealize.ShloMosaic.Lib.Pipeline.Value

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The squeeze of a leading unit axis, index by index -/

/-- Index (y₀, y₁) of a [s₁, s₂] array has the row-major position of index (0, y₀, y₁) of a [1, s₁, s₂] array. -/
theorem reshapeEquiv_squeeze3 {s1 s2 : ℕ} (h : (⟨2, ![s1, s2]⟩ : Shape).numel = (⟨3, ![1, s1, s2]⟩ : Shape).numel)
    (y : (⟨2, ![s1, s2]⟩ : Shape).Idx) :
    Shape.reshapeEquiv h y = ix3 (n0 := 1) (n1 := s1) (n2 := s2) ⟨0, Nat.one_pos⟩ (y 0) (y 1) := by
  refine Shape.reshapeEquiv_eq_of_rowMajor h ?_
  rw [Shape.rowMajor_val_three, Shape.rowMajor_val_two]
  show (0 * s1 + (y 0).val) * s2 + (y 1).val = (y 0).val * s2 + (y 1).val
  rw [Nat.zero_mul, Nat.zero_add]

/-- Index (y₀) of a [n] array has the row-major position of index (0, y₀) of a [1, n] array. -/
theorem reshapeEquiv_squeeze2 {n : ℕ} (h : (⟨1, ![n]⟩ : Shape).numel = (⟨2, ![1, n]⟩ : Shape).numel)
    (y : (⟨1, ![n]⟩ : Shape).Idx) :
    Shape.reshapeEquiv h y = ix2 (n0 := 1) (n1 := n) ⟨0, Nat.one_pos⟩ (y 0) := by
  refine Shape.reshapeEquiv_eq_of_rowMajor h ?_
  rw [Shape.rowMajor_val_two, Shape.rowMajor_val_one]
  show 0 * n + (y 0).val = (y 0).val
  rw [Nat.zero_mul, Nat.zero_add]

/-! ## The slots -/

theorem W0_emb (y : S128x128.Idx) :
    ((W0).view.emb y : S2x128x128.Idx) = ix3 (n0 := 2) (n1 := 128) (n2 := 128) ⟨0, by decide⟩ (y 0) (y 1) := by
  show (Rect.unit (s := S2x128x128) ![0, 0, 0] S1x128x128.size inb_S2x128x128_S1x128x128_0_0_0).emb (Shape.reshapeEquiv _ y) = _
  rw [reshapeEquiv_squeeze3]
  funext a; apply Fin.ext
  match a with
  | ⟨0, _⟩ => rfl
  | ⟨1, _⟩ => show 0 + 1 * (y 0).val = (y 0).val; omega
  | ⟨2, _⟩ => show 0 + 1 * (y 1).val = (y 1).val; omega

theorem W1_emb (y : S128x128.Idx) :
    ((W1).view.emb y : S2x128x128.Idx) = ix3 (n0 := 2) (n1 := 128) (n2 := 128) ⟨1, by decide⟩ (y 0) (y 1) := by
  show (Rect.unit (s := S2x128x128) ![1, 0, 0] S1x128x128.size inb_S2x128x128_S1x128x128_1_0_0).emb (Shape.reshapeEquiv _ y) = _
  rw [reshapeEquiv_squeeze3]
  funext a; apply Fin.ext
  match a with
  | ⟨0, _⟩ => rfl
  | ⟨1, _⟩ => show 0 + 1 * (y 0).val = (y 0).val; omega
  | ⟨2, _⟩ => show 0 + 1 * (y 1).val = (y 1).val; omega

theorem C0_emb (y : S128x64.Idx) :
    ((C0).view.emb y : S2x128x64.Idx) = ix3 (n0 := 2) (n1 := 128) (n2 := 64) ⟨0, by decide⟩ (y 0) (y 1) := by
  show (Rect.unit (s := S2x128x64) ![0, 0, 0] S1x128x64.size inb_S2x128x64_S1x128x64_0_0_0).emb (Shape.reshapeEquiv _ y) = _
  rw [reshapeEquiv_squeeze3]
  funext a; apply Fin.ext
  match a with
  | ⟨0, _⟩ => rfl
  | ⟨1, _⟩ => show 0 + 1 * (y 0).val = (y 0).val; omega
  | ⟨2, _⟩ => show 0 + 1 * (y 1).val = (y 1).val; omega

theorem C1_emb (y : S128x64.Idx) :
    ((C1).view.emb y : S2x128x64.Idx) = ix3 (n0 := 2) (n1 := 128) (n2 := 64) ⟨1, by decide⟩ (y 0) (y 1) := by
  show (Rect.unit (s := S2x128x64) ![1, 0, 0] S1x128x64.size inb_S2x128x64_S1x128x64_1_0_0).emb (Shape.reshapeEquiv _ y) = _
  rw [reshapeEquiv_squeeze3]
  funext a; apply Fin.ext
  match a with
  | ⟨0, _⟩ => rfl
  | ⟨1, _⟩ => show 0 + 1 * (y 0).val = (y 0).val; omega
  | ⟨2, _⟩ => show 0 + 1 * (y 1).val = (y 1).val; omega

/-! ## The subcore's index words and its chunks of the result -/

section Arrays
variable (L : grid0.Coords)

/-- Word y of the subcore's 512 is word 512 c + y of row s of the index array. -/
theorem iRowK_emb_val (y : S512.Idx) :
    (((iRowK L).view.emb y : S16x1024.Idx) 0).val = (L 1).val
      ∧ (((iRowK L).view.emb y : S16x1024.Idx) 1).val = 512 * (L 0).val + (y 0).val := by
  have e : (iRowK L).view.emb y
      = (Rect.unit (s := S16x1024) (k0_off1 L) S1x512.size (k0_off1_inb L)).emb (Shape.reshapeEquiv squeezes_S1x512_S512.numel_eq y) := rfl
  rw [e, reshapeEquiv_squeeze2]
  have ho := k0_off1_eq L
  constructor
  · show k0_off1 L 0 + 1 * 0 = _
    rw [ho]; rfl
  · show k0_off1 L 1 + 1 * (y 0).val = _
    rw [ho]; show 512 * (L 0).val + 1 * (y 0).val = _; omega

/-- Element (y₀, y₁) of chunk r of the result is element (s, 512 c + 128 r + y₀, y₁) of the result. -/
theorem oC_emb_val (r : Fin 4) (w : BitVec 32) (hw : w = BitVec.ofNat 32 (128 * r.val)) (h) (y : S128x64.Idx) :
    (((oC L w h).view.emb y : S16x1024x64.Idx) 0).val = (L 1).val
      ∧ (((oC L w h).view.emb y : S16x1024x64.Idx) 1).val = 512 * (L 0).val + 128 * r.val + (y 0).val
      ∧ (((oC L w h).view.emb y : S16x1024x64.Idx) 2).val = (y 1).val := by
  subst hw
  have e : (oC L (BitVec.ofNat 32 (128 * r.val)) h).view.emb y
      = (Rect.unit (s := S16x1024x64) (k0_off10 L (BitVec.ofNat 32 (128 * r.val))) S1x128x64.size h).emb
          (Shape.reshapeEquiv squeezes_S1x128x64_S128x64.numel_eq y) := rfl
  rw [e, reshapeEquiv_squeeze3]
  have ho := k0_off10_eq L r
  refine ⟨?_, ?_, ?_⟩
  · show k0_off10 L (BitVec.ofNat 32 (128 * r.val)) 0 + 1 * 0 = _
    rw [ho]; rfl
  · show k0_off10 L (BitVec.ofNat 32 (128 * r.val)) 1 + 1 * (y 0).val = _
    rw [ho]; show 512 * (L 0).val + 128 * r.val + 1 * (y 0).val = _; omega
  · show k0_off10 L (BitVec.ofNat 32 (128 * r.val)) 2 + 1 * (y 1).val = _
    rw [ho]; show 0 + 1 * (y 1).val = _; omega

end Arrays

end Cert.Proof.KernelIdeal

end
-- ==== Proof.BodyOut.lean ====
/-
  A compacted chunk copied out. Chunk c of the subcore's part of the result is rows [512 c' + 128 c, 512 c' + 128 c + 128)
  of plane s; written whole with what a slot of the compact scratch holds, its element (s, 512 c' + 128 c + i, l) takes
  the slot's element (b, i, l), which is the table's entry (idx[s, 512 c' + 128 c + i], l) when the slot holds chunk c's
  compacted rows: the lookup read off the padded table.
-/
import proofs.«206562_g3805341024366_cont_8to1_b_1019_21_alg».proof.Proof.BodyEmb

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Out
variable (m : (ℓ : Loc nD τ sig) → Buf (Elt F) ℓ) (d : Dev nD) (L : grid0.Coords) (Tb : Buf (Elt F) (tLoc d))

theorem out_C0' (c : Fin 4) (w : BitVec 32) (hw : w = BitVec.ofNat 32 (128 * c.val)) (h) (f0 : Buf (Elt F) (oLoc d))
    (fc : Buf (Elt F) (rcLoc d L)) (hfc : ∀ j : S2x128x64.Idx, (j 0).val = 0 → fc j = cleanC m d L Tb c j) :
    ∀ j ∈ (oC L w h).view.set,
      ((oC L w h).view.writes (Elt F) f0 [⟨Rect.whole S128x64, ReadAs.same.apply ((C0).view.read (Elt F) fc)⟩]) j
        = lookT (m (iLoc d)) Tb j := by
  intro j hj
  subst hw
  have hset : (oC L (BitVec.ofNat 32 (128 * c.val)) h).view.set
      = (Rect.unit (s := S16x1024x64) (k0_off10 L (BitVec.ofNat 32 (128 * c.val))) S1x128x64.size h).set :=
    (View.set_reshape _ _).trans (View.set_slice_whole _ _)
  rw [hset, mem_unit3, k0_off10_eq L c] at hj
  obtain ⟨⟨a0, a1⟩, ⟨b0, b1⟩, -⟩ := hj
  have a0' : (L 1).val ≤ (j 0).val := a0
  have a1' : (j 0).val < (L 1).val + 1 := a1
  have b0' : 512 * (L 0).val + 128 * c.val ≤ (j 1).val := b0
  have b1' : (j 1).val < 512 * (L 0).val + 128 * c.val + 128 := b1
  let x : S128x64.Idx := ix2 (n0 := 128) (n1 := 64) ⟨(j 1).val - (512 * (L 0).val + 128 * c.val), by omega⟩ (j 2)
  obtain ⟨e0, e1, e2⟩ := oC_emb_val L c _ rfl h x
  have hjx : j = ((oC L (BitVec.ofNat 32 (128 * c.val)) h).view.slice (Rect.whole S128x64)).emb x := by
    show j = (oC L (BitVec.ofNat 32 (128 * c.val)) h).view.emb ((Rect.whole S128x64).emb x)
    rw [Rect.emb_whole_apply]
    funext a; apply Fin.ext
    match a with
    | ⟨0, _⟩ => exact (by omega : (j 0).val = (L 1).val).trans e0.symm
    | ⟨1, _⟩ =>
      refine Eq.trans ?_ e1.symm
      show (j 1).val = 512 * (L 0).val + 128 * c.val + ((j 1).val - (512 * (L 0).val + 128 * c.val))
      omega
    | ⟨2, _⟩ => exact e2.symm
  rw [View.writes_singleton]
  refine (congrArg (View.write (Elt F) ((oC L (BitVec.ofNat 32 (128 * c.val)) h).view.slice (Rect.whole S128x64)) f0 _ Finset.univ) hjx).trans
    ((View.write_emb_of_mem (v := (oC L (BitVec.ofNat 32 (128 * c.val)) h).view.slice (Rect.whole S128x64)) (Val := Elt F) f0 _
      (Finset.mem_univ x)).trans ?_)
  show fc ((C0).view.emb x) = lookT (m (iLoc d)) Tb j
  rw [C0_emb, hfc _ rfl]
  have hword : wordAt m d L c (x 0) = m (iLoc d) (ix2 (j 0) (j 1)) := by
    unfold wordAt
    refine congrArg (m (iLoc d)) (funext fun a => Fin.ext ?_)
    match a with
    | ⟨0, _⟩ => show (L 1).val = (j 0).val; omega
    | ⟨1, _⟩ =>
      show 512 * (L 0).val + 128 * c.val + ((j 1).val - (512 * (L 0).val + 128 * c.val)) = (j 1).val
      omega
  show Tb (ix2 (Cert.Spec.rowOf (wordAt m d L c (x 0))) ((j 2).castLE _)) = Tb (ix2 (Cert.Spec.rowOf (m (iLoc d) (ix2 (j 0) (j 1)))) ((j 2).castLE _))
  rw [hword]

theorem out_C1' (c : Fin 4) (w : BitVec 32) (hw : w = BitVec.ofNat 32 (128 * c.val)) (h) (f0 : Buf (Elt F) (oLoc d))
    (fc : Buf (Elt F) (rcLoc d L)) (hfc : ∀ j : S2x128x64.Idx, (j 0).val = 1 → fc j = cleanC m d L Tb c j) :
    ∀ j ∈ (oC L w h).view.set,
      ((oC L w h).view.writes (Elt F) f0 [⟨Rect.whole S128x64, ReadAs.same.apply ((C1).view.read (Elt F) fc)⟩]) j
        = lookT (m (iLoc d)) Tb j := by
  intro j hj
  subst hw
  have hset : (oC L (BitVec.ofNat 32 (128 * c.val)) h).view.set
      = (Rect.unit (s := S16x1024x64) (k0_off10 L (BitVec.ofNat 32 (128 * c.val))) S1x128x64.size h).set :=
    (View.set_reshape _ _).trans (View.set_slice_whole _ _)
  rw [hset, mem_unit3, k0_off10_eq L c] at hj
  obtain ⟨⟨a0, a1⟩, ⟨b0, b1⟩, -⟩ := hj
  have a0' : (L 1).val ≤ (j 0).val := a0
  have a1' : (j 0).val < (L 1).val + 1 := a1
  have b0' : 512 * (L 0).val + 128 * c.val ≤ (j 1).val := b0
  have b1' : (j 1).val < 512 * (L 0).val + 128 * c.val + 128 := b1
  let x : S128x64.Idx := ix2 (n0 := 128) (n1 := 64) ⟨(j 1).val - (512 * (L 0).val + 128 * c.val), by omega⟩ (j 2)
  obtain ⟨e0, e1, e2⟩ := oC_emb_val L c _ rfl h x
  have hjx : j = ((oC L (BitVec.ofNat 32 (128 * c.val)) h).view.slice (Rect.whole S128x64)).emb x := by
    show j = (oC L (BitVec.ofNat 32 (128 * c.val)) h).view.emb ((Rect.whole S128x64).emb x)
    rw [Rect.emb_whole_apply]
    funext a; apply Fin.ext
    match a with
    | ⟨0, _⟩ => exact (by omega : (j 0).val = (L 1).val).trans e0.symm
    | ⟨1, _⟩ =>
      refine Eq.trans ?_ e1.symm
      show (j 1).val = 512 * (L 0).val + 128 * c.val + ((j 1).val - (512 * (L 0).val + 128 * c.val))
      omega
    | ⟨2, _⟩ => exact e2.symm
  rw [View.writes_singleton]
  refine (congrArg (View.write (Elt F) ((oC L (BitVec.ofNat 32 (128 * c.val)) h).view.slice (Rect.whole S128x64)) f0 _ Finset.univ) hjx).trans
    ((View.write_emb_of_mem (v := (oC L (BitVec.ofNat 32 (128 * c.val)) h).view.slice (Rect.whole S128x64)) (Val := Elt F) f0 _
      (Finset.mem_univ x)).trans ?_)
  show fc ((C1).view.emb x) = lookT (m (iLoc d)) Tb j
  rw [C1_emb, hfc _ rfl]
  have hword : wordAt m d L c (x 0) = m (iLoc d) (ix2 (j 0) (j 1)) := by
    unfold wordAt
    refine congrArg (m (iLoc d)) (funext fun a => Fin.ext ?_)
    match a with
    | ⟨0, _⟩ => show (L 1).val = (j 0).val; omega
    | ⟨1, _⟩ =>
      show 512 * (L 0).val + 128 * c.val + ((j 1).val - (512 * (L 0).val + 128 * c.val)) = (j 1).val
      omega
  show Tb (ix2 (Cert.Spec.rowOf (wordAt m d L c (x 0))) ((j 2).castLE _)) = Tb (ix2 (Cert.Spec.rowOf (m (iLoc d) (ix2 (j 0) (j 1)))) ((j 2).castLE _))
  rw [hword]

end Out

end Cert.Proof.KernelIdeal

end
-- ==== Proof.BodyLand.lean ====
/-
  A chunk's gather landed. The gather of chunk c reads, for row i of the destination, the i-th word of the offset list
  — the subcore's 128 index words at offset 128 c of its 512, which are the index array's words (s, 512 c' + 128 c + i) —
  and delivers the table row that word names, all 128 columns. Written whole through a slot of the row scratch, it
  leaves at element (b, i, l) of the slot the table's entry (idx[s, 512 c' + 128 c + i], l): chunk c's rows.
-/
import proofs.«206562_g3805341024366_cont_8to1_b_1019_21_alg».proof.Proof.BodyEmb

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Land
variable (m : (ℓ : Loc nD τ sig) → Buf (Elt F) ℓ) (d : Dev nD) (L : grid0.Coords) (Tb : Buf (Elt F) (tLoc d))

/-- Entry k of a one-axis array's row-major order is its index k. -/
theorem rowMajor_symm_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- The offset list of chunk c: word y is the index word at position y of chunk c. -/
theorem list_apply (c : Fin 4) (fs : Buf (Elt F) (sLoc d L)) (off : Fin 1 → ℕ) (h : ∀ a, off a + S128.size a ≤ S512.size a)
    (hoff : off 0 = 128 * c.val) (y : S128.Idx) :
    (((sV).slice (Rect.unit (s := S512) off S128.size h) (fun _ => rfl)).view.read (Elt F)
        (View.write (Elt F) (sV).view fs (ReadAs.same.apply ((iRowK L).view.read (Elt F) (m (iLoc d)))) Finset.univ)) y
      = wordAt m d L c (y 0) := by
  have e : View.write (Elt F) (sV).view fs (ReadAs.same.apply ((iRowK L).view.read (Elt F) (m (iLoc d)))) Finset.univ
      = ReadAs.same.apply ((iRowK L).view.read (Elt F) (m (iLoc d))) := View.write_whole_univ _ _ _
  rw [e]
  show m (iLoc d) ((iRowK L).view.emb ((Rect.unit (s := S512) off S128.size h).emb y)) = _
  unfold wordAt
  refine congrArg (m (iLoc d)) (funext fun a => Fin.ext ?_)
  obtain ⟨e0, e1⟩ := iRowK_emb_val L ((Rect.unit (s := S512) off S128.size h).emb y)
  match a with
  | ⟨0, _⟩ => exact e0
  | ⟨1, _⟩ =>
    refine e1.trans ?_
    show 512 * (L 0).val + (off 0 + 1 * (y 0).val) = 512 * (L 0).val + 128 * c.val + (y 0).val
    omega

/-- The rows gathered for chunk c, as the transfer delivers them. -/
abbrev gatherPay' (fs : Buf (Elt F) (sLoc d L)) (off : Fin 1 → ℕ) (h : ∀ a, off a + S128.size a ≤ S512.size a)
    (hn : S128.numel = S128x128.size gathers_S8192x128_S128x128.axis')
    (hin : ∀ x, (((sV).slice (Rect.unit (s := S512) off S128.size h) (fun _ => rfl)).view.read (Elt F)
        (View.write (Elt F) (sV).view fs (ReadAs.same.apply ((iRowK L).view.read (Elt F) (m (iLoc d)))) Finset.univ) x).toNat
          < S8192x128.size gathers_S8192x128_S128x128.axis) : S128x128.Idx → Elt F .f32 :=
  SparseCore.gatherPayload gathers_S8192x128_S128x128
    (((tV).slice (Rect.unit (s := S8192x128) ![0, 0] S8192x128.size inb_S8192x128_S8192x128_0_0) (fun _ => rfl)).view.read (Elt F) Tb)
    (SparseCore.rows (((sV).slice (Rect.unit (s := S512) off S128.size h) (fun _ => rfl)).view.read (Elt F)
        (View.write (Elt F) (sV).view fs (ReadAs.same.apply ((iRowK L).view.read (Elt F) (m (iLoc d)))) Finset.univ)) hn hin)

/-- The table read through its whole rectangle is the table. -/
theorem table_read :
    ((tV).slice (Rect.unit (s := S8192x128) ![0, 0] S8192x128.size inb_S8192x128_S8192x128_0_0) (fun _ => rfl)).view.read (Elt F) Tb = Tb :=
  Memref.read_access_unit_zero (Elt F) main_v0_scv (funext fun a => by match a with | ⟨0, _⟩ => rfl | ⟨1, _⟩ => rfl) _ Tb

/-- THE GATHER'S PAYLOAD at (i, l): entry l of the table row the i-th index word of chunk c names. -/
theorem pay_apply (c : Fin 4) (fs : Buf (Elt F) (sLoc d L)) (off : Fin 1 → ℕ) (h : ∀ a, off a + S128.size a ≤ S512.size a)
    (hoff : off 0 = 128 * c.val) (hn) (hin) (x : S128x128.Idx) :
    gatherPay' m d L Tb fs off h hn hin x = Tb (ix2 (Cert.Spec.rowOf (wordAt m d L c (x 0))) (x 1)) := by
  unfold gatherPay' SparseCore.gatherPayload
  rw [table_read]
  -- the word of row i is below the table's height
  have hlt : (wordAt m d L c (x 0)).toNat < 8192 := by
    have h1 := hin (ix1 (n := 128) (x 0))
    rw [list_apply m d L c fs off h hoff] at h1
    exact h1
  refine congrArg Tb (funext fun a => Fin.ext ?_)
  match a with
  | ⟨0, _⟩ =>
    show (gathers_S8192x128_S128x128.idx _ x gathers_S8192x128_S128x128.axis).val = _
    rw [Shape.Gathers.idx_axis]
    show ((((sV).slice (Rect.unit (s := S512) off S128.size h) (fun _ => rfl)).view.read (Elt F)
        (View.write (Elt F) (sV).view fs (ReadAs.same.apply ((iRowK L).view.read (Elt F) (m (iLoc d)))) Finset.univ))
          (S128.rowMajor.symm ((x gathers_S8192x128_S128x128.axis').cast hn.symm))).toNat = (Cert.Spec.rowOf (wordAt m d L c (x 0))).val
    rw [list_apply m d L c fs off h hoff, Cert.Spec.rowOf_val_of_lt _ hlt]
    refine congrArg (fun i => (wordAt m d L c i).toNat) (Fin.ext ?_)
    exact rowMajor_symm_one (n := 128) _
  | ⟨1, _⟩ =>
    exact Shape.Gathers.idx_of_ne gathers_S8192x128_S128x128 _ x ⟨1, by decide⟩ (by decide)

/-- Chunk c's gather landed in slot 0: every element of the slot holds its entry of chunk c's rows. -/
theorem land_W0' (c : Fin 4) (fs : Buf (Elt F) (sLoc d L)) (off : Fin 1 → ℕ) (h : ∀ a, off a + S128.size a ≤ S512.size a)
    (hoff : off 0 = 128 * c.val) (hn) (hin) (base : Buf (Elt F) ((W0).view.loc (thrV d L))) :
    ∀ j ∈ (W0).view.set,
      ((W0).view.writes (Elt F) base [⟨Rect.whole S128x128, gatherPay' m d L Tb fs off h hn hin⟩]) j = cleanW m d L Tb c j := by
  intro j hj
  have hj0 := (mem_W0' j).mp hj
  let x : S128x128.Idx := ix2 (n0 := 128) (n1 := 128) (j 1) (j 2)
  have hjx : j = ((W0).view.slice (Rect.whole S128x128)).emb x := by
    show j = (W0).view.emb ((Rect.whole S128x128).emb x)
    rw [Rect.emb_whole_apply, W0_emb]
    funext a; apply Fin.ext
    match a with
    | ⟨0, _⟩ => exact hj0
    | ⟨1, _⟩ => rfl
    | ⟨2, _⟩ => rfl
  rw [View.writes_singleton]
  refine (congrArg (View.write (Elt F) ((W0).view.slice (Rect.whole S128x128)) base _ Finset.univ) hjx).trans
    ((View.write_emb_of_mem (v := (W0).view.slice (Rect.whole S128x128)) (Val := Elt F) base _ (Finset.mem_univ x)).trans ?_)
  show gatherPay' m d L Tb fs off h hn hin x = cleanW m d L Tb c j
  exact pay_apply m d L Tb c fs off h hoff hn hin x

/-- The same for slot 1. -/
theorem land_W1' (c : Fin 4) (fs : Buf (Elt F) (sLoc d L)) (off : Fin 1 → ℕ) (h : ∀ a, off a + S128.size a ≤ S512.size a)
    (hoff : off 0 = 128 * c.val) (hn) (hin) (base : Buf (Elt F) ((W1).view.loc (thrV d L))) :
    ∀ j ∈ (W1).view.set,
      ((W1).view.writes (Elt F) base [⟨Rect.whole S128x128, gatherPay' m d L Tb fs off h hn hin⟩]) j = cleanW m d L Tb c j := by
  intro j hj
  have hj0 := (mem_W1' j).mp hj
  let x : S128x128.Idx := ix2 (n0 := 128) (n1 := 128) (j 1) (j 2)
  have hjx : j = ((W1).view.slice (Rect.whole S128x128)).emb x := by
    show j = (W1).view.emb ((Rect.whole S128x128).emb x)
    rw [Rect.emb_whole_apply, W1_emb]
    funext a; apply Fin.ext
    match a with
    | ⟨0, _⟩ => exact hj0
    | ⟨1, _⟩ => rfl
    | ⟨2, _⟩ => rfl
  rw [View.writes_singleton]
  refine (congrArg (View.write (Elt F) ((W1).view.slice (Rect.whole S128x128)) base _ Finset.univ) hjx).trans
    ((View.write_emb_of_mem (v := (W1).view.slice (Rect.whole S128x128)) (Val := Elt F) base _ (Finset.mem_univ x)).trans ?_)
  show gatherPay' m d L Tb fs off h hn hin x = cleanW m d L Tb c j
  exact pay_apply m d L Tb c fs off h hoff hn hin x

end Land

end Cert.Proof.KernelIdeal

end
-- ==== Proof.BodyLemmas.lean ====
/-
  The value facts the task's run cites, gathered under the names it uses: the two slots of each scratch are complementary
  planes; a landed gather leaves its slot holding the chunk's rows; one trip of a compaction loop extends the compacted
  rows by one; a compact slot copied out is the lookup on its 128 rows of the result.
-/
import proofs.«206562_g3805341024366_cont_8to1_b_1019_21_alg».proof.Proof.BodyStep
import proofs.«206562_g3805341024366_cont_8to1_b_1019_21_alg».proof.Proof.BodyOut
import proofs.«206562_g3805341024366_cont_8to1_b_1019_21_alg».proof.Proof.BodyLand

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The slots split each scratch in two -/

theorem slotW_compl : (Finset.univ \ (W0).view.set) = (W1).view.set := slotW_compl'

theorem slotC_compl : (Finset.univ \ (C0).view.set) = (C1).view.set := slotC_compl'

section Vals
variable (m : (ℓ : Loc nD τ sig) → Buf (Elt F) ℓ) (d : Dev nD) (L : grid0.Coords) (Tb : Buf (Elt F) (tLoc d))

/-- The rows gathered for chunk `c`, as the transfer delivers them. -/
abbrev gatherPay (fs : Buf (Elt F) (sLoc d L)) (off : Fin 1 → ℕ) (h : ∀ a, off a + S128.size a ≤ S512.size a)
    (hn : S128.numel = S128x128.size gathers_S8192x128_S128x128.axis')
    (hin : ∀ x, (((sV).slice (Rect.unit (s := S512) off S128.size h) (fun _ => rfl)).view.read (Elt F)
        (View.write (Elt F) (sV).view fs (ReadAs.same.apply ((iRowK L).view.read (Elt F) (m (iLoc d)))) Finset.univ) x).toNat
          < S8192x128.size gathers_S8192x128_S128x128.axis) : S128x128.Idx → Elt F .f32 :=
  SparseCore.gatherPayload gathers_S8192x128_S128x128
    (((tV).slice (Rect.unit (s := S8192x128) ![0, 0] S8192x128.size inb_S8192x128_S8192x128_0_0) (fun _ => rfl)).view.read (Elt F) Tb)
    (SparseCore.rows (((sV).slice (Rect.unit (s := S512) off S128.size h) (fun _ => rfl)).view.read (Elt F)
        (View.write (Elt F) (sV).view fs (ReadAs.same.apply ((iRowK L).view.read (Elt F) (m (iLoc d)))) Finset.univ)) hn hin)

/-- Chunk `c`'s gather landed in slot 0: every element of the slot holds its entry of `cleanW c`. -/
theorem land_W0 (c : Fin 4) (fs : Buf (Elt F) (sLoc d L)) (off : Fin 1 → ℕ) (h : ∀ a, off a + S128.size a ≤ S512.size a)
    (hoff : off 0 = 128 * c.val) (hn) (hin) (base : Buf (Elt F) ((W0).view.loc (thrV d L))) :
    ∀ j ∈ (W0).view.set,
      ((W0).view.writes (Elt F) base [⟨Rect.whole S128x128, gatherPay m d L Tb fs off h hn hin⟩]) j = cleanW m d L Tb c j :=
  land_W0' m d L Tb c fs off h hoff hn hin base

/-- The same for slot 1. -/
theorem land_W1 (c : Fin 4) (fs : Buf (Elt F) (sLoc d L)) (off : Fin 1 → ℕ) (h : ∀ a, off a + S128.size a ≤ S512.size a)
    (hoff : off 0 = 128 * c.val) (hn) (hin) (base : Buf (Elt F) ((W1).view.loc (thrV d L))) :
    ∀ j ∈ (W1).view.set,
      ((W1).view.writes (Elt F) base [⟨Rect.whole S128x128, gatherPay m d L Tb fs off h hn hin⟩]) j = cleanW m d L Tb c j :=
  land_W1' m d L Tb c fs off h hoff hn hin base

/-- What a trip's store carries: the sixteen lanes it loaded, through two casts of shape that undo each other. -/
abbrev lanes (x : Vec F S1x1x16 .f32) : FVec F S1x1x16 .f32 :=
  shapeCast S1x1x16 (shapeCast S16 x shapeCasts_S1x1x16_S16) shapeCasts_S16_S1x1x16

/-- One trip of a compaction loop on slot `b` (0 or 1), at row `k`: four loads of sixteen lanes from the row scratch
    and four stores into the compact scratch. If the row scratch's slot holds chunk `c`'s rows and the compact
    scratch's slot holds chunk `c`'s compacted rows below row `k`, then after the trip it holds them below row `k + 1`. -/
theorem step_slot (b : Fin 2) (c : Fin 4) (k : ℕ) (hk : k < 128)
    (oW0 oW1 oW2 oW3 oC0 oC1 oC2 oC3 : Fin 3 → ℕ)
    (hW0 : oW0 = ![b.val, k, 0]) (hW1 : oW1 = ![b.val, k, 16]) (hW2 : oW2 = ![b.val, k, 32]) (hW3 : oW3 = ![b.val, k, 48])
    (hC0 : oC0 = ![b.val, k, 0]) (hC1 : oC1 = ![b.val, k, 16]) (hC2 : oC2 = ![b.val, k, 32]) (hC3 : oC3 = ![b.val, k, 48])
    (iW0 : ∀ a, oW0 a + S1x1x16.size a ≤ S2x128x128.size a) (iW1 : ∀ a, oW1 a + S1x1x16.size a ≤ S2x128x128.size a)
    (iW2 : ∀ a, oW2 a + S1x1x16.size a ≤ S2x128x128.size a) (iW3 : ∀ a, oW3 a + S1x1x16.size a ≤ S2x128x128.size a)
    (iC0 : ∀ a, oC0 a + S1x1x16.size a ≤ S2x128x64.size a) (iC1 : ∀ a, oC1 a + S1x1x16.size a ≤ S2x128x64.size a)
    (iC2 : ∀ a, oC2 a + S1x1x16.size a ≤ S2x128x64.size a) (iC3 : ∀ a, oC3 a + S1x1x16.size a ≤ S2x128x64.size a)
    (gw : Buf (Elt F) (rwLoc d L)) (hgw : ∀ j : S2x128x128.Idx, (j 0).val = b.val → gw j = cleanW m d L Tb c j)
    (f : Buf (Elt F) (rcLoc d L)) (hf : ∀ j : S2x128x64.Idx, (j 0).val = b.val → (j 1).val < k → f j = cleanC m d L Tb c j) :
    ∀ j : S2x128x64.Idx, (j 0).val = b.val → (j 1).val < k + 1 →
      (View.write (Elt F) ((rcV).access (Rect.unit (s := S2x128x64) oC3 S1x1x16.size iC3))
        (View.write (Elt F) ((rcV).access (Rect.unit (s := S2x128x64) oC2 S1x1x16.size iC2))
          (View.write (Elt F) ((rcV).access (Rect.unit (s := S2x128x64) oC1 S1x1x16.size iC1))
            (View.write (Elt F) ((rcV).access (Rect.unit (s := S2x128x64) oC0 S1x1x16.size iC0)) f
              (lanes (View.readAt (Elt F) (rwV).view (Rect.unit (s := S2x128x128) oW0 S1x1x16.size iW0).toLoadRect gw)) Finset.univ)
            (lanes (View.readAt (Elt F) (rwV).view (Rect.unit (s := S2x128x128) oW1 S1x1x16.size iW1).toLoadRect gw)) Finset.univ)
          (lanes (View.readAt (Elt F) (rwV).view (Rect.unit (s := S2x128x128) oW2 S1x1x16.size iW2).toLoadRect gw)) Finset.univ)
        (lanes (View.readAt (Elt F) (rwV).view (Rect.unit (s := S2x128x128) oW3 S1x1x16.size iW3).toLoadRect gw)) Finset.univ) j
      = cleanC m d L Tb c j :=
  step_slot' m d L Tb b c k hk oW0 oW1 oW2 oW3 oC0 oC1 oC2 oC3 hW0 hW1 hW2 hW3 hC0 hC1 hC2 hC3 iW0 iW1 iW2 iW3 iC0 iC1 iC2 iC3 gw hgw f hf

/-- The elements of a slot are the indices of its plane. -/
theorem mem_W0 (j : S2x128x128.Idx) : j ∈ (W0).view.set ↔ (j 0).val = 0 := mem_W0' j
theorem mem_W1 (j : S2x128x128.Idx) : j ∈ (W1).view.set ↔ (j 0).val = 1 := mem_W1' j
theorem mem_C0 (j : S2x128x64.Idx) : j ∈ (C0).view.set ↔ (j 0).val = 0 := mem_C0' j
theorem mem_C1 (j : S2x128x64.Idx) : j ∈ (C1).view.set ↔ (j 0).val = 1 := mem_C1' j

/-- A compacted chunk copied out: the 128 rows of the result at word offset `w = 128 c` hold the lookup read off the
    padded table, when slot `b` of the compact scratch holds chunk `c`'s compacted rows. -/
theorem out_C0 (c : Fin 4) (w : BitVec 32) (hw : w = BitVec.ofNat 32 (128 * c.val)) (h) (f0 : Buf (Elt F) (oLoc d))
    (fc : Buf (Elt F) (rcLoc d L)) (hfc : ∀ j : S2x128x64.Idx, (j 0).val = 0 → fc j = cleanC m d L Tb c j) :
    ∀ j ∈ (oC L w h).view.set,
      ((oC L w h).view.writes (Elt F) f0 [⟨Rect.whole S128x64, ReadAs.same.apply ((C0).view.read (Elt F) fc)⟩]) j
        = lookT (m (iLoc d)) Tb j :=
  out_C0' m d L Tb c w hw h f0 fc hfc

theorem out_C1 (c : Fin 4) (w : BitVec 32) (hw : w = BitVec.ofNat 32 (128 * c.val)) (h) (f0 : Buf (Elt F) (oLoc d))
    (fc : Buf (Elt F) (rcLoc d L)) (hfc : ∀ j : S2x128x64.Idx, (j 0).val = 1 → fc j = cleanC m d L Tb c j) :
    ∀ j ∈ (oC L w h).view.set,
      ((oC L w h).view.writes (Elt F) f0 [⟨Rect.whole S128x64, ReadAs.same.apply ((C1).view.read (Elt F) fc)⟩]) j
        = lookT (m (iLoc d)) Tb j :=
  out_C1' m d L Tb c w hw h f0 fc hfc

end Vals

end Cert.Proof.KernelIdeal

end
-- ==== Proof.BodyFacts.lean ====
import proofs.«206562_g3805341024366_cont_8to1_b_1019_21_alg».proof.Proof.Own

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The index words a subcore copied to its scratch name table rows -/

/-- Every 128-word stretch of the scratch list, once the subcore's index words have landed in it, holds words below
    8192: the stretch reads the landed words, the landed words are words of the index array, and the precondition
    bounds those. -/
theorem hin_slice (m : (ℓ : Loc nD τ sig) → Buf (Elt F) ℓ) (d : Dev nD) (L : grid0.Coords) (hpre : PreOK m)
    (fs : Buf (Elt F) (sLoc d L)) (pay : S512.Idx → Elt F .i32)
    (hpay : pay = (iRowK L).view.read (Elt F) (m (iLoc d)))
    (off : Fin 1 → ℕ) (h : ∀ a, off a + S128.size a ≤ S512.size a) :
    ∀ x, (((sV).slice (Rect.unit (s := S512) off S128.size h) (fun _ => rfl)).view.read (Elt F)
        (View.write (Elt F) (sV).view fs pay Finset.univ) x).toNat < S8192x128.size gathers_S8192x128_S128x128.axis := by
  subst hpay; intro x
  rw [View.write_whole_univ]
  rw [show ∀ j, ((sV).slice (Rect.unit (s := S512) off S128.size h) (fun _ => rfl)).view.read (Elt F)
        ((iRowK L).view.read (Elt F) (m (iLoc d))) j
      = (iRowK L).view.read (Elt F) (m (iLoc d)) (((sV).slice (Rect.unit (s := S512) off S128.size h) (fun _ => rfl)).view.emb j)
      from fun j => (View.read_apply _ _).trans (cast_eq _ _)]
  rw [show ∀ j, (iRowK L).view.read (Elt F) (m (iLoc d)) j = m (iLoc d) ((iRowK L).view.emb j) from
    fun j => (View.read_apply _ _).trans (cast_eq _ _)]
  exact hpre d _

end Cert.Proof.KernelIdeal

end
-- ==== Proof.Body.lean ====
/-
  One vector subcore's task, run once at a symbolic subcore `(L 0, L 1)`: it copies its 512 index words into its
  scratch list, and for each of four chunks of 128 words gathers the 128 table rows the words name into a slot of the
  row scratch (two slots, the next chunk's gather already under way), copies the first 64 columns of each row into the
  same slot of the compact scratch — a counted loop of 128 trips, four loads and four stores of sixteen lanes a trip —
  and sends that slot to its 128 rows of the result. Every transfer has its own semaphore per slot, and between a
  transfer's start and its wait nothing touches the buffers it moves, so the run is determined; the two gathers in
  flight at once each read the table through a share of their own.

  The values are carried along: once a gather has landed, its slot holds `cleanW c` (row `i` is the table row the
  chunk's `i`-th word names; the precondition makes every word a row); the loop's invariant says the compact slot
  holds `cleanC c` below the current row; and the rows sent out are the lookup read off the table. The arithmetic of
  these three facts is in the lemma modules; here is the run.
-/
import proofs.«206562_g3805341024366_cont_8to1_b_1019_21_alg».proof.Proof.BodyLemmas
import proofs.«206562_g3805341024366_cont_8to1_b_1019_21_alg».proof.Proof.BodyFacts

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

omit [FloatOps F] in
/-- A wait recorded at no index keeps the record admissible. -/
theorem ins_ok {thrW : Finset (SemLoc sig × HIx 1)} {W' : Finset (SemLoc sig × HIx 1)} (s : SemLoc sig)
    (h : ∀ p ∈ W', p ∈ thrW ∨ p.2 = none) : ∀ p ∈ insert (s, (default : HIx 1)) W', p ∈ thrW ∨ p.2 = none := by
  intro p hp
  rcases Finset.mem_insert.mp hp with hp | hp
  · exact .inr (hp ▸ rfl)
  · exact h p hp

omit [FloatOps F] in
/-- Two pieces of a buffer, a set and its complement, each at its own contents, are the buffer at some contents. -/
theorem join_compl {ℓ : Loc nD τ sig} (A : Finset (Idx ℓ)) (f g : Buf (Elt F) ℓ) :
    iprop((ℓ ↦[A]{fullShare} f) ∗ (ℓ ↦[Finset.univ \ A]{fullShare} g)) ⊢ (iprop(∃ h, ℓ ↦{fullShare} h) : sProp 𝕄) := by
  iintro ⟨H1, H2⟩
  iexists (fun j => if j ∈ A then f j else g j)
  iapply (pointsTo_split_subset (ℓ := ℓ) (q := fullShare) (f := fun j => if j ∈ A then f j else g j) (S := Finset.univ) (Finset.subset_univ A)).2
  isplitl [H1]
  · iapply (Entails.of_eq (pointsTo_congr (ℓ := ℓ) (I := A) (q := fullShare) (f := f) (g := fun j => if j ∈ A then f j else g j)
      (fun i hi => (if_pos hi).symm))); iexact H1
  · iapply (Entails.of_eq (pointsTo_congr (ℓ := ℓ) (I := Finset.univ \ A) (q := fullShare) (f := g) (g := fun j => if j ∈ A then f j else g j)
      (fun i hi => (if_neg (Finset.mem_sdiff.mp hi).2).symm))); iexact H2

theorem t1_trips : k0_t1_loop.trips = 128 := by decide
theorem t2_trips : k0_t2_loop.trips = 128 := by decide
theorem t3_trips : k0_t3_loop.trips = 128 := by decide
theorem t4_trips : k0_t4_loop.trips = 128 := by decide

set_option maxHeartbeats 4000000 in
theorem tile_body (hF : (K (F := F)).Facts) (m : (ℓ : Loc nD τ sig) → Buf (Elt F) ℓ) (hpre : PreOK m) : TileBody m := by
  intro d L tq Tb f0 O W hO
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Ht, Ho0, Ho1, Ho2, Ho3⟩, ⟨⟨%fs, Hs⟩, ⟨%fw, Hw'⟩, ⟨%fc, Hc'⟩, Hbufs⟩, ⟨HG0, HG1, HS0, HS1, HI, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hi' := (Entails.of_eq (show ((iRowK L).view.loc (thrV d L) ↦[(iRowK L).view.set]{fullShare} m (iLoc d) : sProp 𝕄) = iLoc d ↦[(iRowK L).view.set]{fullShare} m (iLoc d) from rfl).symm) $$ Hi
  ihave Hs' := (Entails.of_eq (show ((sV).view.loc (thrV d L) ↦{fullShare} fs : sProp 𝕄) = sLoc d L ↦{fullShare} fs from rfl).symm) $$ Hs
  ihave Htt := (pointsTo_share (ℓ := tLoc d) (I := Finset.univ) (f := Tb) (PosShare.mem_left_op_right tq)).1 $$ Ht
  icases Htt with ⟨Htl, Ht0⟩
  ihave Htt := (pointsTo_share (ℓ := tLoc d) (I := Finset.univ) (f := Tb) (PosShare.mem_left_op_right tq.left)).1 $$ Htl
  icases Htt with ⟨Htr, Ht1⟩
  ihave Ht0' := (Entails.of_eq (show ((tV).view.loc (thrV d L) ↦{Transfers.shareTokN tq 0} Tb : sProp 𝕄) = tLoc d ↦{tq.right} Tb from rfl).symm) $$ Ht0
  ihave Ht1' := (Entails.of_eq (show ((tV).view.loc (thrV d L) ↦{Transfers.shareTokN tq 1} Tb : sProp 𝕄) = tLoc d ↦{tq.left.right} Tb from rfl).symm) $$ Ht1
  ihave Hww := (pointsTo_split_subset (ℓ := rwLoc d L) (q := fullShare) (f := fw) (S := Finset.univ) (Finset.subset_univ (W0).view.set)).1 $$ Hw'
  icases Hww with ⟨Hw0, Hw1⟩
  ihave Hcc := (pointsTo_split_subset (ℓ := rcLoc d L) (q := fullShare) (f := fc) (S := Finset.univ) (Finset.subset_univ (C0).view.set)).1 $$ Hc'
  icases Hcc with ⟨Hc0, Hc1⟩
  ihave Hw0' := (Entails.of_eq (show ((W0).view.loc (thrV d L) ↦[(W0).view.set]{fullShare} fw : sProp 𝕄) = rwLoc d L ↦[(W0).view.set]{fullShare} fw from rfl).symm) $$ Hw0
  ihave Hc0' := (Entails.of_eq (show ((C0).view.loc (thrV d L) ↦[(C0).view.set]{fullShare} fc : sProp 𝕄) = rcLoc d L ↦[(C0).view.set]{fullShare} fc from rfl).symm) $$ Hc0
  ihave Hw1' := (Entails.of_eq (show ((W1).view.loc (thrV d L) ↦[(W1).view.set]{fullShare} fw : sProp 𝕄) = rwLoc d L ↦[Finset.univ \ (W0).view.set]{fullShare} fw from by rw [slotW_compl]).symm) $$ Hw1
  ihave Hc1' := (Entails.of_eq (show ((C1).view.loc (thrV d L) ↦[(C1).view.set]{fullShare} fc : sProp 𝕄) = rcLoc d L ↦[Finset.univ \ (C0).view.set]{fullShare} fc from by rw [slotC_compl]).symm) $$ Hc1
  ihave Ho0' := (Entails.of_eq (show ((oC0 L).view.loc (thrV d L) ↦[(oC0 L).view.set]{fullShare} f0 : sProp 𝕄) = oLoc d ↦[(oC0 L).view.set]{fullShare} f0 from rfl).symm) $$ Ho0
  ihave Ho1' := (Entails.of_eq (show ((oC1 L).view.loc (thrV d L) ↦[(oC1 L).view.set]{fullShare} f0 : sProp 𝕄) = oLoc d ↦[(oC1 L).view.set]{fullShare} f0 from rfl).symm) $$ Ho1
  ihave Ho2' := (Entails.of_eq (show ((oC2 L).view.loc (thrV d L) ↦[(oC2 L).view.set]{fullShare} f0 : sProp 𝕄) = oLoc d ↦[(oC2 L).view.set]{fullShare} f0 from rfl).symm) $$ Ho2
  ihave Ho3' := (Entails.of_eq (show ((oC3 L).view.loc (thrV d L) ↦[(oC3 L).view.set]{fullShare} f0 : sProp 𝕄) = oLoc d ↦[(oC3 L).view.set]{fullShare} f0 from rfl).symm) $$ Ho3
  sl_exec
  have hin0 := hin_slice m d L hpre fs (tile_body.sl.dma0 m d L) rfl ![0] inb_S512_S128_0
  have hin1 := hin_slice m d L hpre fs (tile_body.sl.dma0 m d L) rfl ![128] inb_S512_S128_128
  have hin2 := hin_slice m d L hpre fs (tile_body.sl.dma0 m d L) rfl ![256] inb_S512_S128_256
  have hin3 := hin_slice m d L hpre fs (tile_body.sl.dma0 m d L) rfl ![384] inb_S512_S128_384
  sl_exec
  ihave Hw0c := (Entails.of_eq (pointsTo_congr (q := fullShare) (land_W0 m d L Tb 0 fs ![0] inb_S512_S128_0 rfl _ hin0 _))) $$ Hw0'
  sl_for (fun (k : Nat) (_ : PUnit) => (iprop(((W0).view.loc (thrV d L) ↦[(W0).view.set]{fullShare} cleanW m d L Tb 0)
      ∗ ∃ f, ((C0).view.loc (thrV d L) ↦[(C0).view.set]{fullShare} f)
          ∗ ⌜∀ j : S2x128x64.Idx, (j 0).val = 0 → (j 1).val < k → f j = cleanC m d L Tb 0 j⌝) : sProp 𝕄)) $$ [Hw0c Hc0']
  case region =>
    intro k _
    have hk : k.val < 128 := lt_of_lt_of_le k.isLt k0_t1_abs.2.1
    iintro ⟨Hw, %f, Hc, %hf⟩
    sl_exec
    sl_step
    isplitl [Hw]; · iexact Hw
    iexists _; isplitl [Hc]; · iexact Hc
    ipureintro
    exact step_slot m d L Tb 0 0 k.val hk _ _ _ _ _ _ _ _
      (k0_off2_eq k) (k0_off4_eq k) (k0_off6_eq k) (k0_off8_eq k) (k0_off3_eq k) (k0_off5_eq k) (k0_off7_eq k) (k0_off9_eq k)
      _ _ _ _ _ _ _ _ (cleanW m d L Tb 0) (fun _ _ => rfl) f hf
  · isplitl [Hw0c]; · iexact Hw0c
    iexists _; isplitl [Hc0']; · iexact Hc0'
    ipureintro; intro j _ hj; exact absurd hj (Nat.not_lt_zero _)
  iintro %_ HI
  icases HI with ⟨Hw0c, %fc0, Hc0', %hfc0⟩
  sl_exec (disch := exact View.amount_pos _ _ (show 0 < S128x64.numel by decide))
  ihave Hw1c := (Entails.of_eq (pointsTo_congr (q := fullShare) (land_W1 m d L Tb 1 fs ![128] inb_S512_S128_128 rfl _ hin1 _))) $$ Hw1'
  sl_for (fun (k : Nat) (_ : PUnit) => (iprop(((W1).view.loc (thrV d L) ↦[(W1).view.set]{fullShare} cleanW m d L Tb 1)
      ∗ ∃ f, ((C1).view.loc (thrV d L) ↦[(C1).view.set]{fullShare} f)
          ∗ ⌜∀ j : S2x128x64.Idx, (j 0).val = 1 → (j 1).val < k → f j = cleanC m d L Tb 1 j⌝) : sProp 𝕄)) $$ [Hw1c Hc1']
  case region =>
    intro k _
    have hk : k.val < 128 := lt_of_lt_of_le k.isLt k0_t2_abs.2.1
    iintro ⟨Hw, %f, Hc, %hf⟩
    sl_exec
    sl_step
    isplitl [Hw]; · iexact Hw
    iexists _; isplitl [Hc]; · iexact Hc
    ipureintro
    exact step_slot m d L Tb 1 1 k.val hk _ _ _ _ _ _ _ _
      (k0_off11_eq k) (k0_off13_eq k) (k0_off15_eq k) (k0_off17_eq k) (k0_off12_eq k) (k0_off14_eq k) (k0_off16_eq k) (k0_off18_eq k)
      _ _ _ _ _ _ _ _ (cleanW m d L Tb 1) (fun _ _ => rfl) f hf
  · isplitl [Hw1c]; · iexact Hw1c
    iexists _; isplitl [Hc1']; · iexact Hc1'
    ipureintro; intro j _ hj; exact absurd hj (Nat.not_lt_zero _)
  iintro %_ HI
  icases HI with ⟨Hw1c, %fc1, Hc1', %hfc1⟩
  sl_exec (disch := exact View.amount_pos _ _ (show 0 < S128x64.numel by decide))
  ihave Hw0d := (Entails.of_eq (pointsTo_congr (q := fullShare) (land_W0 m d L Tb 2 fs ![256] inb_S512_S128_256 rfl _ hin2 _))) $$ Hw0c
  sl_for (fun (k : Nat) (_ : PUnit) => (iprop(((W0).view.loc (thrV d L) ↦[(W0).view.set]{fullShare} cleanW m d L Tb 2)
      ∗ ∃ f, ((C0).view.loc (thrV d L) ↦[(C0).view.set]{fullShare} f)
          ∗ ⌜∀ j : S2x128x64.Idx, (j 0).val = 0 → (j 1).val < k → f j = cleanC m d L Tb 2 j⌝) : sProp 𝕄)) $$ [Hw0d Hc0']
  case region =>
    intro k _
    have hk : k.val < 128 := lt_of_lt_of_le k.isLt k0_t3_abs.2.1
    iintro ⟨Hw, %f, Hc, %hf⟩
    sl_exec
    sl_step
    isplitl [Hw]; · iexact Hw
    iexists _; isplitl [Hc]; · iexact Hc
    ipureintro
    exact step_slot m d L Tb 0 2 k.val hk _ _ _ _ _ _ _ _
      (k0_off19_eq k) (k0_off21_eq k) (k0_off23_eq k) (k0_off25_eq k) (k0_off20_eq k) (k0_off22_eq k) (k0_off24_eq k) (k0_off26_eq k)
      _ _ _ _ _ _ _ _ (cleanW m d L Tb 2) (fun _ _ => rfl) f hf
  · isplitl [Hw0d]; · iexact Hw0d
    iexists _; isplitl [Hc0']; · iexact Hc0'
    ipureintro; intro j _ hj; exact absurd hj (Nat.not_lt_zero _)
  iintro %_ HI
  icases HI with ⟨Hw0d, %fc2, Hc0', %hfc2⟩
  sl_exec (disch := exact View.amount_pos _ _ (show 0 < S128x64.numel by decide))
  ihave Hw1d := (Entails.of_eq (pointsTo_congr (q := fullShare) (land_W1 m d L Tb 3 fs ![384] inb_S512_S128_384 rfl _ hin3 _))) $$ Hw1c
  sl_for (fun (k : Nat) (_ : PUnit) => (iprop(((W1).view.loc (thrV d L) ↦[(W1).view.set]{fullShare} cleanW m d L Tb 3)
      ∗ ∃ f, ((C1).view.loc (thrV d L) ↦[(C1).view.set]{fullShare} f)
          ∗ ⌜∀ j : S2x128x64.Idx, (j 0).val = 1 → (j 1).val < k → f j = cleanC m d L Tb 3 j⌝) : sProp 𝕄)) $$ [Hw1d Hc1']
  case region =>
    intro k _
    have hk : k.val < 128 := lt_of_lt_of_le k.isLt k0_t4_abs.2.1
    iintro ⟨Hw, %f, Hc, %hf⟩
    sl_exec
    sl_step
    isplitl [Hw]; · iexact Hw
    iexists _; isplitl [Hc]; · iexact Hc
    ipureintro
    exact step_slot m d L Tb 1 3 k.val hk _ _ _ _ _ _ _ _
      (k0_off27_eq k) (k0_off29_eq k) (k0_off31_eq k) (k0_off33_eq k) (k0_off28_eq k) (k0_off30_eq k) (k0_off32_eq k) (k0_off34_eq k)
      _ _ _ _ _ _ _ _ (cleanW m d L Tb 3) (fun _ _ => rfl) f hf
  · isplitl [Hw1d]; · iexact Hw1d
    iexists _; isplitl [Hc1']; · iexact Hc1'
    ipureintro; intro j _ hj; exact absurd hj (Nat.not_lt_zero _)
  iintro %_ HI
  icases HI with ⟨Hw1d, %fc3, Hc1', %hfc3⟩
  sl_exec (disch := exact View.amount_pos _ _ (show 0 < S128x64.numel by decide))
  sl_step
  isplitl [Hi' Htr Ht0' Ht1' Ho0' Ho1' Ho2' Ho3']
  · isplitl [Hi']; · iexact Hi'
    isplitl [Htr Ht0' Ht1']
    · iapply (pointsTo_share (ℓ := tLoc d) (I := Finset.univ) (f := Tb) (PosShare.mem_left_op_right tq)).2
      isplitl [Htr Ht1']
      · iapply (pointsTo_share (ℓ := tLoc d) (I := Finset.univ) (f := Tb) (PosShare.mem_left_op_right tq.left)).2
        isplitl [Htr]; · iexact Htr
        iexact Ht1'
      · iexact Ht0'
    isplitl [Ho0']
    · iapply (Entails.of_eq (pointsTo_congr (ℓ := oLoc d) (q := fullShare) (out_C0 m d L Tb 0 0#32 rfl (k0_off10_inb L 0) _ fc0
        (fun j h0 => hfc0 j h0 (lt_of_lt_of_eq (j 1).isLt t1_trips.symm)))))
      iexact Ho0'
    isplitl [Ho1']
    · iapply (Entails.of_eq (pointsTo_congr (ℓ := oLoc d) (q := fullShare) (out_C1 m d L Tb 1 128#32 rfl (k0_off10_inb L 1) _ fc1
        (fun j h0 => hfc1 j h0 (lt_of_lt_of_eq (j 1).isLt t2_trips.symm)))))
      iexact Ho1'
    isplitl [Ho2']
    · iapply (Entails.of_eq (pointsTo_congr (ℓ := oLoc d) (q := fullShare) (out_C0 m d L Tb 2 256#32 rfl (k0_off10_inb L 2) _ fc2
        (fun j h0 => hfc2 j h0 (lt_of_lt_of_eq (j 1).isLt t3_trips.symm)))))
      iexact Ho2'
    · iapply (Entails.of_eq (pointsTo_congr (ℓ := oLoc d) (q := fullShare) (out_C1 m d L Tb 3 384#32 rfl (k0_off10_inb L 3) _ fc3
        (fun j h0 => hfc3 j h0 (lt_of_lt_of_eq (j 1).isLt t4_trips.symm)))))
      iexact Ho3'
  isplitl [Hs' Hw0d Hw1d Hc0' Hc1' Hbufs]
  · isplitl [Hs']; · iexists _; iexact Hs'
    isplitl [Hw0d Hw1d]
    · iapply (join_compl (ℓ := rwLoc d L) (W0).view.set (cleanW m d L Tb 2) (cleanW m d L Tb 3))
      isplitl [Hw0d]; · iexact Hw0d
      iapply (Entails.of_eq (show ((W1).view.loc (thrV d L) ↦[(W1).view.set]{fullShare} cleanW m d L Tb 3 : sProp 𝕄)
        = rwLoc d L ↦[Finset.univ \ (W0).view.set]{fullShare} cleanW m d L Tb 3 from by rw [slotW_compl])); iexact Hw1d
    isplitl [Hc0' Hc1']
    · iapply (join_compl (ℓ := rcLoc d L) (C0).view.set fc2 fc3)
      isplitl [Hc0']; · iexact Hc0'
      iapply (Entails.of_eq (show ((C1).view.loc (thrV d L) ↦[(C1).view.set]{fullShare} fc3 : sProp 𝕄)
        = rcLoc d L ↦[Finset.univ \ (C0).view.set]{fullShare} fc3 from by rw [slotC_compl])); iexact Hc1'
    iexact Hbufs
  isplitl [HG0 HG1 HS0 HS1 HI Hsems]
  · isplitl [HG0]; · iexact HG0
    isplitl [HG1]; · iexact HG1
    isplitl [HS0]; · iexact HS0
    isplitl [HS1]; · iexact HS1
    isplitl [HI]; · iexact HI
    iexact Hsems
  iexists _; isplitr
  swap; · iexact HO
  ipureintro
  exact ins_ok _ (ins_ok _ (ins_ok _ (ins_ok _ (ins_ok _ (ins_ok _ (ins_ok _ (ins_ok _ (ins_ok _ (fun p hp => .inl hp)))))))))

end Cert.Proof.KernelIdeal

end
-- ==== Proof.KOwn.lean ====
import proofs.«206562_g3805341024366_cont_8to1_b_1019_21_alg».proof.Proof.KCommon

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A subcore's own semaphores and scratch buffers, named -/

section Own
variable (d : Dev nD) (L : grid0.Coords)

abbrev thrV (d : Dev nD) (L : grid0.Coords) : Thread nD τ := V d (cV L) (jV L)

abbrev cellG0 (d : Dev nD) (L : grid0.Coords) : GSem nD τ sig := (thrV d L, .dma cc0_scratch3.sem)
abbrev cellG1 (d : Dev nD) (L : grid0.Coords) : GSem nD τ sig := (thrV d L, .dma cc0_scratch4.sem)
abbrev cellS0 (d : Dev nD) (L : grid0.Coords) : GSem nD τ sig := (thrV d L, .dma cc0_scratch5.sem)
abbrev cellS1 (d : Dev nD) (L : grid0.Coords) : GSem nD τ sig := (thrV d L, .dma cc0_scratch6.sem)
abbrev cellI (d : Dev nD) (L : grid0.Coords) : GSem nD τ sig := (thrV d L, .dma cc0_scoped0.sem)

/-- The five DMA semaphores the task names are among the subcore's own: they are them, at zero, and the rest. -/
theorem ownSems0_V :
    (ownSems0 (thrV d L) : sProp 𝕄)
      = iprop(semVal (cellG0 d L) 0 ∗ semVal (cellG1 d L) 0 ∗ semVal (cellS0 d L) 0 ∗ semVal (cellS1 d L) 0 ∗ semVal (cellI d L) 0
          ∗ bigSep ((((((ownCells (thrV d L)).erase (cellG0 d L)).erase (cellG1 d L)).erase (cellS0 d L)).erase (cellS1 d L)).erase (cellI d L))
              fun g => semVal g 0) := by
  unfold SparseCore.Cfg.ownSems0
  rw [SparseCore.bigSep_erase' ((mem_ownCells (g := cellG0 d L)).mpr ⟨rfl, by
      show (SemLoc.dma cc0_scratch3.sem : SemLoc sig).isScoped .scVector = true; decide⟩),
    SparseCore.bigSep_erase' (Finset.mem_erase.mpr ⟨by simp [cellG0, cellG1]; decide, (mem_ownCells (g := cellG1 d L)).mpr ⟨rfl, by
      show (SemLoc.dma cc0_scratch4.sem : SemLoc sig).isScoped .scVector = true; decide⟩⟩),
    SparseCore.bigSep_erase' (Finset.mem_erase.mpr ⟨by simp [cellG1, cellS0]; decide, Finset.mem_erase.mpr ⟨by simp [cellG0, cellS0]; decide,
      (mem_ownCells (g := cellS0 d L)).mpr ⟨rfl, by show (SemLoc.dma cc0_scratch5.sem : SemLoc sig).isScoped .scVector = true; decide⟩⟩⟩),
    SparseCore.bigSep_erase' (Finset.mem_erase.mpr ⟨by simp [cellS0, cellS1]; decide, Finset.mem_erase.mpr ⟨by simp [cellG1, cellS1]; decide,
      Finset.mem_erase.mpr ⟨by simp [cellG0, cellS1]; decide,
      (mem_ownCells (g := cellS1 d L)).mpr ⟨rfl, by show (SemLoc.dma cc0_scratch6.sem : SemLoc sig).isScoped .scVector = true; decide⟩⟩⟩⟩),
    SparseCore.bigSep_erase' (Finset.mem_erase.mpr ⟨by simp [cellS1, cellI]; decide, Finset.mem_erase.mpr ⟨by simp [cellS0, cellI]; decide,
      Finset.mem_erase.mpr ⟨by simp [cellG1, cellI]; decide, Finset.mem_erase.mpr ⟨by simp [cellG0, cellI]; decide,
      (mem_ownCells (g := cellI d L)).mpr ⟨rfl, by show (SemLoc.dma cc0_scoped0.sem : SemLoc sig).isScoped .scVector = true; decide⟩⟩⟩⟩⟩)]

abbrev sLoc (d : Dev nD) (L : grid0.Coords) : Loc nD τ sig := (thrV d L).loc cc0_scratch0
abbrev rwLoc (d : Dev nD) (L : grid0.Coords) : Loc nD τ sig := (thrV d L).loc cc0_scratch1
abbrev rcLoc (d : Dev nD) (L : grid0.Coords) : Loc nD τ sig := (thrV d L).loc cc0_scratch2

/-- The three scratch buffers are among the subcore's own: they are them, at some contents, and the rest. -/
theorem ownBufs_V :
    (ownBufs (thrV d L) : sProp 𝕄)
      = iprop((∃ f, sLoc d L ↦{fullShare} f) ∗ (∃ f, rwLoc d L ↦{fullShare} f) ∗ (∃ f, rcLoc d L ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Own

end Cert.Proof.Kernel

end
-- ==== Proof.KBodyVals.lean ====
import proofs.«206562_g3805341024366_cont_8to1_b_1019_21_alg».proof.Proof.KOwn

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The two slots of each scratch, as the task addresses them -/

abbrev W0 : Memref sig .scVector .vmem S128x128 .f32 := ((rwV.slice (Rect.unit (s := S2x128x128) ![0, 0, 0] S1x128x128.size inb_S2x128x128_S1x128x128_0_0_0) (fun _ => rfl)).squeeze S128x128 squeezes_S1x128x128_S128x128)
abbrev W1 : Memref sig .scVector .vmem S128x128 .f32 := ((rwV.slice (Rect.unit (s := S2x128x128) ![1, 0, 0] S1x128x128.size inb_S2x128x128_S1x128x128_1_0_0) (fun _ => rfl)).squeeze S128x128 squeezes_S1x128x128_S128x128)
abbrev C0 : Memref sig .scVector .vmem S128x64 .f32 := ((rcV.slice (Rect.unit (s := S2x128x64) ![0, 0, 0] S1x128x64.size inb_S2x128x64_S1x128x64_0_0_0) (fun _ => rfl)).squeeze S128x64 squeezes_S1x128x64_S128x64)
abbrev C1 : Memref sig .scVector .vmem S128x64 .f32 := ((rcV.slice (Rect.unit (s := S2x128x64) ![1, 0, 0] S1x128x64.size inb_S2x128x64_S1x128x64_1_0_0) (fun _ => rfl)).squeeze S128x64 squeezes_S1x128x64_S128x64)

/-! ## What the slots hold, chunk by chunk -/

section Clean
variable (m : (ℓ : Loc nD τ sig) → Buf (Elt F) ℓ) (d : Dev nD) (L : grid0.Coords) (Tb : Buf (Elt F) (tLoc d))

/-- The index word at position `i` of chunk `c` of the subcore's 512. -/
def wordAt (c : Fin 4) (i : Fin 128) : BitVec 32 :=
  m (iLoc d) (ix2 (⟨(L 1).val, (L 1).isLt⟩ : Fin 16) (⟨512 * (L 0).val + 128 * c.val + i.val, by
    have h0 : (L 0).val < 2 := (L 0).isLt
    have := c.isLt; have := i.isLt; omega⟩ : Fin 1024))

/-- Chunk `c`'s gathered rows as contents of the row scratch, either slot: row `i` is table row `idx[…]`, all 128 columns. -/
def cleanW (c : Fin 4) : Buf (Elt F) (rwLoc d L) :=
  fun j => Tb (ix2 (Cert.Spec.rowOf (wordAt m d L c (j 1))) (j 2))

/-- Chunk `c`'s compacted rows as contents of the compact scratch, either slot: row `i` is the first 64 columns of that table row. -/
def cleanC (c : Fin 4) : Buf (Elt F) (rcLoc d L) :=
  fun j => Tb (ix2 (Cert.Spec.rowOf (wordAt m d L c (j 1))) ((j 2).castLE (show 64 ≤ 128 by decide)))

end Clean

end Cert.Proof.Kernel

end
-- ==== Proof.KBodySets.lean ====
/-
  The two slots of each scratch buffer. A slot is plane b of the buffer: the indices whose leading coordinate is b.
  The two planes of a buffer with two planes are complements of each other.
-/
import proofs.«206562_g3805341024366_cont_8to1_b_1019_21_alg».proof.Proof.KBodyVals

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The elements of a slot are the indices of its plane -/

/-- A slot's element set is the set of its rectangle (the squeeze keeps the elements; the slice of a whole buffer is
    the rectangle). -/
theorem set_W0 : (W0).view.set = (Rect.unit (s := S2x128x128) ![0, 0, 0] S1x128x128.size inb_S2x128x128_S1x128x128_0_0_0).set :=
  (View.set_reshape _ _).trans (View.set_slice_whole _ _)
theorem set_W1 : (W1).view.set = (Rect.unit (s := S2x128x128) ![1, 0, 0] S1x128x128.size inb_S2x128x128_S1x128x128_1_0_0).set :=
  (View.set_reshape _ _).trans (View.set_slice_whole _ _)
theorem set_C0 : (C0).view.set = (Rect.unit (s := S2x128x64) ![0, 0, 0] S1x128x64.size inb_S2x128x64_S1x128x64_0_0_0).set :=
  (View.set_reshape _ _).trans (View.set_slice_whole _ _)
theorem set_C1 : (C1).view.set = (Rect.unit (s := S2x128x64) ![1, 0, 0] S1x128x64.size inb_S2x128x64_S1x128x64_1_0_0).set :=
  (View.set_reshape _ _).trans (View.set_slice_whole _ _)

/-- Membership in a unit-stride rectangle of a rank-3 shape, axis by axis. -/
theorem mem_unit3 {n0 n1 n2 : ℕ} {off size : Fin 3 → ℕ} {inb} (j : (⟨3, ![n0, n1, n2]⟩ : Shape).Idx) :
    j ∈ (Rect.unit (s := ⟨3, ![n0, n1, n2]⟩) off size inb).set ↔
      (off 0 ≤ (j 0).val ∧ (j 0).val < off 0 + size 0) ∧ (off 1 ≤ (j 1).val ∧ (j 1).val < off 1 + size 1)
        ∧ (off 2 ≤ (j 2).val ∧ (j 2).val < off 2 + size 2) := by
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

/-- The coordinates of a rank-3 index are below the extents, written as the extents themselves. -/
theorem idx3_lt {n0 n1 n2 : ℕ} (j : (⟨3, ![n0, n1, n2]⟩ : Shape).Idx) : (j 0).val < n0 ∧ (j 1).val < n1 ∧ (j 2).val < n2 :=
  ⟨(j 0).isLt, (j 1).isLt, (j 2).isLt⟩

theorem mem_W0' (j : S2x128x128.Idx) : j ∈ (W0).view.set ↔ (j 0).val = 0 := by
  rw [set_W0, mem_unit3]
  obtain ⟨h0, h1, h2⟩ := idx3_lt j
  show ((0 ≤ (j 0).val ∧ (j 0).val < 0 + 1) ∧ (0 ≤ (j 1).val ∧ (j 1).val < 0 + 128) ∧ (0 ≤ (j 2).val ∧ (j 2).val < 0 + 128)) ↔ _
  omega
theorem mem_W1' (j : S2x128x128.Idx) : j ∈ (W1).view.set ↔ (j 0).val = 1 := by
  rw [set_W1, mem_unit3]
  obtain ⟨h0, h1, h2⟩ := idx3_lt j
  show ((1 ≤ (j 0).val ∧ (j 0).val < 1 + 1) ∧ (0 ≤ (j 1).val ∧ (j 1).val < 0 + 128) ∧ (0 ≤ (j 2).val ∧ (j 2).val < 0 + 128)) ↔ _
  omega
theorem mem_C0' (j : S2x128x64.Idx) : j ∈ (C0).view.set ↔ (j 0).val = 0 := by
  rw [set_C0, mem_unit3]
  obtain ⟨h0, h1, h2⟩ := idx3_lt j
  show ((0 ≤ (j 0).val ∧ (j 0).val < 0 + 1) ∧ (0 ≤ (j 1).val ∧ (j 1).val < 0 + 128) ∧ (0 ≤ (j 2).val ∧ (j 2).val < 0 + 64)) ↔ _
  omega
theorem mem_C1' (j : S2x128x64.Idx) : j ∈ (C1).view.set ↔ (j 0).val = 1 := by
  rw [set_C1, mem_unit3]
  obtain ⟨h0, h1, h2⟩ := idx3_lt j
  show ((1 ≤ (j 0).val ∧ (j 0).val < 1 + 1) ∧ (0 ≤ (j 1).val ∧ (j 1).val < 0 + 128) ∧ (0 ≤ (j 2).val ∧ (j 2).val < 0 + 64)) ↔ _
  omega

/-! ## The slots split each scratch in two -/

theorem slotW_compl' : (Finset.univ \ (W0).view.set) = (W1).view.set := by
  ext j
  rw [Finset.mem_sdiff, mem_W0', mem_W1']
  have h0 : (j 0).val < 2 := (j 0).isLt
  simp only [Finset.mem_univ, true_and]
  omega

theorem slotC_compl' : (Finset.univ \ (C0).view.set) = (C1).view.set := by
  ext j
  rw [Finset.mem_sdiff, mem_C0', mem_C1']
  have h0 : (j 0).val < 2 := (j 0).isLt
  simp only [Finset.mem_univ, true_and]
  omega

end Cert.Proof.Kernel

end
-- ==== Proof.KBodyStep.lean ====
/-
  One trip of a compaction loop. A trip at row k of slot b loads four runs of sixteen lanes, columns [16 q, 16 q + 16)
  for q < 4, of row k of the row scratch's slot, and stores each at the same place of the compact scratch's slot. One
  store changes exactly the sixteen elements (b, k, q₀ + i), i < 16, to the row scratch's elements at the same
  coordinates; the four stores of a trip therefore fill columns [0, 64) of row k and leave every other row.
-/
import proofs.«206562_g3805341024366_cont_8to1_b_1019_21_alg».proof.Proof.KBodySets
import Idealize.ShloMosaic.Lib.Pipeline.Value

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Store
variable (d : Dev nD) (L : grid0.Coords)

/-- An index of the compact scratch as the index of the row scratch with the same coordinates. -/
def up (j : S2x128x64.Idx) : S2x128x128.Idx :=
  ix3 (n0 := 2) (n1 := 128) (n2 := 128) (j 0) (j 1) ((j 2).castLE (by decide))

/-- The store's payload is the load: the two casts of shape undo each other. -/
theorem lanes_eq (x : Vec F S1x1x16 .f32) :
    shapeCast S1x1x16 (shapeCast S16 x shapeCasts_S1x1x16_S16) shapeCasts_S16_S1x1x16 = x :=
  shapeCast_shapeCast x _ _

/-- ONE STORE of sixteen loaded lanes at (b, k, q): the sixteen elements (b, k, q + i) take the row scratch's elements
    at the same coordinates, every other element keeps its contents. -/
theorem store16_apply (b k q : ℕ) (oW oC : Fin 3 → ℕ) (hW : oW = ![b, k, q]) (hC : oC = ![b, k, q])
    (iW : ∀ a, oW a + S1x1x16.size a ≤ S2x128x128.size a) (iC : ∀ a, oC a + S1x1x16.size a ≤ S2x128x64.size a)
    (gw : Buf (Elt F) (rwLoc d L)) (f : Buf (Elt F) (rcLoc d L)) (j : S2x128x64.Idx) :
    View.write (Elt F) ((rcV).access (Rect.unit (s := S2x128x64) oC S1x1x16.size iC)) f
        (shapeCast S1x1x16 (shapeCast S16 (View.readAt (Elt F) (rwV).view (Rect.unit (s := S2x128x128) oW S1x1x16.size iW).toLoadRect gw)
          shapeCasts_S1x1x16_S16) shapeCasts_S16_S1x1x16) Finset.univ j
      = if (j 0).val = b ∧ (j 1).val = k ∧ q ≤ (j 2).val ∧ (j 2).val < q + 16 then gw (up j) else f j := by
  subst hW hC
  rw [lanes_eq]
  have hb : b + 1 ≤ 2 := iC 0
  have hk : k + 1 ≤ 128 := iC 1
  have hq : q + 16 ≤ 64 := iC 2
  obtain ⟨h0, h1, h2⟩ := idx3_lt j
  by_cases hc : (j 0).val = b ∧ (j 1).val = k ∧ q ≤ (j 2).val ∧ (j 2).val < q + 16
  · rw [if_pos hc]
    obtain ⟨c0, c1, c2, c3⟩ := hc
    let x : S1x1x16.Idx := ix3 (n0 := 1) (n1 := 1) (n2 := 16) ⟨0, Nat.one_pos⟩ ⟨0, Nat.one_pos⟩ ⟨(j 2).val - q, by omega⟩
    have hj : j = ((rcV).access (Rect.unit (s := S2x128x64) ![b, k, q] S1x1x16.size iC)).emb x := by
      funext a; apply Fin.ext
      match a with
      | ⟨0, _⟩ => show (j 0).val = b + 1 * 0; omega
      | ⟨1, _⟩ => show (j 1).val = k + 1 * 0; omega
      | ⟨2, _⟩ => show (j 2).val = q + 1 * ((j 2).val - q); omega
    refine (congrArg (View.write (Elt F) ((rcV).access (Rect.unit (s := S2x128x64) ![b, k, q] S1x1x16.size iC)) f _ Finset.univ) hj).trans
      ((View.write_emb_of_mem (v := (rcV).access (Rect.unit (s := S2x128x64) ![b, k, q] S1x1x16.size iC)) (Val := Elt F) f _ (Finset.mem_univ x)).trans ?_)
    show gw ((Rect.unit (s := S2x128x128) ![b, k, q] S1x1x16.size iW).idx x) = gw (up j)
    refine congrArg gw (funext fun a => Fin.ext ?_)
    match a with
    | ⟨0, _⟩ => show b + 1 * 0 = (j 0).val; omega
    | ⟨1, _⟩ => show k + 1 * 0 = (j 1).val; omega
    | ⟨2, _⟩ => show q + 1 * ((j 2).val - q) = (j 2).val; omega
  · rw [if_neg hc]
    refine View.write_of_not_mem (v := (rcV).access (Rect.unit (s := S2x128x64) ![b, k, q] S1x1x16.size iC)) (Val := Elt F) f _ _ ?_
    rw [View.setOn_univ, show ((rcV).access (Rect.unit (s := S2x128x64) ![b, k, q] S1x1x16.size iC)).set
        = (Rect.unit (s := S2x128x64) ![b, k, q] S1x1x16.size iC).set from View.set_slice_whole _ _, mem_unit3]
    show ¬((b ≤ (j 0).val ∧ (j 0).val < b + 1) ∧ (k ≤ (j 1).val ∧ (j 1).val < k + 1) ∧ (q ≤ (j 2).val ∧ (j 2).val < q + 16))
    omega

end Store

section Step
variable (m : (ℓ : Loc nD τ sig) → Buf (Elt F) ℓ) (d : Dev nD) (L : grid0.Coords) (Tb : Buf (Elt F) (tLoc d))

/-- What a trip's store carries: the sixteen lanes it loaded, through two casts of shape that undo each other. -/
abbrev lanes' (x : Vec F S1x1x16 .f32) : FVec F S1x1x16 .f32 :=
  shapeCast S1x1x16 (shapeCast S16 x shapeCasts_S1x1x16_S16) shapeCasts_S16_S1x1x16

/-- The row scratch's chunk at an index of the compact scratch's coordinates is the compact chunk there. -/
theorem cleanW_up (c : Fin 4) (j : S2x128x64.Idx) : cleanW m d L Tb c (up j) = cleanC m d L Tb c j := rfl

/-- ONE TRIP of a compaction loop on slot b at row k: if the row scratch's slot holds chunk c's rows and the compact
    scratch's slot holds chunk c's compacted rows below row k, then after the four loads and stores the compact
    scratch's slot holds them below row k + 1. -/
theorem step_slot' (b : Fin 2) (c : Fin 4) (k : ℕ) (hk : k < 128)
    (oW0 oW1 oW2 oW3 oC0 oC1 oC2 oC3 : Fin 3 → ℕ)
    (hW0 : oW0 = ![b.val, k, 0]) (hW1 : oW1 = ![b.val, k, 16]) (hW2 : oW2 = ![b.val, k, 32]) (hW3 : oW3 = ![b.val, k, 48])
    (hC0 : oC0 = ![b.val, k, 0]) (hC1 : oC1 = ![b.val, k, 16]) (hC2 : oC2 = ![b.val, k, 32]) (hC3 : oC3 = ![b.val, k, 48])
    (iW0 : ∀ a, oW0 a + S1x1x16.size a ≤ S2x128x128.size a) (iW1 : ∀ a, oW1 a + S1x1x16.size a ≤ S2x128x128.size a)
    (iW2 : ∀ a, oW2 a + S1x1x16.size a ≤ S2x128x128.size a) (iW3 : ∀ a, oW3 a + S1x1x16.size a ≤ S2x128x128.size a)
    (iC0 : ∀ a, oC0 a + S1x1x16.size a ≤ S2x128x64.size a) (iC1 : ∀ a, oC1 a + S1x1x16.size a ≤ S2x128x64.size a)
    (iC2 : ∀ a, oC2 a + S1x1x16.size a ≤ S2x128x64.size a) (iC3 : ∀ a, oC3 a + S1x1x16.size a ≤ S2x128x64.size a)
    (gw : Buf (Elt F) (rwLoc d L)) (hgw : ∀ j : S2x128x128.Idx, (j 0).val = b.val → gw j = cleanW m d L Tb c j)
    (f : Buf (Elt F) (rcLoc d L)) (hf : ∀ j : S2x128x64.Idx, (j 0).val = b.val → (j 1).val < k → f j = cleanC m d L Tb c j) :
    ∀ j : S2x128x64.Idx, (j 0).val = b.val → (j 1).val < k + 1 →
      (View.write (Elt F) ((rcV).access (Rect.unit (s := S2x128x64) oC3 S1x1x16.size iC3))
        (View.write (Elt F) ((rcV).access (Rect.unit (s := S2x128x64) oC2 S1x1x16.size iC2))
          (View.write (Elt F) ((rcV).access (Rect.unit (s := S2x128x64) oC1 S1x1x16.size iC1))
            (View.write (Elt F) ((rcV).access (Rect.unit (s := S2x128x64) oC0 S1x1x16.size iC0)) f
              (lanes' (View.readAt (Elt F) (rwV).view (Rect.unit (s := S2x128x128) oW0 S1x1x16.size iW0).toLoadRect gw)) Finset.univ)
            (lanes' (View.readAt (Elt F) (rwV).view (Rect.unit (s := S2x128x128) oW1 S1x1x16.size iW1).toLoadRect gw)) Finset.univ)
          (lanes' (View.readAt (Elt F) (rwV).view (Rect.unit (s := S2x128x128) oW2 S1x1x16.size iW2).toLoadRect gw)) Finset.univ)
        (lanes' (View.readAt (Elt F) (rwV).view (Rect.unit (s := S2x128x128) oW3 S1x1x16.size iW3).toLoadRect gw)) Finset.univ) j
      = cleanC m d L Tb c j := by
  intro j hj0 hj1
  rw [store16_apply d L b.val k 48 oW3 oC3 hW3 hC3 iW3 iC3, store16_apply d L b.val k 32 oW2 oC2 hW2 hC2 iW2 iC2,
    store16_apply d L b.val k 16 oW1 oC1 hW1 hC1 iW1 iC1, store16_apply d L b.val k 0 oW0 oC0 hW0 hC0 iW0 iC0]
  have key : gw (up j) = cleanC m d L Tb c j := (hgw (up j) hj0).trans (cleanW_up m d L Tb c j)
  have h2 : (j 2).val < 64 := (idx3_lt j).2.2
  by_cases hlt : (j 1).val < k
  · rw [if_neg (by omega), if_neg (by omega), if_neg (by omega), if_neg (by omega)]
    exact hf j hj0 hlt
  · split_ifs with h48 h32 h16 h00
    · exact key
    · exact key
    · exact key
    · exact key
    · exfalso; omega

end Step

end Cert.Proof.Kernel

end
-- ==== Proof.KBodyEmb.lean ====
/-
  Where the task's memrefs put their indices. A slot of a scratch buffer, a subcore's 512 index words and a chunk of
  the result are each a unit-stride rectangle of a whole array with its unit axes squeezed away; the squeeze keeps the
  row-major order, so index (y₀, y₁) of a squeezed [1, s₁, s₂] block is the block's index (0, y₀, y₁), which the
  rectangle places at its offsets plus those coordinates.
-/
import proofs.«206562_g3805341024366_cont_8to1_b_1019_21_alg».proof.Proof.KBodySets
import Idealize.ShloMosaic.Lib.Pipeline.Value

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The squeeze of a leading unit axis, index by index -/

/-- Index (y₀, y₁) of a [s₁, s₂] array has the row-major position of index (0, y₀, y₁) of a [1, s₁, s₂] array. -/
theorem reshapeEquiv_squeeze3 {s1 s2 : ℕ} (h : (⟨2, ![s1, s2]⟩ : Shape).numel = (⟨3, ![1, s1, s2]⟩ : Shape).numel)
    (y : (⟨2, ![s1, s2]⟩ : Shape).Idx) :
    Shape.reshapeEquiv h y = ix3 (n0 := 1) (n1 := s1) (n2 := s2) ⟨0, Nat.one_pos⟩ (y 0) (y 1) := by
  refine Shape.reshapeEquiv_eq_of_rowMajor h ?_
  rw [Shape.rowMajor_val_three, Shape.rowMajor_val_two]
  show (0 * s1 + (y 0).val) * s2 + (y 1).val = (y 0).val * s2 + (y 1).val
  rw [Nat.zero_mul, Nat.zero_add]

/-- Index (y₀) of a [n] array has the row-major position of index (0, y₀) of a [1, n] array. -/
theorem reshapeEquiv_squeeze2 {n : ℕ} (h : (⟨1, ![n]⟩ : Shape).numel = (⟨2, ![1, n]⟩ : Shape).numel)
    (y : (⟨1, ![n]⟩ : Shape).Idx) :
    Shape.reshapeEquiv h y = ix2 (n0 := 1) (n1 := n) ⟨0, Nat.one_pos⟩ (y 0) := by
  refine Shape.reshapeEquiv_eq_of_rowMajor h ?_
  rw [Shape.rowMajor_val_two, Shape.rowMajor_val_one]
  show 0 * n + (y 0).val = (y 0).val
  rw [Nat.zero_mul, Nat.zero_add]

/-! ## The slots -/

theorem W0_emb (y : S128x128.Idx) :
    ((W0).view.emb y : S2x128x128.Idx) = ix3 (n0 := 2) (n1 := 128) (n2 := 128) ⟨0, by decide⟩ (y 0) (y 1) := by
  show (Rect.unit (s := S2x128x128) ![0, 0, 0] S1x128x128.size inb_S2x128x128_S1x128x128_0_0_0).emb (Shape.reshapeEquiv _ y) = _
  rw [reshapeEquiv_squeeze3]
  funext a; apply Fin.ext
  match a with
  | ⟨0, _⟩ => rfl
  | ⟨1, _⟩ => show 0 + 1 * (y 0).val = (y 0).val; omega
  | ⟨2, _⟩ => show 0 + 1 * (y 1).val = (y 1).val; omega

theorem W1_emb (y : S128x128.Idx) :
    ((W1).view.emb y : S2x128x128.Idx) = ix3 (n0 := 2) (n1 := 128) (n2 := 128) ⟨1, by decide⟩ (y 0) (y 1) := by
  show (Rect.unit (s := S2x128x128) ![1, 0, 0] S1x128x128.size inb_S2x128x128_S1x128x128_1_0_0).emb (Shape.reshapeEquiv _ y) = _
  rw [reshapeEquiv_squeeze3]
  funext a; apply Fin.ext
  match a with
  | ⟨0, _⟩ => rfl
  | ⟨1, _⟩ => show 0 + 1 * (y 0).val = (y 0).val; omega
  | ⟨2, _⟩ => show 0 + 1 * (y 1).val = (y 1).val; omega

theorem C0_emb (y : S128x64.Idx) :
    ((C0).view.emb y : S2x128x64.Idx) = ix3 (n0 := 2) (n1 := 128) (n2 := 64) ⟨0, by decide⟩ (y 0) (y 1) := by
  show (Rect.unit (s := S2x128x64) ![0, 0, 0] S1x128x64.size inb_S2x128x64_S1x128x64_0_0_0).emb (Shape.reshapeEquiv _ y) = _
  rw [reshapeEquiv_squeeze3]
  funext a; apply Fin.ext
  match a with
  | ⟨0, _⟩ => rfl
  | ⟨1, _⟩ => show 0 + 1 * (y 0).val = (y 0).val; omega
  | ⟨2, _⟩ => show 0 + 1 * (y 1).val = (y 1).val; omega

theorem C1_emb (y : S128x64.Idx) :
    ((C1).view.emb y : S2x128x64.Idx) = ix3 (n0 := 2) (n1 := 128) (n2 := 64) ⟨1, by decide⟩ (y 0) (y 1) := by
  show (Rect.unit (s := S2x128x64) ![1, 0, 0] S1x128x64.size inb_S2x128x64_S1x128x64_1_0_0).emb (Shape.reshapeEquiv _ y) = _
  rw [reshapeEquiv_squeeze3]
  funext a; apply Fin.ext
  match a with
  | ⟨0, _⟩ => rfl
  | ⟨1, _⟩ => show 0 + 1 * (y 0).val = (y 0).val; omega
  | ⟨2, _⟩ => show 0 + 1 * (y 1).val = (y 1).val; omega

/-! ## The subcore's index words and its chunks of the result -/

section Arrays
variable (L : grid0.Coords)

/-- Word y of the subcore's 512 is word 512 c + y of row s of the index array. -/
theorem iRowK_emb_val (y : S512.Idx) :
    (((iRowK L).view.emb y : S16x1024.Idx) 0).val = (L 1).val
      ∧ (((iRowK L).view.emb y : S16x1024.Idx) 1).val = 512 * (L 0).val + (y 0).val := by
  have e : (iRowK L).view.emb y
      = (Rect.unit (s := S16x1024) (k0_off1 L) S1x512.size (k0_off1_inb L)).emb (Shape.reshapeEquiv squeezes_S1x512_S512.numel_eq y) := rfl
  rw [e, reshapeEquiv_squeeze2]
  have ho := k0_off1_eq L
  constructor
  · show k0_off1 L 0 + 1 * 0 = _
    rw [ho]; rfl
  · show k0_off1 L 1 + 1 * (y 0).val = _
    rw [ho]; show 512 * (L 0).val + 1 * (y 0).val = _; omega

/-- Element (y₀, y₁) of chunk r of the result is element (s, 512 c + 128 r + y₀, y₁) of the result. -/
theorem oC_emb_val (r : Fin 4) (w : BitVec 32) (hw : w = BitVec.ofNat 32 (128 * r.val)) (h) (y : S128x64.Idx) :
    (((oC L w h).view.emb y : S16x1024x64.Idx) 0).val = (L 1).val
      ∧ (((oC L w h).view.emb y : S16x1024x64.Idx) 1).val = 512 * (L 0).val + 128 * r.val + (y 0).val
      ∧ (((oC L w h).view.emb y : S16x1024x64.Idx) 2).val = (y 1).val := by
  subst hw
  have e : (oC L (BitVec.ofNat 32 (128 * r.val)) h).view.emb y
      = (Rect.unit (s := S16x1024x64) (k0_off10 L (BitVec.ofNat 32 (128 * r.val))) S1x128x64.size h).emb
          (Shape.reshapeEquiv squeezes_S1x128x64_S128x64.numel_eq y) := rfl
  rw [e, reshapeEquiv_squeeze3]
  have ho := k0_off10_eq L r
  refine ⟨?_, ?_, ?_⟩
  · show k0_off10 L (BitVec.ofNat 32 (128 * r.val)) 0 + 1 * 0 = _
    rw [ho]; rfl
  · show k0_off10 L (BitVec.ofNat 32 (128 * r.val)) 1 + 1 * (y 0).val = _
    rw [ho]; show 512 * (L 0).val + 128 * r.val + 1 * (y 0).val = _; omega
  · show k0_off10 L (BitVec.ofNat 32 (128 * r.val)) 2 + 1 * (y 1).val = _
    rw [ho]; show 0 + 1 * (y 1).val = _; omega

end Arrays

end Cert.Proof.Kernel

end
-- ==== Proof.KBodyOut.lean ====
/-
  A compacted chunk copied out. Chunk c of the subcore's part of the result is rows [512 c' + 128 c, 512 c' + 128 c + 128)
  of plane s; written whole with what a slot of the compact scratch holds, its element (s, 512 c' + 128 c + i, l) takes
  the slot's element (b, i, l), which is the table's entry (idx[s, 512 c' + 128 c + i], l) when the slot holds chunk c's
  compacted rows: the lookup read off the padded table.
-/
import proofs.«206562_g3805341024366_cont_8to1_b_1019_21_alg».proof.Proof.KBodyEmb

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Out
variable (m : (ℓ : Loc nD τ sig) → Buf (Elt F) ℓ) (d : Dev nD) (L : grid0.Coords) (Tb : Buf (Elt F) (tLoc d))

theorem out_C0' (c : Fin 4) (w : BitVec 32) (hw : w = BitVec.ofNat 32 (128 * c.val)) (h) (f0 : Buf (Elt F) (oLoc d))
    (fc : Buf (Elt F) (rcLoc d L)) (hfc : ∀ j : S2x128x64.Idx, (j 0).val = 0 → fc j = cleanC m d L Tb c j) :
    ∀ j ∈ (oC L w h).view.set,
      ((oC L w h).view.writes (Elt F) f0 [⟨Rect.whole S128x64, ReadAs.same.apply ((C0).view.read (Elt F) fc)⟩]) j
        = lookT (m (iLoc d)) Tb j := by
  intro j hj
  subst hw
  have hset : (oC L (BitVec.ofNat 32 (128 * c.val)) h).view.set
      = (Rect.unit (s := S16x1024x64) (k0_off10 L (BitVec.ofNat 32 (128 * c.val))) S1x128x64.size h).set :=
    (View.set_reshape _ _).trans (View.set_slice_whole _ _)
  rw [hset, mem_unit3, k0_off10_eq L c] at hj
  obtain ⟨⟨a0, a1⟩, ⟨b0, b1⟩, -⟩ := hj
  have a0' : (L 1).val ≤ (j 0).val := a0
  have a1' : (j 0).val < (L 1).val + 1 := a1
  have b0' : 512 * (L 0).val + 128 * c.val ≤ (j 1).val := b0
  have b1' : (j 1).val < 512 * (L 0).val + 128 * c.val + 128 := b1
  let x : S128x64.Idx := ix2 (n0 := 128) (n1 := 64) ⟨(j 1).val - (512 * (L 0).val + 128 * c.val), by omega⟩ (j 2)
  obtain ⟨e0, e1, e2⟩ := oC_emb_val L c _ rfl h x
  have hjx : j = ((oC L (BitVec.ofNat 32 (128 * c.val)) h).view.slice (Rect.whole S128x64)).emb x := by
    show j = (oC L (BitVec.ofNat 32 (128 * c.val)) h).view.emb ((Rect.whole S128x64).emb x)
    rw [Rect.emb_whole_apply]
    funext a; apply Fin.ext
    match a with
    | ⟨0, _⟩ => exact (by omega : (j 0).val = (L 1).val).trans e0.symm
    | ⟨1, _⟩ =>
      refine Eq.trans ?_ e1.symm
      show (j 1).val = 512 * (L 0).val + 128 * c.val + ((j 1).val - (512 * (L 0).val + 128 * c.val))
      omega
    | ⟨2, _⟩ => exact e2.symm
  rw [View.writes_singleton]
  refine (congrArg (View.write (Elt F) ((oC L (BitVec.ofNat 32 (128 * c.val)) h).view.slice (Rect.whole S128x64)) f0 _ Finset.univ) hjx).trans
    ((View.write_emb_of_mem (v := (oC L (BitVec.ofNat 32 (128 * c.val)) h).view.slice (Rect.whole S128x64)) (Val := Elt F) f0 _
      (Finset.mem_univ x)).trans ?_)
  show fc ((C0).view.emb x) = lookT (m (iLoc d)) Tb j
  rw [C0_emb, hfc _ rfl]
  have hword : wordAt m d L c (x 0) = m (iLoc d) (ix2 (j 0) (j 1)) := by
    unfold wordAt
    refine congrArg (m (iLoc d)) (funext fun a => Fin.ext ?_)
    match a with
    | ⟨0, _⟩ => show (L 1).val = (j 0).val; omega
    | ⟨1, _⟩ =>
      show 512 * (L 0).val + 128 * c.val + ((j 1).val - (512 * (L 0).val + 128 * c.val)) = (j 1).val
      omega
  show Tb (ix2 (Cert.Spec.rowOf (wordAt m d L c (x 0))) ((j 2).castLE _)) = Tb (ix2 (Cert.Spec.rowOf (m (iLoc d) (ix2 (j 0) (j 1)))) ((j 2).castLE _))
  rw [hword]

theorem out_C1' (c : Fin 4) (w : BitVec 32) (hw : w = BitVec.ofNat 32 (128 * c.val)) (h) (f0 : Buf (Elt F) (oLoc d))
    (fc : Buf (Elt F) (rcLoc d L)) (hfc : ∀ j : S2x128x64.Idx, (j 0).val = 1 → fc j = cleanC m d L Tb c j) :
    ∀ j ∈ (oC L w h).view.set,
      ((oC L w h).view.writes (Elt F) f0 [⟨Rect.whole S128x64, ReadAs.same.apply ((C1).view.read (Elt F) fc)⟩]) j
        = lookT (m (iLoc d)) Tb j := by
  intro j hj
  subst hw
  have hset : (oC L (BitVec.ofNat 32 (128 * c.val)) h).view.set
      = (Rect.unit (s := S16x1024x64) (k0_off10 L (BitVec.ofNat 32 (128 * c.val))) S1x128x64.size h).set :=
    (View.set_reshape _ _).trans (View.set_slice_whole _ _)
  rw [hset, mem_unit3, k0_off10_eq L c] at hj
  obtain ⟨⟨a0, a1⟩, ⟨b0, b1⟩, -⟩ := hj
  have a0' : (L 1).val ≤ (j 0).val := a0
  have a1' : (j 0).val < (L 1).val + 1 := a1
  have b0' : 512 * (L 0).val + 128 * c.val ≤ (j 1).val := b0
  have b1' : (j 1).val < 512 * (L 0).val + 128 * c.val + 128 := b1
  let x : S128x64.Idx := ix2 (n0 := 128) (n1 := 64) ⟨(j 1).val - (512 * (L 0).val + 128 * c.val), by omega⟩ (j 2)
  obtain ⟨e0, e1, e2⟩ := oC_emb_val L c _ rfl h x
  have hjx : j = ((oC L (BitVec.ofNat 32 (128 * c.val)) h).view.slice (Rect.whole S128x64)).emb x := by
    show j = (oC L (BitVec.ofNat 32 (128 * c.val)) h).view.emb ((Rect.whole S128x64).emb x)
    rw [Rect.emb_whole_apply]
    funext a; apply Fin.ext
    match a with
    | ⟨0, _⟩ => exact (by omega : (j 0).val = (L 1).val).trans e0.symm
    | ⟨1, _⟩ =>
      refine Eq.trans ?_ e1.symm
      show (j 1).val = 512 * (L 0).val + 128 * c.val + ((j 1).val - (512 * (L 0).val + 128 * c.val))
      omega
    | ⟨2, _⟩ => exact e2.symm
  rw [View.writes_singleton]
  refine (congrArg (View.write (Elt F) ((oC L (BitVec.ofNat 32 (128 * c.val)) h).view.slice (Rect.whole S128x64)) f0 _ Finset.univ) hjx).trans
    ((View.write_emb_of_mem (v := (oC L (BitVec.ofNat 32 (128 * c.val)) h).view.slice (Rect.whole S128x64)) (Val := Elt F) f0 _
      (Finset.mem_univ x)).trans ?_)
  show fc ((C1).view.emb x) = lookT (m (iLoc d)) Tb j
  rw [C1_emb, hfc _ rfl]
  have hword : wordAt m d L c (x 0) = m (iLoc d) (ix2 (j 0) (j 1)) := by
    unfold wordAt
    refine congrArg (m (iLoc d)) (funext fun a => Fin.ext ?_)
    match a with
    | ⟨0, _⟩ => show (L 1).val = (j 0).val; omega
    | ⟨1, _⟩ =>
      show 512 * (L 0).val + 128 * c.val + ((j 1).val - (512 * (L 0).val + 128 * c.val)) = (j 1).val
      omega
  show Tb (ix2 (Cert.Spec.rowOf (wordAt m d L c (x 0))) ((j 2).castLE _)) = Tb (ix2 (Cert.Spec.rowOf (m (iLoc d) (ix2 (j 0) (j 1)))) ((j 2).castLE _))
  rw [hword]

end Out

end Cert.Proof.Kernel

end
-- ==== Proof.KBodyLand.lean ====
/-
  A chunk's gather landed. The gather of chunk c reads, for row i of the destination, the i-th word of the offset list
  — the subcore's 128 index words at offset 128 c of its 512, which are the index array's words (s, 512 c' + 128 c + i) —
  and delivers the table row that word names, all 128 columns. Written whole through a slot of the row scratch, it
  leaves at element (b, i, l) of the slot the table's entry (idx[s, 512 c' + 128 c + i], l): chunk c's rows.
-/
import proofs.«206562_g3805341024366_cont_8to1_b_1019_21_alg».proof.Proof.KBodyEmb

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Land
variable (m : (ℓ : Loc nD τ sig) → Buf (Elt F) ℓ) (d : Dev nD) (L : grid0.Coords) (Tb : Buf (Elt F) (tLoc d))

/-- Entry k of a one-axis array's row-major order is its index k. -/
theorem rowMajor_symm_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- The offset list of chunk c: word y is the index word at position y of chunk c. -/
theorem list_apply (c : Fin 4) (fs : Buf (Elt F) (sLoc d L)) (off : Fin 1 → ℕ) (h : ∀ a, off a + S128.size a ≤ S512.size a)
    (hoff : off 0 = 128 * c.val) (y : S128.Idx) :
    (((sV).slice (Rect.unit (s := S512) off S128.size h) (fun _ => rfl)).view.read (Elt F)
        (View.write (Elt F) (sV).view fs (ReadAs.same.apply ((iRowK L).view.read (Elt F) (m (iLoc d)))) Finset.univ)) y
      = wordAt m d L c (y 0) := by
  have e : View.write (Elt F) (sV).view fs (ReadAs.same.apply ((iRowK L).view.read (Elt F) (m (iLoc d)))) Finset.univ
      = ReadAs.same.apply ((iRowK L).view.read (Elt F) (m (iLoc d))) := View.write_whole_univ _ _ _
  rw [e]
  show m (iLoc d) ((iRowK L).view.emb ((Rect.unit (s := S512) off S128.size h).emb y)) = _
  unfold wordAt
  refine congrArg (m (iLoc d)) (funext fun a => Fin.ext ?_)
  obtain ⟨e0, e1⟩ := iRowK_emb_val L ((Rect.unit (s := S512) off S128.size h).emb y)
  match a with
  | ⟨0, _⟩ => exact e0
  | ⟨1, _⟩ =>
    refine e1.trans ?_
    show 512 * (L 0).val + (off 0 + 1 * (y 0).val) = 512 * (L 0).val + 128 * c.val + (y 0).val
    omega

/-- The rows gathered for chunk c, as the transfer delivers them. -/
abbrev gatherPay' (fs : Buf (Elt F) (sLoc d L)) (off : Fin 1 → ℕ) (h : ∀ a, off a + S128.size a ≤ S512.size a)
    (hn : S128.numel = S128x128.size gathers_S8192x128_S128x128.axis')
    (hin : ∀ x, (((sV).slice (Rect.unit (s := S512) off S128.size h) (fun _ => rfl)).view.read (Elt F)
        (View.write (Elt F) (sV).view fs (ReadAs.same.apply ((iRowK L).view.read (Elt F) (m (iLoc d)))) Finset.univ) x).toNat
          < S8192x128.size gathers_S8192x128_S128x128.axis) : S128x128.Idx → Elt F .f32 :=
  SparseCore.gatherPayload gathers_S8192x128_S128x128
    (((tV).slice (Rect.unit (s := S8192x128) ![0, 0] S8192x128.size inb_S8192x128_S8192x128_0_0) (fun _ => rfl)).view.read (Elt F) Tb)
    (SparseCore.rows (((sV).slice (Rect.unit (s := S512) off S128.size h) (fun _ => rfl)).view.read (Elt F)
        (View.write (Elt F) (sV).view fs (ReadAs.same.apply ((iRowK L).view.read (Elt F) (m (iLoc d)))) Finset.univ)) hn hin)

/-- The table read through its whole rectangle is the table. -/
theorem table_read :
    ((tV).slice (Rect.unit (s := S8192x128) ![0, 0] S8192x128.size inb_S8192x128_S8192x128_0_0) (fun _ => rfl)).view.read (Elt F) Tb = Tb :=
  Memref.read_access_unit_zero (Elt F) main_v0_scv (funext fun a => by match a with | ⟨0, _⟩ => rfl | ⟨1, _⟩ => rfl) _ Tb

/-- THE GATHER'S PAYLOAD at (i, l): entry l of the table row the i-th index word of chunk c names. -/
theorem pay_apply (c : Fin 4) (fs : Buf (Elt F) (sLoc d L)) (off : Fin 1 → ℕ) (h : ∀ a, off a + S128.size a ≤ S512.size a)
    (hoff : off 0 = 128 * c.val) (hn) (hin) (x : S128x128.Idx) :
    gatherPay' m d L Tb fs off h hn hin x = Tb (ix2 (Cert.Spec.rowOf (wordAt m d L c (x 0))) (x 1)) := by
  unfold gatherPay' SparseCore.gatherPayload
  rw [table_read]
  -- the word of row i is below the table's height
  have hlt : (wordAt m d L c (x 0)).toNat < 8192 := by
    have h1 := hin (ix1 (n := 128) (x 0))
    rw [list_apply m d L c fs off h hoff] at h1
    exact h1
  refine congrArg Tb (funext fun a => Fin.ext ?_)
  match a with
  | ⟨0, _⟩ =>
    show (gathers_S8192x128_S128x128.idx _ x gathers_S8192x128_S128x128.axis).val = _
    rw [Shape.Gathers.idx_axis]
    show ((((sV).slice (Rect.unit (s := S512) off S128.size h) (fun _ => rfl)).view.read (Elt F)
        (View.write (Elt F) (sV).view fs (ReadAs.same.apply ((iRowK L).view.read (Elt F) (m (iLoc d)))) Finset.univ))
          (S128.rowMajor.symm ((x gathers_S8192x128_S128x128.axis').cast hn.symm))).toNat = (Cert.Spec.rowOf (wordAt m d L c (x 0))).val
    rw [list_apply m d L c fs off h hoff, Cert.Spec.rowOf_val_of_lt _ hlt]
    refine congrArg (fun i => (wordAt m d L c i).toNat) (Fin.ext ?_)
    exact rowMajor_symm_one (n := 128) _
  | ⟨1, _⟩ =>
    exact Shape.Gathers.idx_of_ne gathers_S8192x128_S128x128 _ x ⟨1, by decide⟩ (by decide)

/-- Chunk c's gather landed in slot 0: every element of the slot holds its entry of chunk c's rows. -/
theorem land_W0' (c : Fin 4) (fs : Buf (Elt F) (sLoc d L)) (off : Fin 1 → ℕ) (h : ∀ a, off a + S128.size a ≤ S512.size a)
    (hoff : off 0 = 128 * c.val) (hn) (hin) (base : Buf (Elt F) ((W0).view.loc (thrV d L))) :
    ∀ j ∈ (W0).view.set,
      ((W0).view.writes (Elt F) base [⟨Rect.whole S128x128, gatherPay' m d L Tb fs off h hn hin⟩]) j = cleanW m d L Tb c j := by
  intro j hj
  have hj0 := (mem_W0' j).mp hj
  let x : S128x128.Idx := ix2 (n0 := 128) (n1 := 128) (j 1) (j 2)
  have hjx : j = ((W0).view.slice (Rect.whole S128x128)).emb x := by
    show j = (W0).view.emb ((Rect.whole S128x128).emb x)
    rw [Rect.emb_whole_apply, W0_emb]
    funext a; apply Fin.ext
    match a with
    | ⟨0, _⟩ => exact hj0
    | ⟨1, _⟩ => rfl
    | ⟨2, _⟩ => rfl
  rw [View.writes_singleton]
  refine (congrArg (View.write (Elt F) ((W0).view.slice (Rect.whole S128x128)) base _ Finset.univ) hjx).trans
    ((View.write_emb_of_mem (v := (W0).view.slice (Rect.whole S128x128)) (Val := Elt F) base _ (Finset.mem_univ x)).trans ?_)
  show gatherPay' m d L Tb fs off h hn hin x = cleanW m d L Tb c j
  exact pay_apply m d L Tb c fs off h hoff hn hin x

/-- The same for slot 1. -/
theorem land_W1' (c : Fin 4) (fs : Buf (Elt F) (sLoc d L)) (off : Fin 1 → ℕ) (h : ∀ a, off a + S128.size a ≤ S512.size a)
    (hoff : off 0 = 128 * c.val) (hn) (hin) (base : Buf (Elt F) ((W1).view.loc (thrV d L))) :
    ∀ j ∈ (W1).view.set,
      ((W1).view.writes (Elt F) base [⟨Rect.whole S128x128, gatherPay' m d L Tb fs off h hn hin⟩]) j = cleanW m d L Tb c j := by
  intro j hj
  have hj0 := (mem_W1' j).mp hj
  let x : S128x128.Idx := ix2 (n0 := 128) (n1 := 128) (j 1) (j 2)
  have hjx : j = ((W1).view.slice (Rect.whole S128x128)).emb x := by
    show j = (W1).view.emb ((Rect.whole S128x128).emb x)
    rw [Rect.emb_whole_apply, W1_emb]
    funext a; apply Fin.ext
    match a with
    | ⟨0, _⟩ => exact hj0
    | ⟨1, _⟩ => rfl
    | ⟨2, _⟩ => rfl
  rw [View.writes_singleton]
  refine (congrArg (View.write (Elt F) ((W1).view.slice (Rect.whole S128x128)) base _ Finset.univ) hjx).trans
    ((View.write_emb_of_mem (v := (W1).view.slice (Rect.whole S128x128)) (Val := Elt F) base _ (Finset.mem_univ x)).trans ?_)
  show gatherPay' m d L Tb fs off h hn hin x = cleanW m d L Tb c j
  exact pay_apply m d L Tb c fs off h hoff hn hin x

end Land

end Cert.Proof.Kernel

end
-- ==== Proof.KBodyLemmas.lean ====
/-
  The value facts the task's run cites, gathered under the names it uses: the two slots of each scratch are complementary
  planes; a landed gather leaves its slot holding the chunk's rows; one trip of a compaction loop extends the compacted
  rows by one; a compact slot copied out is the lookup on its 128 rows of the result.
-/
import proofs.«206562_g3805341024366_cont_8to1_b_1019_21_alg».proof.Proof.KBodyStep
import proofs.«206562_g3805341024366_cont_8to1_b_1019_21_alg».proof.Proof.KBodyOut
import proofs.«206562_g3805341024366_cont_8to1_b_1019_21_alg».proof.Proof.KBodyLand

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The slots split each scratch in two -/

theorem slotW_compl : (Finset.univ \ (W0).view.set) = (W1).view.set := slotW_compl'

theorem slotC_compl : (Finset.univ \ (C0).view.set) = (C1).view.set := slotC_compl'

section Vals
variable (m : (ℓ : Loc nD τ sig) → Buf (Elt F) ℓ) (d : Dev nD) (L : grid0.Coords) (Tb : Buf (Elt F) (tLoc d))

/-- The rows gathered for chunk `c`, as the transfer delivers them. -/
abbrev gatherPay (fs : Buf (Elt F) (sLoc d L)) (off : Fin 1 → ℕ) (h : ∀ a, off a + S128.size a ≤ S512.size a)
    (hn : S128.numel = S128x128.size gathers_S8192x128_S128x128.axis')
    (hin : ∀ x, (((sV).slice (Rect.unit (s := S512) off S128.size h) (fun _ => rfl)).view.read (Elt F)
        (View.write (Elt F) (sV).view fs (ReadAs.same.apply ((iRowK L).view.read (Elt F) (m (iLoc d)))) Finset.univ) x).toNat
          < S8192x128.size gathers_S8192x128_S128x128.axis) : S128x128.Idx → Elt F .f32 :=
  SparseCore.gatherPayload gathers_S8192x128_S128x128
    (((tV).slice (Rect.unit (s := S8192x128) ![0, 0] S8192x128.size inb_S8192x128_S8192x128_0_0) (fun _ => rfl)).view.read (Elt F) Tb)
    (SparseCore.rows (((sV).slice (Rect.unit (s := S512) off S128.size h) (fun _ => rfl)).view.read (Elt F)
        (View.write (Elt F) (sV).view fs (ReadAs.same.apply ((iRowK L).view.read (Elt F) (m (iLoc d)))) Finset.univ)) hn hin)

/-- Chunk `c`'s gather landed in slot 0: every element of the slot holds its entry of `cleanW c`. -/
theorem land_W0 (c : Fin 4) (fs : Buf (Elt F) (sLoc d L)) (off : Fin 1 → ℕ) (h : ∀ a, off a + S128.size a ≤ S512.size a)
    (hoff : off 0 = 128 * c.val) (hn) (hin) (base : Buf (Elt F) ((W0).view.loc (thrV d L))) :
    ∀ j ∈ (W0).view.set,
      ((W0).view.writes (Elt F) base [⟨Rect.whole S128x128, gatherPay m d L Tb fs off h hn hin⟩]) j = cleanW m d L Tb c j :=
  land_W0' m d L Tb c fs off h hoff hn hin base

/-- The same for slot 1. -/
theorem land_W1 (c : Fin 4) (fs : Buf (Elt F) (sLoc d L)) (off : Fin 1 → ℕ) (h : ∀ a, off a + S128.size a ≤ S512.size a)
    (hoff : off 0 = 128 * c.val) (hn) (hin) (base : Buf (Elt F) ((W1).view.loc (thrV d L))) :
    ∀ j ∈ (W1).view.set,
      ((W1).view.writes (Elt F) base [⟨Rect.whole S128x128, gatherPay m d L Tb fs off h hn hin⟩]) j = cleanW m d L Tb c j :=
  land_W1' m d L Tb c fs off h hoff hn hin base

/-- What a trip's store carries: the sixteen lanes it loaded, through two casts of shape that undo each other. -/
abbrev lanes (x : Vec F S1x1x16 .f32) : FVec F S1x1x16 .f32 :=
  shapeCast S1x1x16 (shapeCast S16 x shapeCasts_S1x1x16_S16) shapeCasts_S16_S1x1x16

/-- One trip of a compaction loop on slot `b` (0 or 1), at row `k`: four loads of sixteen lanes from the row scratch
    and four stores into the compact scratch. If the row scratch's slot holds chunk `c`'s rows and the compact
    scratch's slot holds chunk `c`'s compacted rows below row `k`, then after the trip it holds them below row `k + 1`. -/
theorem step_slot (b : Fin 2) (c : Fin 4) (k : ℕ) (hk : k < 128)
    (oW0 oW1 oW2 oW3 oC0 oC1 oC2 oC3 : Fin 3 → ℕ)
    (hW0 : oW0 = ![b.val, k, 0]) (hW1 : oW1 = ![b.val, k, 16]) (hW2 : oW2 = ![b.val, k, 32]) (hW3 : oW3 = ![b.val, k, 48])
    (hC0 : oC0 = ![b.val, k, 0]) (hC1 : oC1 = ![b.val, k, 16]) (hC2 : oC2 = ![b.val, k, 32]) (hC3 : oC3 = ![b.val, k, 48])
    (iW0 : ∀ a, oW0 a + S1x1x16.size a ≤ S2x128x128.size a) (iW1 : ∀ a, oW1 a + S1x1x16.size a ≤ S2x128x128.size a)
    (iW2 : ∀ a, oW2 a + S1x1x16.size a ≤ S2x128x128.size a) (iW3 : ∀ a, oW3 a + S1x1x16.size a ≤ S2x128x128.size a)
    (iC0 : ∀ a, oC0 a + S1x1x16.size a ≤ S2x128x64.size a) (iC1 : ∀ a, oC1 a + S1x1x16.size a ≤ S2x128x64.size a)
    (iC2 : ∀ a, oC2 a + S1x1x16.size a ≤ S2x128x64.size a) (iC3 : ∀ a, oC3 a + S1x1x16.size a ≤ S2x128x64.size a)
    (gw : Buf (Elt F) (rwLoc d L)) (hgw : ∀ j : S2x128x128.Idx, (j 0).val = b.val → gw j = cleanW m d L Tb c j)
    (f : Buf (Elt F) (rcLoc d L)) (hf : ∀ j : S2x128x64.Idx, (j 0).val = b.val → (j 1).val < k → f j = cleanC m d L Tb c j) :
    ∀ j : S2x128x64.Idx, (j 0).val = b.val → (j 1).val < k + 1 →
      (View.write (Elt F) ((rcV).access (Rect.unit (s := S2x128x64) oC3 S1x1x16.size iC3))
        (View.write (Elt F) ((rcV).access (Rect.unit (s := S2x128x64) oC2 S1x1x16.size iC2))
          (View.write (Elt F) ((rcV).access (Rect.unit (s := S2x128x64) oC1 S1x1x16.size iC1))
            (View.write (Elt F) ((rcV).access (Rect.unit (s := S2x128x64) oC0 S1x1x16.size iC0)) f
              (lanes (View.readAt (Elt F) (rwV).view (Rect.unit (s := S2x128x128) oW0 S1x1x16.size iW0).toLoadRect gw)) Finset.univ)
            (lanes (View.readAt (Elt F) (rwV).view (Rect.unit (s := S2x128x128) oW1 S1x1x16.size iW1).toLoadRect gw)) Finset.univ)
          (lanes (View.readAt (Elt F) (rwV).view (Rect.unit (s := S2x128x128) oW2 S1x1x16.size iW2).toLoadRect gw)) Finset.univ)
        (lanes (View.readAt (Elt F) (rwV).view (Rect.unit (s := S2x128x128) oW3 S1x1x16.size iW3).toLoadRect gw)) Finset.univ) j
      = cleanC m d L Tb c j :=
  step_slot' m d L Tb b c k hk oW0 oW1 oW2 oW3 oC0 oC1 oC2 oC3 hW0 hW1 hW2 hW3 hC0 hC1 hC2 hC3 iW0 iW1 iW2 iW3 iC0 iC1 iC2 iC3 gw hgw f hf

/-- The elements of a slot are the indices of its plane. -/
theorem mem_W0 (j : S2x128x128.Idx) : j ∈ (W0).view.set ↔ (j 0).val = 0 := mem_W0' j
theorem mem_W1 (j : S2x128x128.Idx) : j ∈ (W1).view.set ↔ (j 0).val = 1 := mem_W1' j
theorem mem_C0 (j : S2x128x64.Idx) : j ∈ (C0).view.set ↔ (j 0).val = 0 := mem_C0' j
theorem mem_C1 (j : S2x128x64.Idx) : j ∈ (C1).view.set ↔ (j 0).val = 1 := mem_C1' j

/-- A compacted chunk copied out: the 128 rows of the result at word offset `w = 128 c` hold the lookup read off the
    padded table, when slot `b` of the compact scratch holds chunk `c`'s compacted rows. -/
theorem out_C0 (c : Fin 4) (w : BitVec 32) (hw : w = BitVec.ofNat 32 (128 * c.val)) (h) (f0 : Buf (Elt F) (oLoc d))
    (fc : Buf (Elt F) (rcLoc d L)) (hfc : ∀ j : S2x128x64.Idx, (j 0).val = 0 → fc j = cleanC m d L Tb c j) :
    ∀ j ∈ (oC L w h).view.set,
      ((oC L w h).view.writes (Elt F) f0 [⟨Rect.whole S128x64, ReadAs.same.apply ((C0).view.read (Elt F) fc)⟩]) j
        = lookT (m (iLoc d)) Tb j :=
  out_C0' m d L Tb c w hw h f0 fc hfc

theorem out_C1 (c : Fin 4) (w : BitVec 32) (hw : w = BitVec.ofNat 32 (128 * c.val)) (h) (f0 : Buf (Elt F) (oLoc d))
    (fc : Buf (Elt F) (rcLoc d L)) (hfc : ∀ j : S2x128x64.Idx, (j 0).val = 1 → fc j = cleanC m d L Tb c j) :
    ∀ j ∈ (oC L w h).view.set,
      ((oC L w h).view.writes (Elt F) f0 [⟨Rect.whole S128x64, ReadAs.same.apply ((C1).view.read (Elt F) fc)⟩]) j
        = lookT (m (iLoc d)) Tb j :=
  out_C1' m d L Tb c w hw h f0 fc hfc

end Vals

end Cert.Proof.Kernel

end
-- ==== Proof.KBodyFacts.lean ====
import proofs.«206562_g3805341024366_cont_8to1_b_1019_21_alg».proof.Proof.KOwn

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The index words a subcore copied to its scratch name table rows -/

/-- Every 128-word stretch of the scratch list, once the subcore's index words have landed in it, holds words below
    8192: the stretch reads the landed words, the landed words are words of the index array, and the precondition
    bounds those. -/
theorem hin_slice (m : (ℓ : Loc nD τ sig) → Buf (Elt F) ℓ) (d : Dev nD) (L : grid0.Coords) (hpre : PreOK m)
    (fs : Buf (Elt F) (sLoc d L)) (pay : S512.Idx → Elt F .i32)
    (hpay : pay = (iRowK L).view.read (Elt F) (m (iLoc d)))
    (off : Fin 1 → ℕ) (h : ∀ a, off a + S128.size a ≤ S512.size a) :
    ∀ x, (((sV).slice (Rect.unit (s := S512) off S128.size h) (fun _ => rfl)).view.read (Elt F)
        (View.write (Elt F) (sV).view fs pay Finset.univ) x).toNat < S8192x128.size gathers_S8192x128_S128x128.axis := by
  subst hpay; intro x
  rw [View.write_whole_univ]
  rw [show ∀ j, ((sV).slice (Rect.unit (s := S512) off S128.size h) (fun _ => rfl)).view.read (Elt F)
        ((iRowK L).view.read (Elt F) (m (iLoc d))) j
      = (iRowK L).view.read (Elt F) (m (iLoc d)) (((sV).slice (Rect.unit (s := S512) off S128.size h) (fun _ => rfl)).view.emb j)
      from fun j => (View.read_apply _ _).trans (cast_eq _ _)]
  rw [show ∀ j, (iRowK L).view.read (Elt F) (m (iLoc d)) j = m (iLoc d) ((iRowK L).view.emb j) from
    fun j => (View.read_apply _ _).trans (cast_eq _ _)]
  exact hpre d _

end Cert.Proof.Kernel

end
-- ==== Proof.KBody.lean ====
/-
  One vector subcore's task, run once at a symbolic subcore `(L 0, L 1)`: it copies its 512 index words into its
  scratch list, and for each of four chunks of 128 words gathers the 128 table rows the words name into a slot of the
  row scratch (two slots, the next chunk's gather already under way), copies the first 64 columns of each row into the
  same slot of the compact scratch — a counted loop of 128 trips, four loads and four stores of sixteen lanes a trip —
  and sends that slot to its 128 rows of the result. Every transfer has its own semaphore per slot, and between a
  transfer's start and its wait nothing touches the buffers it moves, so the run is determined; the two gathers in
  flight at once each read the table through a share of their own.

  The values are carried along: once a gather has landed, its slot holds `cleanW c` (row `i` is the table row the
  chunk's `i`-th word names; the precondition makes every word a row); the loop's invariant says the compact slot
  holds `cleanC c` below the current row; and the rows sent out are the lookup read off the table. The arithmetic of
  these three facts is in the lemma modules; here is the run.
-/
import proofs.«206562_g3805341024366_cont_8to1_b_1019_21_alg».proof.Proof.KBodyLemmas
import proofs.«206562_g3805341024366_cont_8to1_b_1019_21_alg».proof.Proof.KBodyFacts

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

omit [FloatOps F] in
/-- A wait recorded at no index keeps the record admissible. -/
theorem ins_ok {thrW : Finset (SemLoc sig × HIx 1)} {W' : Finset (SemLoc sig × HIx 1)} (s : SemLoc sig)
    (h : ∀ p ∈ W', p ∈ thrW ∨ p.2 = none) : ∀ p ∈ insert (s, (default : HIx 1)) W', p ∈ thrW ∨ p.2 = none := by
  intro p hp
  rcases Finset.mem_insert.mp hp with hp | hp
  · exact .inr (hp ▸ rfl)
  · exact h p hp

omit [FloatOps F] in
/-- Two pieces of a buffer, a set and its complement, each at its own contents, are the buffer at some contents. -/
theorem join_compl {ℓ : Loc nD τ sig} (A : Finset (Idx ℓ)) (f g : Buf (Elt F) ℓ) :
    iprop((ℓ ↦[A]{fullShare} f) ∗ (ℓ ↦[Finset.univ \ A]{fullShare} g)) ⊢ (iprop(∃ h, ℓ ↦{fullShare} h) : sProp 𝕄) := by
  iintro ⟨H1, H2⟩
  iexists (fun j => if j ∈ A then f j else g j)
  iapply (pointsTo_split_subset (ℓ := ℓ) (q := fullShare) (f := fun j => if j ∈ A then f j else g j) (S := Finset.univ) (Finset.subset_univ A)).2
  isplitl [H1]
  · iapply (Entails.of_eq (pointsTo_congr (ℓ := ℓ) (I := A) (q := fullShare) (f := f) (g := fun j => if j ∈ A then f j else g j)
      (fun i hi => (if_pos hi).symm))); iexact H1
  · iapply (Entails.of_eq (pointsTo_congr (ℓ := ℓ) (I := Finset.univ \ A) (q := fullShare) (f := g) (g := fun j => if j ∈ A then f j else g j)
      (fun i hi => (if_neg (Finset.mem_sdiff.mp hi).2).symm))); iexact H2

theorem t1_trips : k0_t1_loop.trips = 128 := by decide
theorem t2_trips : k0_t2_loop.trips = 128 := by decide
theorem t3_trips : k0_t3_loop.trips = 128 := by decide
theorem t4_trips : k0_t4_loop.trips = 128 := by decide

set_option maxHeartbeats 4000000 in
theorem tile_body (hF : (K (F := F)).Facts) (m : (ℓ : Loc nD τ sig) → Buf (Elt F) ℓ) (hpre : PreOK m) : TileBody m := by
  intro d L tq Tb f0 O W hO
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Ht, Ho0, Ho1, Ho2, Ho3⟩, ⟨⟨%fs, Hs⟩, ⟨%fw, Hw'⟩, ⟨%fc, Hc'⟩, Hbufs⟩, ⟨HG0, HG1, HS0, HS1, HI, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hi' := (Entails.of_eq (show ((iRowK L).view.loc (thrV d L) ↦[(iRowK L).view.set]{fullShare} m (iLoc d) : sProp 𝕄) = iLoc d ↦[(iRowK L).view.set]{fullShare} m (iLoc d) from rfl).symm) $$ Hi
  ihave Hs' := (Entails.of_eq (show ((sV).view.loc (thrV d L) ↦{fullShare} fs : sProp 𝕄) = sLoc d L ↦{fullShare} fs from rfl).symm) $$ Hs
  ihave Htt := (pointsTo_share (ℓ := tLoc d) (I := Finset.univ) (f := Tb) (PosShare.mem_left_op_right tq)).1 $$ Ht
  icases Htt with ⟨Htl, Ht0⟩
  ihave Htt := (pointsTo_share (ℓ := tLoc d) (I := Finset.univ) (f := Tb) (PosShare.mem_left_op_right tq.left)).1 $$ Htl
  icases Htt with ⟨Htr, Ht1⟩
  ihave Ht0' := (Entails.of_eq (show ((tV).view.loc (thrV d L) ↦{Transfers.shareTokN tq 0} Tb : sProp 𝕄) = tLoc d ↦{tq.right} Tb from rfl).symm) $$ Ht0
  ihave Ht1' := (Entails.of_eq (show ((tV).view.loc (thrV d L) ↦{Transfers.shareTokN tq 1} Tb : sProp 𝕄) = tLoc d ↦{tq.left.right} Tb from rfl).symm) $$ Ht1
  ihave Hww := (pointsTo_split_subset (ℓ := rwLoc d L) (q := fullShare) (f := fw) (S := Finset.univ) (Finset.subset_univ (W0).view.set)).1 $$ Hw'
  icases Hww with ⟨Hw0, Hw1⟩
  ihave Hcc := (pointsTo_split_subset (ℓ := rcLoc d L) (q := fullShare) (f := fc) (S := Finset.univ) (Finset.subset_univ (C0).view.set)).1 $$ Hc'
  icases Hcc with ⟨Hc0, Hc1⟩
  ihave Hw0' := (Entails.of_eq (show ((W0).view.loc (thrV d L) ↦[(W0).view.set]{fullShare} fw : sProp 𝕄) = rwLoc d L ↦[(W0).view.set]{fullShare} fw from rfl).symm) $$ Hw0
  ihave Hc0' := (Entails.of_eq (show ((C0).view.loc (thrV d L) ↦[(C0).view.set]{fullShare} fc : sProp 𝕄) = rcLoc d L ↦[(C0).view.set]{fullShare} fc from rfl).symm) $$ Hc0
  ihave Hw1' := (Entails.of_eq (show ((W1).view.loc (thrV d L) ↦[(W1).view.set]{fullShare} fw : sProp 𝕄) = rwLoc d L ↦[Finset.univ \ (W0).view.set]{fullShare} fw from by rw [slotW_compl]).symm) $$ Hw1
  ihave Hc1' := (Entails.of_eq (show ((C1).view.loc (thrV d L) ↦[(C1).view.set]{fullShare} fc : sProp 𝕄) = rcLoc d L ↦[Finset.univ \ (C0).view.set]{fullShare} fc from by rw [slotC_compl]).symm) $$ Hc1
  ihave Ho0' := (Entails.of_eq (show ((oC0 L).view.loc (thrV d L) ↦[(oC0 L).view.set]{fullShare} f0 : sProp 𝕄) = oLoc d ↦[(oC0 L).view.set]{fullShare} f0 from rfl).symm) $$ Ho0
  ihave Ho1' := (Entails.of_eq (show ((oC1 L).view.loc (thrV d L) ↦[(oC1 L).view.set]{fullShare} f0 : sProp 𝕄) = oLoc d ↦[(oC1 L).view.set]{fullShare} f0 from rfl).symm) $$ Ho1
  ihave Ho2' := (Entails.of_eq (show ((oC2 L).view.loc (thrV d L) ↦[(oC2 L).view.set]{fullShare} f0 : sProp 𝕄) = oLoc d ↦[(oC2 L).view.set]{fullShare} f0 from rfl).symm) $$ Ho2
  ihave Ho3' := (Entails.of_eq (show ((oC3 L).view.loc (thrV d L) ↦[(oC3 L).view.set]{fullShare} f0 : sProp 𝕄) = oLoc d ↦[(oC3 L).view.set]{fullShare} f0 from rfl).symm) $$ Ho3
  sl_exec
  have hin0 := hin_slice m d L hpre fs (tile_body.sl.dma0 m d L) rfl ![0] inb_S512_S128_0
  have hin1 := hin_slice m d L hpre fs (tile_body.sl.dma0 m d L) rfl ![128] inb_S512_S128_128
  have hin2 := hin_slice m d L hpre fs (tile_body.sl.dma0 m d L) rfl ![256] inb_S512_S128_256
  have hin3 := hin_slice m d L hpre fs (tile_body.sl.dma0 m d L) rfl ![384] inb_S512_S128_384
  sl_exec
  ihave Hw0c := (Entails.of_eq (pointsTo_congr (q := fullShare) (land_W0 m d L Tb 0 fs ![0] inb_S512_S128_0 rfl _ hin0 _))) $$ Hw0'
  sl_for (fun (k : Nat) (_ : PUnit) => (iprop(((W0).view.loc (thrV d L) ↦[(W0).view.set]{fullShare} cleanW m d L Tb 0)
      ∗ ∃ f, ((C0).view.loc (thrV d L) ↦[(C0).view.set]{fullShare} f)
          ∗ ⌜∀ j : S2x128x64.Idx, (j 0).val = 0 → (j 1).val < k → f j = cleanC m d L Tb 0 j⌝) : sProp 𝕄)) $$ [Hw0c Hc0']
  case region =>
    intro k _
    have hk : k.val < 128 := lt_of_lt_of_le k.isLt k0_t1_abs.2.1
    iintro ⟨Hw, %f, Hc, %hf⟩
    sl_exec
    sl_step
    isplitl [Hw]; · iexact Hw
    iexists _; isplitl [Hc]; · iexact Hc
    ipureintro
    exact step_slot m d L Tb 0 0 k.val hk _ _ _ _ _ _ _ _
      (k0_off2_eq k) (k0_off4_eq k) (k0_off6_eq k) (k0_off8_eq k) (k0_off3_eq k) (k0_off5_eq k) (k0_off7_eq k) (k0_off9_eq k)
      _ _ _ _ _ _ _ _ (cleanW m d L Tb 0) (fun _ _ => rfl) f hf
  · isplitl [Hw0c]; · iexact Hw0c
    iexists _; isplitl [Hc0']; · iexact Hc0'
    ipureintro; intro j _ hj; exact absurd hj (Nat.not_lt_zero _)
  iintro %_ HI
  icases HI with ⟨Hw0c, %fc0, Hc0', %hfc0⟩
  sl_exec (disch := exact View.amount_pos _ _ (show 0 < S128x64.numel by decide))
  ihave Hw1c := (Entails.of_eq (pointsTo_congr (q := fullShare) (land_W1 m d L Tb 1 fs ![128] inb_S512_S128_128 rfl _ hin1 _))) $$ Hw1'
  sl_for (fun (k : Nat) (_ : PUnit) => (iprop(((W1).view.loc (thrV d L) ↦[(W1).view.set]{fullShare} cleanW m d L Tb 1)
      ∗ ∃ f, ((C1).view.loc (thrV d L) ↦[(C1).view.set]{fullShare} f)
          ∗ ⌜∀ j : S2x128x64.Idx, (j 0).val = 1 → (j 1).val < k → f j = cleanC m d L Tb 1 j⌝) : sProp 𝕄)) $$ [Hw1c Hc1']
  case region =>
    intro k _
    have hk : k.val < 128 := lt_of_lt_of_le k.isLt k0_t2_abs.2.1
    iintro ⟨Hw, %f, Hc, %hf⟩
    sl_exec
    sl_step
    isplitl [Hw]; · iexact Hw
    iexists _; isplitl [Hc]; · iexact Hc
    ipureintro
    exact step_slot m d L Tb 1 1 k.val hk _ _ _ _ _ _ _ _
      (k0_off11_eq k) (k0_off13_eq k) (k0_off15_eq k) (k0_off17_eq k) (k0_off12_eq k) (k0_off14_eq k) (k0_off16_eq k) (k0_off18_eq k)
      _ _ _ _ _ _ _ _ (cleanW m d L Tb 1) (fun _ _ => rfl) f hf
  · isplitl [Hw1c]; · iexact Hw1c
    iexists _; isplitl [Hc1']; · iexact Hc1'
    ipureintro; intro j _ hj; exact absurd hj (Nat.not_lt_zero _)
  iintro %_ HI
  icases HI with ⟨Hw1c, %fc1, Hc1', %hfc1⟩
  sl_exec (disch := exact View.amount_pos _ _ (show 0 < S128x64.numel by decide))
  ihave Hw0d := (Entails.of_eq (pointsTo_congr (q := fullShare) (land_W0 m d L Tb 2 fs ![256] inb_S512_S128_256 rfl _ hin2 _))) $$ Hw0c
  sl_for (fun (k : Nat) (_ : PUnit) => (iprop(((W0).view.loc (thrV d L) ↦[(W0).view.set]{fullShare} cleanW m d L Tb 2)
      ∗ ∃ f, ((C0).view.loc (thrV d L) ↦[(C0).view.set]{fullShare} f)
          ∗ ⌜∀ j : S2x128x64.Idx, (j 0).val = 0 → (j 1).val < k → f j = cleanC m d L Tb 2 j⌝) : sProp 𝕄)) $$ [Hw0d Hc0']
  case region =>
    intro k _
    have hk : k.val < 128 := lt_of_lt_of_le k.isLt k0_t3_abs.2.1
    iintro ⟨Hw, %f, Hc, %hf⟩
    sl_exec
    sl_step
    isplitl [Hw]; · iexact Hw
    iexists _; isplitl [Hc]; · iexact Hc
    ipureintro
    exact step_slot m d L Tb 0 2 k.val hk _ _ _ _ _ _ _ _
      (k0_off19_eq k) (k0_off21_eq k) (k0_off23_eq k) (k0_off25_eq k) (k0_off20_eq k) (k0_off22_eq k) (k0_off24_eq k) (k0_off26_eq k)
      _ _ _ _ _ _ _ _ (cleanW m d L Tb 2) (fun _ _ => rfl) f hf
  · isplitl [Hw0d]; · iexact Hw0d
    iexists _; isplitl [Hc0']; · iexact Hc0'
    ipureintro; intro j _ hj; exact absurd hj (Nat.not_lt_zero _)
  iintro %_ HI
  icases HI with ⟨Hw0d, %fc2, Hc0', %hfc2⟩
  sl_exec (disch := exact View.amount_pos _ _ (show 0 < S128x64.numel by decide))
  ihave Hw1d := (Entails.of_eq (pointsTo_congr (q := fullShare) (land_W1 m d L Tb 3 fs ![384] inb_S512_S128_384 rfl _ hin3 _))) $$ Hw1c
  sl_for (fun (k : Nat) (_ : PUnit) => (iprop(((W1).view.loc (thrV d L) ↦[(W1).view.set]{fullShare} cleanW m d L Tb 3)
      ∗ ∃ f, ((C1).view.loc (thrV d L) ↦[(C1).view.set]{fullShare} f)
          ∗ ⌜∀ j : S2x128x64.Idx, (j 0).val = 1 → (j 1).val < k → f j = cleanC m d L Tb 3 j⌝) : sProp 𝕄)) $$ [Hw1d Hc1']
  case region =>
    intro k _
    have hk : k.val < 128 := lt_of_lt_of_le k.isLt k0_t4_abs.2.1
    iintro ⟨Hw, %f, Hc, %hf⟩
    sl_exec
    sl_step
    isplitl [Hw]; · iexact Hw
    iexists _; isplitl [Hc]; · iexact Hc
    ipureintro
    exact step_slot m d L Tb 1 3 k.val hk _ _ _ _ _ _ _ _
      (k0_off27_eq k) (k0_off29_eq k) (k0_off31_eq k) (k0_off33_eq k) (k0_off28_eq k) (k0_off30_eq k) (k0_off32_eq k) (k0_off34_eq k)
      _ _ _ _ _ _ _ _ (cleanW m d L Tb 3) (fun _ _ => rfl) f hf
  · isplitl [Hw1d]; · iexact Hw1d
    iexists _; isplitl [Hc1']; · iexact Hc1'
    ipureintro; intro j _ hj; exact absurd hj (Nat.not_lt_zero _)
  iintro %_ HI
  icases HI with ⟨Hw1d, %fc3, Hc1', %hfc3⟩
  sl_exec (disch := exact View.amount_pos _ _ (show 0 < S128x64.numel by decide))
  sl_step
  isplitl [Hi' Htr Ht0' Ht1' Ho0' Ho1' Ho2' Ho3']
  · isplitl [Hi']; · iexact Hi'
    isplitl [Htr Ht0' Ht1']
    · iapply (pointsTo_share (ℓ := tLoc d) (I := Finset.univ) (f := Tb) (PosShare.mem_left_op_right tq)).2
      isplitl [Htr Ht1']
      · iapply (pointsTo_share (ℓ := tLoc d) (I := Finset.univ) (f := Tb) (PosShare.mem_left_op_right tq.left)).2
        isplitl [Htr]; · iexact Htr
        iexact Ht1'
      · iexact Ht0'
    isplitl [Ho0']
    · iapply (Entails.of_eq (pointsTo_congr (ℓ := oLoc d) (q := fullShare) (out_C0 m d L Tb 0 0#32 rfl (k0_off10_inb L 0) _ fc0
        (fun j h0 => hfc0 j h0 (lt_of_lt_of_eq (j 1).isLt t1_trips.symm)))))
      iexact Ho0'
    isplitl [Ho1']
    · iapply (Entails.of_eq (pointsTo_congr (ℓ := oLoc d) (q := fullShare) (out_C1 m d L Tb 1 128#32 rfl (k0_off10_inb L 1) _ fc1
        (fun j h0 => hfc1 j h0 (lt_of_lt_of_eq (j 1).isLt t2_trips.symm)))))
      iexact Ho1'
    isplitl [Ho2']
    · iapply (Entails.of_eq (pointsTo_congr (ℓ := oLoc d) (q := fullShare) (out_C0 m d L Tb 2 256#32 rfl (k0_off10_inb L 2) _ fc2
        (fun j h0 => hfc2 j h0 (lt_of_lt_of_eq (j 1).isLt t3_trips.symm)))))
      iexact Ho2'
    · iapply (Entails.of_eq (pointsTo_congr (ℓ := oLoc d) (q := fullShare) (out_C1 m d L Tb 3 384#32 rfl (k0_off10_inb L 3) _ fc3
        (fun j h0 => hfc3 j h0 (lt_of_lt_of_eq (j 1).isLt t4_trips.symm)))))
      iexact Ho3'
  isplitl [Hs' Hw0d Hw1d Hc0' Hc1' Hbufs]
  · isplitl [Hs']; · iexists _; iexact Hs'
    isplitl [Hw0d Hw1d]
    · iapply (join_compl (ℓ := rwLoc d L) (W0).view.set (cleanW m d L Tb 2) (cleanW m d L Tb 3))
      isplitl [Hw0d]; · iexact Hw0d
      iapply (Entails.of_eq (show ((W1).view.loc (thrV d L) ↦[(W1).view.set]{fullShare} cleanW m d L Tb 3 : sProp 𝕄)
        = rwLoc d L ↦[Finset.univ \ (W0).view.set]{fullShare} cleanW m d L Tb 3 from by rw [slotW_compl])); iexact Hw1d
    isplitl [Hc0' Hc1']
    · iapply (join_compl (ℓ := rcLoc d L) (C0).view.set fc2 fc3)
      isplitl [Hc0']; · iexact Hc0'
      iapply (Entails.of_eq (show ((C1).view.loc (thrV d L) ↦[(C1).view.set]{fullShare} fc3 : sProp 𝕄)
        = rcLoc d L ↦[Finset.univ \ (C0).view.set]{fullShare} fc3 from by rw [slotC_compl])); iexact Hc1'
    iexact Hbufs
  isplitl [HG0 HG1 HS0 HS1 HI Hsems]
  · isplitl [HG0]; · iexact HG0
    isplitl [HG1]; · iexact HG1
    isplitl [HS0]; · iexact HS0
    isplitl [HS1]; · iexact HS1
    isplitl [HI]; · iexact HI
    iexact Hsems
  iexists _; isplitr
  swap; · iexact HO
  ipureintro
  exact ins_ok _ (ins_ok _ (ins_ok _ (ins_ok _ (ins_ok _ (ins_ok _ (ins_ok _ (ins_ok _ (ins_ok _ (fun p hp => .inl hp)))))))))

end Cert.Proof.Kernel

end
-- ==== Proof.LibRowOps.lean ====
/-
  Rows moved by index. Two StableHLO operations read at one element:

  * the gather that takes whole rows of a two-dimensional array, `x[idx]` for `x : [N, W]` and `idx : [E]` (carried as
    `[E, 1]`): element `(e, c)` of the result is `x` at row `idx[e]`, read as a signed integer and clamped into
    `[0, N − 1]`, column `c`;
  * the scatter with an `add` body that accumulates whole rows, `segment_sum(upd, idx, N)` for `upd : [E, W]`: element
    `(r, c)` of the result is the operand's plus the sum of `upd[e, c]` over the `e` whose index `idx[e]`, read as a
    signed integer and NOT clamped, is exactly `r` (an index outside `[0, N − 1]` lands nowhere); and the same for a
    flat operand `[N]` and updates `[E]`.

  Every statement is over abstract extents `N`, `E`, `W`; nothing here enumerates an index set.
-/
import Idealize.ShloMosaic.PureOps.Ideal
import Idealize.ShloMosaic.Lib.ValueIdx

noncomputable section

open scoped BigOperators

namespace Cert.RowOps

open Idealize.ShloMosaic Idealize.ShloMosaic.ValueIdx

/-! ## The row an index word names -/

/-- The row a gather reads for the start index `w`: `w` as a signed integer, clamped into `[0, N − 1]`. -/
def gatherRow (N : Nat) (hN : 0 < N) (w : BitVec 32) : Fin N := ⟨min w.toInt.toNat (N - 1), by omega⟩

/-- The row a scatter writes for the scatter index `w`: `w` as a signed integer when that is a row of the operand,
    none otherwise (the update is dropped; no clamping). -/
def scatterRow (N : Nat) (w : BitVec 32) : Option (Fin N) :=
  if h : 0 ≤ w.toInt ∧ w.toInt < (N : Int) then some ⟨w.toInt.toNat, by omega⟩ else none

/-- `scatterRow` names row `r` exactly when the index, read signed, is `r`. -/
theorem scatterRow_eq_some_iff {N : Nat} (w : BitVec 32) (r : Fin N) :
    scatterRow N w = some r ↔ w.toInt = (r.val : Int) := by
  unfold scatterRow
  constructor
  · intro h
    split at h
    · rename_i hw
      have := congrArg Fin.val (Option.some.inj h)
      simp only at this
      omega
    · exact absurd h (by simp)
  · intro h
    have hr := r.isLt
    rw [dif_pos (by omega)]
    exact congrArg some (Fin.ext (by simp only; omega))

/-! ## The gather of rows -/

section Gather
variable {α : Type}

/-- The dimension numbers of a gather of rows: operand `[N, W]`, start indices `[E, 1]`, result `[E, W]`; the result's
    axis 1 is the offset axis, operand axis 0 is collapsed and is the one the start index names, slices are `1 × W`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row coordinate of the operand index that result index `(e, c)` reads: the clamped start index. -/
theorem rowGather_operandIdx_zero {N E W : Nat} (hN : 0 < N)
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 0 = gatherRow N hN (idx (ix2 e 0)) := by
  refine Fin.ext ?_
  show (rowGatherDims N E W wf).start (ix2 e c) idx 0 + (rowGatherDims N E W wf).batchCoord (ix2 e c) 0
    + (rowGatherDims N E W wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E W wf).startIndexMap from List.mem_singleton.mpr rfl)]
  have hsi : (rowGatherDims N E W wf).siIdx (ix2 e c) ⟨List.idxOf (0 : Fin 2) (rowGatherDims N E W wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column coordinate of the operand index that result index `(e, c)` reads: `c` itself. -/
theorem rowGather_operandIdx_one {N E W : Nat}
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 1 = c := by
  refine Fin.ext ?_
  show (rowGatherDims N E W wf).start (ix2 e c) idx 1 + (rowGatherDims N E W wf).batchCoord (ix2 e c) 1
    + (rowGatherDims N E W wf).offCoord (ix2 e c) 1 = _
  rw [GatherDims.batchCoord_eq_zero _ _ _ List.not_mem_nil]
  have hst : (rowGatherDims N E W wf).start (ix2 e c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows at `(e, c)`, for the literal dimension numbers `rowGatherDims`. -/
theorem gather_rowDims_apply {N E W : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ 32) (e : Fin E) (c : Fin W) :
    Host.gather (rowGatherDims N E W wf) x idx (ix2 e c) = x (ix2 (gatherRow N hN (idx (ix2 e 0))) c) := by
  unfold Host.gather
  refine congrArg x ((eq_ix2 _).trans ?_)
  rw [rowGather_operandIdx_zero hN wf idx e c, rowGather_operandIdx_one wf idx e c]
  rfl

/-- THE GATHER OF ROWS READ AT `(e, c)`: for any dimension numbers `d` whose fields are those of a gather of rows
    (each hypothesis is `rfl` at a program's record), the result at `(e, c)` is the operand at row
    `gatherRow N _ (idx[e])` — the start index read signed and clamped into `[0, N − 1]` — and column `c`. -/
theorem gather_rows_apply {N E W : Nat} (hN : 0 < N)
    (d : GatherDims ⟨2, ![N, W]⟩ ⟨2, ![E, 1]⟩ ⟨2, ![E, W]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, W])
    (x : (⟨2, ![N, W]⟩ : Shape).Idx → α) (idx : IVec ⟨2, ![E, 1]⟩ 32) (e : Fin E) (c : Fin W) :
    Host.gather d x idx (ix2 e c) = x (ix2 (gatherRow N hN (idx (ix2 e 0))) c) := by
  obtain ⟨od, cd, ob, sb, sm, iv, ss, wf⟩ := d
  simp only at hod hcd hob hsb hsm hiv hss
  subst hod hcd hob hsb hsm hiv hss
  exact gather_rowDims_apply hN wf x idx e c

end Gather

/-! ## The scatter-add of rows -/

section Scatter

/-- An axis of the operand is kept by a scatter exactly when it is not an inserted window axis. -/
theorem mem_scatter_sKept {s si u : Shape} (d : ScatterDims s si u) (a : Fin s.rank) :
    a ∈ d.sKept ↔ a ∉ d.insertedWindowDims := by
  simp [ScatterDims.sKept, Shape.kept, List.mem_filter, List.mem_finRange]

/-- The dimension numbers of a scatter of rows: operand `[N, W]`, scatter indices `[E, 1]`, updates `[E, W]`; the
    updates' axis 1 is the window axis, operand axis 0 is inserted and is the one the scatter index names. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W : Nat} (wf : ScatterDims.WF ⟨2, ![N, W]⟩ ⟨2, ![E, 1]⟩ ⟨2, ![E, W]⟩ [1] [0] [0] 1)
  (idx : IVec ⟨2, ![E, 1]⟩ 32) (j : (⟨2, ![E, W]⟩ : Shape).Idx)

/-- On the row axis the window of update `j` starts at its scatter index `idx[j₀]` read signed, and has no extent. -/
theorem rowScatter_pos_zero :
    (rowScatterDims N E W wf).start j idx 0 + ((rowScatterDims N E W wf).window j 0 : Int)
      = (idx (ix2 (j 0) 0)).toInt := by
  have hw : (rowScatterDims N E W wf).window j 0 = 0 := by
    unfold ScatterDims.window
    rw [dif_neg (fun h => ((mem_scatter_sKept _ _).mp h) (List.mem_singleton.mpr rfl))]
  have hs : (rowScatterDims N E W wf).start j idx 0 = (idx (ix2 (j 0) 0)).toInt := by
    unfold ScatterDims.start
    rw [dif_pos (show (0 : Fin 2) ∈ (rowScatterDims N E W wf).scatterDimsToOperandDims from List.mem_singleton.mpr rfl)]
    have hsi : (rowScatterDims N E W wf).siIdx j ⟨List.idxOf (0 : Fin 2) (rowScatterDims N E W wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- On the column axis the window of update `j` starts at `0` and the update sits at its own column `j₁`. -/
theorem rowScatter_pos_one :
    (rowScatterDims N E W wf).start j idx 1 + ((rowScatterDims N E W wf).window j 1 : Int) = ((j 1).val : Int) := by
  have hs : (rowScatterDims N E W wf).start j idx 1 = 0 := by
    unfold ScatterDims.start
    rw [dif_neg (show (1 : Fin 2) ∉ ([0] : List (Fin 2)) by decide)]
  have hw : (rowScatterDims N E W wf).window j 1 = (j 1).val := by
    unfold ScatterDims.window
    rw [dif_pos ((mem_scatter_sKept _ _).mpr (show (1 : Fin 2) ∉ ([0] : List (Fin 2)) by decide))]
    rfl
  rw [hw, hs]; simp

/-- WHERE AN UPDATE LANDS: update `j = (e, c')` lands on element `(r, c)` exactly when its scatter index names row `r`
    and `c' = c`. -/
theorem rowScatter_resultIdx?_eq_some_iff (r : Fin N) (c : Fin W) :
    (rowScatterDims N E W wf).resultIdx? j idx = some (ix2 r c)
      ↔ scatterRow N (idx (ix2 (j 0) 0)) = some r ∧ j 1 = c := by
  rw [scatterRow_eq_some_iff]
  have h0 := rowScatter_pos_zero wf idx j
  have h1 := rowScatter_pos_one wf idx j
  have hr := r.isLt
  have hj1 : (j 1).val < W := (j 1).isLt
  unfold ScatterDims.resultIdx?
  constructor
  · intro h
    split at h
    · rename_i hall
      have h' := Option.some.inj h
      have e0 := congrArg (fun f : (⟨2, ![N, W]⟩ : Shape).Idx => (f 0).val) h'
      have e1 := congrArg (fun f : (⟨2, ![N, W]⟩ : Shape).Idx => (f 1).val) h'
      have a0 := (hall 0).1
      simp only at e0 e1
      rw [h0] at e0 a0
      rw [h1] at e1
      refine ⟨?_, Fin.ext ?_⟩
      · have : ((ix2 r c : (⟨2, ![N, W]⟩ : Shape).Idx) 0).val = r.val := rfl
        omega
      · have : ((ix2 r c : (⟨2, ![N, W]⟩ : Shape).Idx) 1).val = c.val := rfl
        omega
    · exact absurd h (by simp)
  · rintro ⟨hz, hc⟩
    have hall : ∀ a : Fin (⟨2, ![N, W]⟩ : Shape).rank,
        0 ≤ (rowScatterDims N E W wf).start j idx a + ((rowScatterDims N E W wf).window j a : Int) ∧
        (rowScatterDims N E W wf).start j idx a + ((rowScatterDims N E W wf).window j a : Int)
          < ((⟨2, ![N, W]⟩ : Shape).size a : Int) := by
      refine Fin.forall_fin_two.mpr ⟨?_, ?_⟩
      · rw [h0, hz]
        exact ⟨by omega, by show (r.val : Int) < (N : Int); omega⟩
      · rw [h1]
        exact ⟨by omega, by show ((j 1).val : Int) < (W : Int); omega⟩
    rw [dif_pos hall]
    refine congrArg some ((eq_ix2 _).trans ?_)
    have c0 : (⟨((rowScatterDims N E W wf).start j idx 0 + ((rowScatterDims N E W wf).window j 0 : Int)).toNat,
        by have := hall 0; omega⟩ : Fin N) = r := Fin.ext (by simp only; omega)
    have c1 : (⟨((rowScatterDims N E W wf).start j idx 1 + ((rowScatterDims N E W wf).window j 1 : Int)).toNat,
        by have := hall 1; omega⟩ : Fin W) = c := Fin.ext (by simp only; rw [← hc]; omega)
    exact congrArg₂ ix2 c0 c1

end Scatter

section ScatterSum

/-- The scatter-add of rows at `(r, c)`, for the literal dimension numbers `rowScatterDims`: the updates that land on
    `(r, c)` are the `(e, c)` whose scatter index names row `r`, one for each such `e`. -/
theorem scatterAdd_rowDims_apply {N E W : Nat}
    (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) (rowScatterDims N E W wf) x idx upd (ix2 r c)
      = x (ix2 r c) + ∑ e ∈ Finset.univ.filter (fun e : Fin E => scatterRow N (idx (ix2 e 0)) = some r),
          upd (ix2 e c) := by
  show Ideal.hostScatterAdd (rowScatterDims N E W wf) x idx upd (ix2 r c) = _
  unfold Ideal.hostScatterAdd
  congr 1
  refine Finset.sum_nbij' (fun j : (⟨2, ![E, W]⟩ : Shape).Idx => (j 0 : Fin E)) (fun e : Fin E => ix2 e c) ?_ ?_ ?_ ?_ ?_
  · intro j hj
    exact Finset.mem_filter.mpr ⟨Finset.mem_univ _,
      ((rowScatter_resultIdx?_eq_some_iff wf idx j r c).mp (Finset.mem_filter.mp hj).2).1⟩
  · intro e he
    exact Finset.mem_filter.mpr ⟨Finset.mem_univ _,
      (rowScatter_resultIdx?_eq_some_iff wf idx (ix2 e c) r c).mpr ⟨(Finset.mem_filter.mp he).2, rfl⟩⟩
  · intro j hj
    have hc := ((rowScatter_resultIdx?_eq_some_iff wf idx j r c).mp (Finset.mem_filter.mp hj).2).2
    show ix2 (j 0) c = j
    rw [← hc]
    exact (eq_ix2 j).symm
  · intro e _
    rfl
  · intro j hj
    have hc := ((rowScatter_resultIdx?_eq_some_iff wf idx j r c).mp (Finset.mem_filter.mp hj).2).2
    show upd j = upd (ix2 (j 0) c)
    rw [← hc]
    exact congrArg upd (eq_ix2 j)

/-- THE SCATTER-ADD OF ROWS READ AT `(r, c)`: for any dimension numbers `d` whose fields are those of a scatter of rows
    (each hypothesis is `rfl` at a program's record), the result at `(r, c)` is the operand's element plus the sum, over
    the `e` whose scatter index `idx[e]` read signed is exactly `r`, of the update's element `(e, c)`. -/
theorem scatterAdd_rows_apply {N E W : Nat} (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hiv : d.indexVectorDim = 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) d x idx upd (ix2 r c)
      = x (ix2 r c) + ∑ e ∈ Finset.univ.filter (fun e : Fin E => scatterRow N (idx (ix2 e 0)) = some r),
          upd (ix2 e c) := by
  obtain ⟨uw, iw, sd, iv, wf⟩ := d
  simp only at huw hiw hsd hiv
  subst huw hiw hsd hiv
  exact scatterAdd_rowDims_apply wf x idx upd r c

end ScatterSum

/-! ## The scatter-add into a flat array -/

section ScatterVec

/-- The dimension numbers of a scatter into a flat array: operand `[N]`, scatter indices `[E, 1]`, updates `[E]`; no
    window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (j : (⟨1, ![E]⟩ : Shape).Idx)

/-- On the operand's one axis the window of update `j` starts at its scatter index `idx[j₀]` read signed, and has no
    extent. -/
theorem vecScatter_pos_zero :
    (vecScatterDims N E wf).start j idx 0 + ((vecScatterDims N E wf).window j 0 : Int)
      = (idx (ix2 (j 0) 0)).toInt := by
  have hw : (vecScatterDims N E wf).window j 0 = 0 := by
    unfold ScatterDims.window
    rw [dif_neg (fun h => ((mem_scatter_sKept _ _).mp h) (List.mem_singleton.mpr rfl))]
  have hs : (vecScatterDims N E wf).start j idx 0 = (idx (ix2 (j 0) 0)).toInt := by
    unfold ScatterDims.start
    rw [dif_pos (show (0 : Fin 1) ∈ (vecScatterDims N E wf).scatterDimsToOperandDims from List.mem_singleton.mpr rfl)]
    have hsi : (vecScatterDims N E wf).siIdx j ⟨List.idxOf (0 : Fin 1) (vecScatterDims N E wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- WHERE AN UPDATE LANDS: update `j = (e)` lands on element `(r)` exactly when its scatter index names `r`. -/
theorem vecScatter_resultIdx?_eq_some_iff (r : Fin N) :
    (vecScatterDims N E wf).resultIdx? j idx = some (ix1 r) ↔ scatterRow N (idx (ix2 (j 0) 0)) = some r := by
  rw [scatterRow_eq_some_iff]
  have h0 := vecScatter_pos_zero wf idx j
  have hr := r.isLt
  unfold ScatterDims.resultIdx?
  constructor
  · intro h
    split at h
    · rename_i hall
      have h' := Option.some.inj h
      have e0 := congrArg (fun f : (⟨1, ![N]⟩ : Shape).Idx => (f 0).val) h'
      have a0 := (hall 0).1
      simp only at e0
      rw [h0] at e0 a0
      have : ((ix1 r : (⟨1, ![N]⟩ : Shape).Idx) 0).val = r.val := rfl
      omega
    · exact absurd h (by simp)
  · intro hz
    have hall : ∀ a : Fin (⟨1, ![N]⟩ : Shape).rank,
        0 ≤ (vecScatterDims N E wf).start j idx a + ((vecScatterDims N E wf).window j a : Int) ∧
        (vecScatterDims N E wf).start j idx a + ((vecScatterDims N E wf).window j a : Int)
          < ((⟨1, ![N]⟩ : Shape).size a : Int) := by
      intro a
      obtain rfl : a = 0 := Subsingleton.elim _ _
      rw [h0, hz]
      exact ⟨by omega, by show (r.val : Int) < (N : Int); omega⟩
    rw [dif_pos hall]
    refine congrArg some ((eq_ix1 _).trans ?_)
    have c0 : (⟨((vecScatterDims N E wf).start j idx 0 + ((vecScatterDims N E wf).window j 0 : Int)).toNat,
        by have := hall 0; omega⟩ : Fin N) = r := Fin.ext (by simp only; omega)
    exact congrArg ix1 c0

/-- The scatter-add into a flat array at `(r)`, for the literal dimension numbers `vecScatterDims`. -/
theorem scatterAdd_vecDims_apply
    (x : FVec Ideal ⟨1, ![N]⟩ .f32) (upd : FVec Ideal ⟨1, ![E]⟩ .f32)
    (r : Fin N) [DecidablePred fun e : Fin E => scatterRow N (idx (ix2 e 0)) = some r] :
    Host.scatterAdd (F := Ideal) (vecScatterDims N E wf) x idx upd (ix1 r)
      = x (ix1 r) + ∑ e ∈ Finset.univ.filter (fun e : Fin E => scatterRow N (idx (ix2 e 0)) = some r),
          upd (ix1 e) := by
  show Ideal.hostScatterAdd (vecScatterDims N E wf) x idx upd (ix1 r) = _
  unfold Ideal.hostScatterAdd
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (vecScatter_resultIdx?_eq_some_iff wf idx j r).mp (Finset.mem_filter.mp hj).2⟩
  · intro e he
    exact Finset.mem_filter.mpr ⟨Finset.mem_univ _,
      (vecScatter_resultIdx?_eq_some_iff wf idx (ix1 e) r).mpr (Finset.mem_filter.mp he).2⟩
  · intro j _
    exact (eq_ix1 j).symm
  · intro e _
    rfl
  · intro j _
    exact congrArg upd (eq_ix1 j)

/-- THE SCATTER-ADD INTO A FLAT ARRAY READ AT `(r)`: for any dimension numbers `d` whose fields are those of such a
    scatter (each hypothesis is `rfl` at a program's record), the result at `(r)` is the operand's element plus the sum,
    over the `e` whose scatter index `idx[e]` read signed is exactly `r`, of the update's element `(e)`. -/
theorem scatterAdd_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32)
    (r : Fin N) [DecidablePred fun e : Fin E => scatterRow N (idx (ix2 e 0)) = some r] :
    Host.scatterAdd (F := Ideal) d x idx upd (ix1 r)
      = x (ix1 r) + ∑ e ∈ Finset.univ.filter (fun e : Fin E => scatterRow N (idx (ix2 e 0)) = some r),
          upd (ix1 e) := by
  obtain ⟨uw, iw, sd, iv, wf⟩ := d
  simp only at huw hiw hsd hiv
  subst huw hiw hsd hiv
  exact scatterAdd_vecDims_apply wf idx x upd r

end ScatterVec

end Cert.RowOps

end
-- ==== Proof.LibRowOps3.lean ====
/-
  Rows taken by index through a two-axis batch of start indices, an all-true reduction, and the word facts of an
  index known to be small.

  * the gather that takes whole rows of a two-dimensional array by a batch of indices, `x[idx]` for `x : [N, W]` and
    `idx : [B, L]` (carried as `[B, L, 1]`): element `(b, l, c)` of the result is `x` at row `idx[b, l]`, read as a
    signed integer and clamped into `[0, N − 1]`, column `c`;
  * a reduction by `and` of one-bit words that are all `1`, from the initial value `1`, is `1` at every result index;
  * for a 32-bit word below `2³¹`: it is not negative as a signed number, so the wrap-around select `w < 0 ? w + N : w`
    leaves it, the range test `0 ≤ w ≤ c` holds when `w ≤ c`, and the row a gather reads for it is itself when it is a
    row.

  Every statement is over abstract extents; nothing here enumerates an index set.
-/
import Idealize.ShloMosaic.PureOps.Ideal
import Idealize.ShloMosaic.Lib.ValueIdx
import Idealize.ShloMosaic.Lib.Affine
import proofs.«206562_g3805341024366_cont_8to1_b_1019_21_alg».proof.Proof.LibRowOps

noncomputable section

namespace Cert.RowOps3

open Idealize.ShloMosaic Idealize.ShloMosaic.ValueIdx Cert.RowOps

/-! ## The gather of rows by a two-axis batch of indices -/

section Gather
variable {α : Type}

/-- The dimension numbers of a gather of rows by a batch: operand `[N, W]`, start indices `[B, L, 1]`, result
    `[B, L, W]`; the result's axis 2 is the offset axis, operand axis 0 is collapsed and is the one the start index
    names, slices are `1 × W`. -/
abbrev rowGatherDims3 (N B L W : Nat)
    (wf : GatherDims.WF ⟨2, ![N, W]⟩ ⟨3, ![B, L, 1]⟩ ⟨3, ![B, L, W]⟩ [2] [0] [] [0] [] 2 ![1, W]) :
    GatherDims ⟨2, ![N, W]⟩ ⟨3, ![B, L, 1]⟩ ⟨3, ![B, L, W]⟩ where
  offsetDims := [2]
  collapsedSliceDims := [0]
  operandBatchingDims := []
  startIndicesBatchingDims := []
  startIndexMap := [0]
  indexVectorDim := 2
  sliceSizes := ![1, W]
  wf := wf

/-- The row coordinate of the operand index that result index `(b, l, c)` reads: the clamped start index. -/
theorem rowGather3_operandIdx_zero {N B L W : Nat} (hN : 0 < N)
    (wf : GatherDims.WF ⟨2, ![N, W]⟩ ⟨3, ![B, L, 1]⟩ ⟨3, ![B, L, W]⟩ [2] [0] [] [0] [] 2 ![1, W])
    (idx : IVec ⟨3, ![B, L, 1]⟩ 32) (b : Fin B) (l : Fin L) (c : Fin W) :
    (rowGatherDims3 N B L W wf).operandIdx (ix3 b l c) idx 0 = gatherRow N hN (idx (ix3 b l 0)) := by
  refine Fin.ext ?_
  show (rowGatherDims3 N B L W wf).start (ix3 b l c) idx 0 + (rowGatherDims3 N B L W wf).batchCoord (ix3 b l c) 0
    + (rowGatherDims3 N B L W wf).offCoord (ix3 b l c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims3 N B L W wf).startIndexMap from List.mem_singleton.mpr rfl)]
  have hsi : (rowGatherDims3 N B L W wf).siIdx (ix3 b l c) ⟨List.idxOf (0 : Fin 2) (rowGatherDims3 N B L W wf).startIndexMap,
      List.idxOf_lt_length_iff.2 (List.mem_singleton.mpr rfl)⟩ = ix3 b l 0 := by
    funext a; refine Fin.ext ?_
    match a with
    | ⟨0, _⟩ => rfl
    | ⟨1, _⟩ => rfl
    | ⟨2, _⟩ => rfl
  rw [hsi]
  rfl

/-- The column coordinate of the operand index that result index `(b, l, c)` reads: `c` itself. -/
theorem rowGather3_operandIdx_one {N B L W : Nat}
    (wf : GatherDims.WF ⟨2, ![N, W]⟩ ⟨3, ![B, L, 1]⟩ ⟨3, ![B, L, W]⟩ [2] [0] [] [0] [] 2 ![1, W])
    (idx : IVec ⟨3, ![B, L, 1]⟩ 32) (b : Fin B) (l : Fin L) (c : Fin W) :
    (rowGatherDims3 N B L W wf).operandIdx (ix3 b l c) idx 1 = c := by
  refine Fin.ext ?_
  show (rowGatherDims3 N B L W wf).start (ix3 b l c) idx 1 + (rowGatherDims3 N B L W wf).batchCoord (ix3 b l c) 1
    + (rowGatherDims3 N B L W wf).offCoord (ix3 b l c) 1 = _
  rw [GatherDims.batchCoord_eq_zero _ _ _ List.not_mem_nil]
  have hst : (rowGatherDims3 N B L W wf).start (ix3 b l c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows by a batch at `(b, l, c)`, for the literal dimension numbers `rowGatherDims3`. -/
theorem gather_rowDims3_apply {N B L W : Nat} (hN : 0 < N)
    (wf : GatherDims.WF ⟨2, ![N, W]⟩ ⟨3, ![B, L, 1]⟩ ⟨3, ![B, L, W]⟩ [2] [0] [] [0] [] 2 ![1, W])
    (x : (⟨2, ![N, W]⟩ : Shape).Idx → α) (idx : IVec ⟨3, ![B, L, 1]⟩ 32) (b : Fin B) (l : Fin L) (c : Fin W) :
    Host.gather (rowGatherDims3 N B L W wf) x idx (ix3 b l c) = x (ix2 (gatherRow N hN (idx (ix3 b l 0))) c) := by
  unfold Host.gather
  refine congrArg x ((eq_ix2 _).trans ?_)
  rw [rowGather3_operandIdx_zero hN wf idx b l c, rowGather3_operandIdx_one wf idx b l c]
  rfl

/-- THE GATHER OF ROWS BY A BATCH READ AT `(b, l, c)`: for any dimension numbers `d` whose fields are those of such a
    gather (each hypothesis is `rfl` at a program's record), the result at `(b, l, c)` is the operand at row
    `gatherRow N _ (idx[b, l])` — the start index read signed and clamped into `[0, N − 1]` — and column `c`. -/
theorem gather_rows3_apply {N B L W : Nat} (hN : 0 < N)
    (d : GatherDims ⟨2, ![N, W]⟩ ⟨3, ![B, L, 1]⟩ ⟨3, ![B, L, W]⟩)
    (hod : d.offsetDims = [2]) (hcd : d.collapsedSliceDims = [0]) (hob : d.operandBatchingDims = [])
    (hsb : d.startIndicesBatchingDims = []) (hsm : d.startIndexMap = [0]) (hiv : d.indexVectorDim = 2)
    (hss : d.sliceSizes = ![1, W])
    (x : (⟨2, ![N, W]⟩ : Shape).Idx → α) (idx : IVec ⟨3, ![B, L, 1]⟩ 32) (b : Fin B) (l : Fin L) (c : Fin W) :
    Host.gather d x idx (ix3 b l c) = x (ix2 (gatherRow N hN (idx (ix3 b l 0))) c) := by
  obtain ⟨od, cd, ob, sb, sm, iv, ss, wf⟩ := d
  simp only at hod hcd hob hsb hsm hiv hss
  subst hod hcd hob hsb hsm hiv hss
  exact gather_rowDims3_apply hN wf x idx b l c

end Gather

/-! ## A reduction by `and` of words that are all one -/

/-- A left fold by `and` from `1` over one-bit words that are all `1` is `1`. -/
theorem foldl_andi_of_all {ι : Type} (f : ι → BitVec 1) (hf : ∀ n, f n = 1#1) (l : List ι) :
    l.foldl (fun r n => IntOp.andi r (f n)) 1#1 = 1#1 := by
  induction l with
  | nil => rfl
  | cons n l ih =>
    rw [List.foldl_cons, hf n, show IntOp.andi 1#1 1#1 = 1#1 from by decide]
    exact ih

/-- The host's reduction by `and` of an array of one-bit words that are all `1`, from an initial value `1`, is `1`
    at every result index, whatever the axes. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_of_all (fun n => x (s.rowMajor.symm n)) (fun n => hx _) _

/-! ## A small index word -/

/-- A 32-bit word below `2³¹` read as a signed integer is its natural number. -/
theorem toInt_of_small (w : BitVec 32) (hw : w.toNat < 2 ^ 31) : w.toInt = (w.toNat : Int) := by
  have e := BitVec.toInt_eq_toNat_cond w
  omega

/-- The wrap-around of a negative index leaves a word below `2³¹`: it is not negative. -/
theorem select_wrap_of_small (w n : BitVec 32) (hw : w.toNat < 2 ^ 31) :
    Scalar.select (IntOp.cmpi .slt w 0#32) (IntOp.addi w n) w = w := by
  have hc : IntOp.cmpi .slt w 0#32 = 0#1 := by
    refine eq_zero_of_ne_one fun h1 => ?_
    have h2 := IntOp.cmpi_slt.mp h1
    rw [toInt_of_small w hw, show (0#32 : BitVec 32).toInt = 0 from by decide] at h2
    omega
  rw [hc, select_zero]

/-- The range test `0 ≤ w ≤ c` on signed words holds for a word below `2³¹` that is at most `c`. -/
theorem andi_sge_sle_of_small (w c : BitVec 32) (hw : w.toNat < 2 ^ 31) (hc : (w.toNat : Int) ≤ c.toInt) :
    IntOp.andi (IntOp.cmpi .sge w 0#32) (IntOp.cmpi .sle w c) = 1#1 := by
  have h1 : IntOp.cmpi .sge w 0#32 = 1#1 := by
    refine IntOp.cmpi_sge.mpr ?_
    rw [toInt_of_small w hw, show (0#32 : BitVec 32).toInt = 0 from by decide]
    omega
  have h2 : IntOp.cmpi .sle w c = 1#1 := by
    refine IntOp.cmpi_sle.mpr ?_
    rw [toInt_of_small w hw]
    exact hc
  rw [h1, h2]
  decide

/-- The row a gather reads for a start index that is a row of the operand is that row. -/
theorem gatherRow_val_of_lt {N : Nat} (hN : 0 < N) (w : BitVec 32) (hw : w.toNat < 2 ^ 31) (h : w.toNat < N) :
    (gatherRow N hN w).val = w.toNat := by
  unfold gatherRow
  simp only
  rw [toInt_of_small w hw]
  omega

end Cert.RowOps3

end
-- ==== Proof.RefTerm.lean ====
/-
  The reference's value. The reference computes, from an index array idx : [16, 1024] of 32-bit words and a table
  w : [8192, 64], the array

      select (mask, gather (w, wrap idx), NaN)

  where wrap idx = (idx < 0 ? idx + 8192 : idx) carried as [16, 1024, 1], mask[r, p] is the conjunction over the unit
  axis of 0 ≤ wrap idx ≤ 8191 broadcast along the row, and the gather reads row clamp (wrap idx[r, p]) of the table.
  When every index word is below 8192 unsigned: it is not negative as a signed word, so the wrap leaves it; the range
  test holds, so the mask is all ones and the select returns the gathered rows; and the clamp leaves the row, so the
  value at (r, p, l) is w[idx[r, p], l] — the specification's lookup.
-/
import proofs.«206562_g3805341024366_cont_8to1_b_1019_21_alg».proof.Proof.Gen.ReferenceIdeal
import proofs.«206562_g3805341024366_cont_8to1_b_1019_21_alg».proof.Proof.Spec
import proofs.«206562_g3805341024366_cont_8to1_b_1019_21_alg».proof.Proof.LibRowOps3
import Idealize.ShloMosaic.Lib.Pipeline.Value

noncomputable section

namespace Cert.ReferenceIdeal.RefValue

open Cert.ReferenceIdeal Idealize.ShloMosaic Idealize.ShloMosaic.ValueIdx
open Cert.ReferenceIdeal.Facts₀ Cert.RowOps Cert.RowOps3

variable {F : FTy → Type} [FloatOps F]

/-- The wrapped indices: idx < 0 ? idx + 8192 : idx. -/
def wrapped (idx : IVec S16x1024 32) : IVec S16x1024 32 :=
  select (cmpi .slt idx (broadcastInDim S16x1024 ![] bcast_S_S16x1024 (constantI S_ 32 0#32)))
    (addi idx (broadcastInDim S16x1024 ![] bcast_S_S16x1024 (constantI S_ 32 8192#32))) idx

/-- The start indices of the gather: the wrapped indices with a trailing unit axis. -/
def starts (idx : IVec S16x1024 32) : IVec S16x1024x1 32 :=
  broadcastInDim S16x1024x1 ![0, 1] bcast_S16x1024_S16x1024x1_0_1 (wrapped idx)

/-- The range test 0 ≤ start ≤ 8191 at each start index. -/
def inRange (idx : IVec S16x1024 32) : IVec S16x1024x1 1 :=
  andi (cmpi .sge (starts idx) (broadcastInDim S16x1024x1 ![] bcast_S_S16x1024x1 (constantI S_ 32 0#32)))
    (cmpi .sle (starts idx)
      (broadcastInDim S16x1024x1 ![0, 1, 2] bcast_S1x1x1_S16x1024x1_0_1_2
        (broadcastInDim S1x1x1 ![2] bcast_S1_S1x1x1_2 (constantI S1 32 8191#32))))

/-- The mask: the range test reduced by conjunction over the unit axis. -/
def mask (idx : IVec S16x1024 32) : IVec S16x1024 1 :=
  Host.reduce IntOp.andi (inRange idx) (constantI S_ 1 1#1) reducesTo_S16x1024x1_S16x1024_d2 h_S_

/-- The reference's result as a function of its two arguments. -/
def refTerm (idx : IVec S16x1024 32) (w : FVec F S8192x64 .f32) : FVec F S16x1024x64 .f32 :=
  select (broadcastInDim S16x1024x64 ![0, 1] bcast_S16x1024_S16x1024x64_0_1 (mask idx))
    (Host.gather gather_S8192x64_S16x1024x1_S16x1024x64_2_0_n_n_0_2_164 w (starts idx))
    (broadcastInDim S16x1024x64 ![] bcast_S_S16x1024x64 (constant S_ .f32 0x7FC00000#32))

/-- An elementwise select read at an index. -/
theorem select_apply {s : Shape} {α : Type} (c : IVec s 1) (a b : s.Idx → α) (j : s.Idx) :
    select c a b j = Scalar.select (c j) (a j) (b j) := rfl

section Small

variable (idx : IVec S16x1024 32) (hr : ∀ j, (idx j).toNat < 8192)
include hr

/-- A word below 8192 is below 2³¹. -/
theorem small (j : S16x1024.Idx) : (idx j).toNat < 2 ^ 31 := Nat.lt_trans (hr j) (by decide)

/-- The wrap leaves an index that is not negative. -/
theorem wrapped_eq : wrapped idx = idx := by
  funext j
  exact select_wrap_of_small (idx j) 8192#32 (small idx hr j)

/-- The start index at (r, p, q) is the index word at (r, p). -/
theorem starts_apply (i : S16x1024x1.Idx) : starts idx i = idx (ix2 (i 0) (i 1)) := by
  unfold starts
  rw [wrapped_eq idx hr]
  refine Idealize.ShloMosaic.broadcastInDim_apply _ _ _ _ (ix2 (i 0) (i 1)) (fun a => ?_)
  match a with
  | ⟨0, _⟩ => rfl
  | ⟨1, _⟩ => rfl

/-- The range test holds at every start index. -/
theorem inRange_eq (i : S16x1024x1.Idx) : inRange idx i = 1#1 := by
  show IntOp.andi (IntOp.cmpi .sge (starts idx i) 0#32) (IntOp.cmpi .sle (starts idx i) 8191#32) = 1#1
  rw [starts_apply idx hr i]
  refine andi_sge_sle_of_small _ _ (small idx hr _) ?_
  have h := hr (ix2 (i 0) (i 1))
  rw [show (8191#32 : BitVec 32).toInt = 8191 from by decide]
  omega

/-- The mask is all ones. -/
theorem mask_eq (j : S16x1024.Idx) : mask idx j = 1#1 :=
  reduce_andi_of_all _ _ _ _ (inRange_eq idx hr) (fun _ => rfl) j

/-- The mask broadcast along the row is all ones. -/
theorem rowMask_eq (j : S16x1024x64.Idx) :
    broadcastInDim S16x1024x64 ![0, 1] bcast_S16x1024_S16x1024x64_0_1 (mask idx) j = 1#1 := by
  unfold broadcastInDim
  exact mask_eq idx hr _

/-- The gathered rows: at (r, p, l), entry l of the table row the index word at (r, p) names. -/
theorem gathered_apply {α : Type} (w : S8192x64.Idx → α) (r : Fin 16) (p : Fin 1024) (l : Fin 64) :
    Host.gather gather_S8192x64_S16x1024x1_S16x1024x64_2_0_n_n_0_2_164 w (starts idx) (ix3 r p l)
      = w (ix2 (Cert.Spec.rowOf (idx (ix2 r p))) l) := by
  rw [gather_rows3_apply (N := 8192) (B := 16) (L := 1024) (W := 64) (Nat.succ_pos _) _ rfl rfl rfl rfl rfl rfl rfl w (starts idx) r p l,
    starts_apply idx hr]
  refine congrArg w (congrArg (fun q => ix2 q l) (Fin.ext ?_))
  show (gatherRow 8192 _ (idx (ix2 r p))).val = _
  rw [gatherRow_val_of_lt _ _ (small idx hr _) (hr _), Cert.Spec.rowOf_val_of_lt _ (hr _)]

/-- THE REFERENCE'S VALUE IS THE LOOKUP, when every index word is below the table's height. -/
theorem refTerm_eq_lookup (w : FVec F S8192x64 .f32) : refTerm idx w = Cert.Spec.lookup idx w := by
  funext j
  obtain ⟨r, p, l, rfl⟩ : ∃ r p l, j = ix3 r p l := ⟨j 0, j 1, j 2, eq_ix3 j⟩
  unfold refTerm
  rw [select_apply, rowMask_eq idx hr, select_one, gathered_apply idx hr, Cert.Spec.lookup_apply]

end Small

end Cert.ReferenceIdeal.RefValue

end
-- ==== Proof.RefRun.lean ====
/-
  The reference's run. The reference's entry function calls one outlined function, which calls another; a call is the
  callee's body over the call's own buffers, so the whole program is a straight line of 23 host operations, each
  writing one buffer once. Run in order from the launch contents, every buffer ends at the composition of the
  operations that produced it, and no operation writes an argument. The result buffer's composition is the
  reference's value as a function of the two arguments, which is the specification's lookup when every index word is
  below the table's height.
-/
import proofs.«206562_g3805341024366_cont_8to1_b_1019_21_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- The table argument and the index argument, as the outlined function's typed operands. -/
abbrev aW : TRef sig ⟨S8192x64, .f32⟩ := .of main_arg1
abbrev aI : TRef sig ⟨S16x1024, .i32⟩ := .of main_arg0
/-- The buffers of the one call of the outlined function. -/
abbrev φ : fn_take.Bufs := main_call0

/-- The program's 23 operations, in order, the two calls replaced by their bodies. -/
abbrev ops : List (HloOp τ sig (Elt F)) :=
  [ TRef.nullary φ.c (constantI S_ 32 0#32),
    TRef.unary φ.c φ.v0 (broadcastInDim S16x1024 ![] bcast_S_S16x1024),
    TRef.binary aI φ.v0 φ.v1 (cmpi .slt),
    TRef.nullary φ.c_0 (constantI S_ 32 8192#32),
    TRef.unary φ.c_0 φ.v2 (broadcastInDim S16x1024 ![] bcast_S_S16x1024),
    TRef.binary aI φ.v2 φ.v3 addi,
    TRef.ternary φ.v1 φ.v3 aI φ.call0.v0 select,
    TRef.unary φ.call0.v0 φ.v5 (broadcastInDim S16x1024x1 ![0, 1] bcast_S16x1024_S16x1024x1_0_1),
    TRef.nullary φ.c_1 (constantI S1 32 8191#32),
    TRef.nullary φ.c_2 (constantI S_ 32 0#32),
    TRef.unary φ.c_2 φ.v6 (broadcastInDim S16x1024x1 ![] bcast_S_S16x1024x1),
    TRef.binary φ.v5 φ.v6 φ.v7 (cmpi .sge),
    TRef.unary φ.c_1 φ.v8 (broadcastInDim S1x1x1 ![2] bcast_S1_S1x1x1_2),
    TRef.unary φ.v8 φ.v9 (broadcastInDim S16x1024x1 ![0, 1, 2] bcast_S1x1x1_S16x1024x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16x1024x1_S16x1024_d2 h_S_),
    TRef.binary aW φ.v5 φ.v13 (fun x i => Host.gather gather_S8192x64_S16x1024x1_S16x1024x64_2_0_n_n_0_2_164 x i),
    TRef.unary φ.v12 φ.v14 (broadcastInDim S16x1024x64 ![0, 1] bcast_S16x1024_S16x1024x64_0_1),
    TRef.nullary φ.cst (constant S_ .f32 0x7FC00000#32),
    TRef.unary φ.cst φ.v15 (broadcastInDim S16x1024x64 ![] bcast_S_S16x1024x64),
    TRef.ternary φ.v14 φ.v13 φ.v15 φ.v16 select ]

/-- The entry function is the straight line of these operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., nullary_bufs_sub .., nullary_bufs_sub .., unary_bufs_sub .., binary_bufs_sub ..,
   unary_bufs_sub .., unary_bufs_sub .., binary_bufs_sub .., binary_bufs_sub .., nullary_bufs_sub .., binary_bufs_sub ..,
   binary_bufs_sub .., unary_bufs_sub .., nullary_bufs_sub .., unary_bufs_sub .., ternary_bufs_sub ..⟩

set_option maxRecDepth 65536 in
/-- The result buffer after the line: the reference's value at the two arguments' contents. -/
theorem after_result (V : Valuation τ sig (Elt F)) :
    after (ops (F := F)) V (Proc.devRef .tc main_v0)
      = refTerm (F := F) (V (Proc.devRef .tc main_arg0)) (V (Proc.devRef .tc main_arg1)) := by
  after_results
  rfl

/-- The line writes neither argument. -/
theorem after_arg0 (V : Valuation τ sig (Elt F)) :
    after (ops (F := F)) V (Proc.devRef .tc main_arg0) = V (Proc.devRef .tc main_arg0) := by
  after_results
theorem after_arg1 (V : Valuation τ sig (Elt F)) :
    after (ops (F := F)) V (Proc.devRef .tc main_arg1) = V (Proc.devRef .tc main_arg1) := by
  after_results

/-- For any float values, from any memory with zero counters: every weakly fair execution of the reference terminates
    with the result at the reference's value of the arguments, the arguments unchanged. -/
theorem run_term (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩
      (fun r => ∀ c : Dev nD,
        r.2.mem ((c.tc : Thread nD τ).loc main_v0)
          = refTerm (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c main_v0).trans (after_result _),
      (h c main_arg0).trans (after_arg0 _),
      (h c main_arg1).trans (after_arg1 _)⟩)
    (run_seq scopedRefs_eq scopedSems_eq defs main (fun _ => ops) main_eq (fun _ => ops_sub) m ρ)

/-- THE REFERENCE'S RUN: from any memory whose index words are all below the table's height, every weakly fair
    execution terminates with the result the lookup of the two arguments, the arguments unchanged. -/
theorem run (m : (ℓ : Loc nD τ sig) → Buf (Elt Ideal) ℓ) (ρ : Dev nD → PrngReg)
    (hr : ∀ (c : Dev nD) (j : S16x1024.Idx), (m ((c.tc : Thread nD τ).loc main_arg0) j).toNat < 8192) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v0) = Cert.Spec.lookup (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c).1.trans (refTerm_eq_lookup _ (hr c) _), (h c).2⟩) (run_term m ρ)

end Cert.ReferenceIdeal.RefValue

end
-- ==== Proof.PreDecode.lean ====
/-
  The precondition decoded. The predicate is the conjunction of two all-reductions: every table entry is finite, and
  every index word w satisfies 0 ≤ w ≤ 8191 as a signed integer. From the second conjunct, a word whose signed value
  lies in [0, 8191] has unsigned value below 8192. The first conjunct is left unopened, so the statement holds at every
  interpretation of the floating-point operations.
-/
import proofs.«206562_g3805341024366_cont_8to1_b_1019_21_alg».proof.Pre_input_domain
import proofs.«206562_g3805341024366_cont_8to1_b_1019_21_alg».proof.Proof.Gen.Pre_input_domain
import Idealize.ShloMosaic.Lib.ReduceAll

namespace Cert.PreDecode

open Idealize.ShloMosaic Cert.Pre_input_domain

/-- The rank-0 shape has one index. -/
instance subsingleton_S_ : Subsingleton S_.Idx := ⟨fun a b => funext fun d => d.elim0⟩

/-- A 32-bit word whose signed value lies in [0, 8191] has unsigned value below 8192. -/
theorem toNat_lt_of_signed (w : BitVec 32) (h0 : IntOp.cmpi .sge w (0#32) = 1#1) (h1 : IntOp.cmpi .sle w (8191#32) = 1#1) :
    w.toNat < 8192 := by
  rw [IntOp.cmpi_sge] at h0
  rw [IntOp.cmpi_sle] at h1
  have e0 : (0#32 : BitVec 32).toInt = 0 := by decide
  have e1 : (8191#32 : BitVec 32).toInt = 8191 := by decide
  rw [e0] at h0
  rw [e1] at h1
  have hw := w.isLt
  rw [BitVec.toInt_eq_toNat_cond] at h0 h1
  split at h1 <;> omega

/-- Under the precondition every index word is below the table's height. -/
theorem inRange_of_pre {F : FTy → Type} [FloatOps F]
    (idx : IVec Cert.Pre_input_domain.S16x1024 32) (w : FVec F Cert.Pre_input_domain.S8192x64 .f32)
    (h : Cert.Pre_input_domain.fn (F := F) idx w = fun _ => 1#1) : ∀ j, (idx j).toNat < 8192 := by
  intro j
  have e := congrFun h (fun d => d.elim0)
  dsimp only [Cert.Pre_input_domain.fn] at e
  have e2 := (IntOp.andi_eq_one.1 e).2
  have e3 := Host.reduce_andi_all _ _ _ _ _ e2 j
  have e4 := IntOp.andi_eq_one.1 e3
  exact toNat_lt_of_signed (idx j) e4.1 e4.2

end Cert.PreDecode
-- ==== Proof.lean ====
/-
  The certificate's claim, assembled. Both programs compute an embedding lookup: for an index array `idx : [16, 1024]` of
  32-bit words, each below 8192 under the precondition, and a table `w : [8192, 64]`, the result `[16, 1024, 64]` holds
  `w[idx[r, p], l]` at `(r, p, l)` (Proof/Spec.lean, `Cert.Spec.lookup`).

  The kernel pads the table to 128 columns on the TensorCore and makes one SparseCore call; each of the 32 vector subcores
  looks up 512 index words and writes its four 128-row chunks of the result. Its run, with the result named as the lookup
  and the arguments unchanged, is proved once for any float values and used at both instances:
    Spec — the function; PreDecode — under the precondition every index word is below the table's height;
    Common — the kernel's names and the statement of one subcore's task; Own, BodyFacts, BodyVals, … , Body — that task;
    LaunchSets, Launch — how the arrays split among the subcores, the padding, and the whole program's run from the task;
    the K-prefixed modules — the same text over the program as printed; RefTerm, RefRun — the reference's run and value.
  Each frame is a run with the value dropped. Over the extended reals the kernel's result and the reference's are both the
  lookup of the same arguments, hence equal. The idealization rewrote no operation, so nothing is to be preserved.
-/
import proofs.«206562_g3805341024366_cont_8to1_b_1019_21_alg».proof.Proof.Launch
import proofs.«206562_g3805341024366_cont_8to1_b_1019_21_alg».proof.Proof.KLaunch
import proofs.«206562_g3805341024366_cont_8to1_b_1019_21_alg».proof.Proof.Body
import proofs.«206562_g3805341024366_cont_8to1_b_1019_21_alg».proof.Proof.KBody
import proofs.«206562_g3805341024366_cont_8to1_b_1019_21_alg».proof.Proof.RefRun
import proofs.«206562_g3805341024366_cont_8to1_b_1019_21_alg».proof.Proof.PreDecode
import proofs.«206562_g3805341024366_cont_8to1_b_1019_21_alg».proof.Proof.Gen.ReferenceIdeal
import proofs.«206562_g3805341024366_cont_8to1_b_1019_21_alg».proof.Proof.Gen.Pre_input_domain
import Idealize.ShloMosaic.Adequacy
import Idealize.ShloMosaic.Init

noncomputable section

namespace Cert.Proof

open Idealize.ShloMosaic Idealize.SL.Sem

/-- Under the precondition every index word names a table row: what the kernel's proof asks of the launch memory. -/
theorem preOK_Kernel (m : (ℓ : Loc Cert.Kernel.nD Cert.Kernel.τ Cert.Kernel.sig) → Buf (Elt Bits) ℓ) (h : Cert.Pre_Kernel m) :
    Cert.Proof.Kernel.PreOK (F := Bits) m :=
  fun d j => Cert.PreDecode.inRange_of_pre _ _ (h d) j
theorem preOK_KernelIdeal (m : (ℓ : Loc Cert.KernelIdeal.nD Cert.KernelIdeal.τ Cert.KernelIdeal.sig) → Buf (Elt Ideal) ℓ) (h : Cert.Pre_KernelIdeal m) :
    Cert.Proof.KernelIdeal.PreOK (F := Ideal) m :=
  fun d j => Cert.PreDecode.inRange_of_pre _ _ (h d) j

/-- The kernel as printed runs and leaves its arguments unchanged: its run with the result's value dropped. -/
theorem frame_Kernel : Cert.frame_Kernel := fun m ρ hpre =>
  (θ_run Cert.Kernel.defs _ _).mono (fun _ h c => (h c).2)
    (Cert.Proof.Kernel.run_main (F := Bits) m ρ (Cert.Proof.Kernel.tile_body Cert.Proof.Kernel.facts m (preOK_Kernel m hpre)))

/-- The same of the kernel read over the extended reals. -/
theorem frame_KernelIdeal : Cert.frame_KernelIdeal := fun m ρ hpre =>
  (θ_run Cert.KernelIdeal.defs _ _).mono (fun _ h c => (h c).2)
    (Cert.Proof.KernelIdeal.run_main (F := Ideal) m ρ (Cert.Proof.KernelIdeal.tile_body Cert.Proof.KernelIdeal.facts m (preOK_KernelIdeal m hpre)))

/-- The reference runs and leaves its arguments unchanged: its run with the result's value dropped. -/
theorem frame_ReferenceIdeal : Cert.frame_ReferenceIdeal := fun m ρ hpre =>
  (θ_run Cert.ReferenceIdeal.defs _ _).mono (fun _ h c => (h c).2)
    (Cert.ReferenceIdeal.RefValue.run m ρ (fun c j => Cert.PreDecode.inRange_of_pre _ _ (hpre c) j))

/-- Over the extended reals, from memories that agree on the arguments, the kernel and the reference both end with the
    lookup of the index array in the table as their result, the arguments unchanged. -/
theorem algebraic : Cert.algebraic_KernelIdeal_ReferenceIdeal := by
  intro m ρ m' ρ' hpre hagree
  refine ⟨fun c => Cert.Spec.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KernelIdeal.run_main (F := Ideal) m ρ (Cert.Proof.KernelIdeal.tile_body Cert.Proof.KernelIdeal.facts m (preOK_KernelIdeal m hpre)), ?_⟩
  refine (θ_run Cert.ReferenceIdeal.defs _ _).mono (fun _ h c => ⟨(h c).1.trans ?_, (h c).2⟩)
    (Cert.ReferenceIdeal.RefValue.run m' ρ' (fun c j => by rw [(hagree c).1]; exact preOK_KernelIdeal m hpre c j))
  rw [(hagree c).1, (hagree c).2]

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
